-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.sign_bit.Statement Cert.KernelIdeal.S1024x1024 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : FVec F S8192 .f32) (main_arg1 : FVec F S8192 .f32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  main_v8
-- ==== Kernel.lean ====
abbrev S8192 : Shape := ⟨1, ![8192]⟩
abbrev S2x18 : Shape := ⟨2, ![2, 18]⟩
abbrev S8192x1 : Shape := ⟨2, ![8192, 1]⟩
abbrev S1x8192 : Shape := ⟨2, ![1, 8192]⟩
abbrev S2x8x128 : Shape := ⟨3, ![2, 8, 128]⟩
abbrev S1x8x128 : Shape := ⟨3, ![1, 8, 128]⟩
abbrev S1x1 : Shape := ⟨2, ![1, 1]⟩
abbrev S1024x1 : Shape := ⟨2, ![1024, 1]⟩
abbrev S1x1024 : Shape := ⟨2, ![1, 1024]⟩
abbrev S1024x1024 : Shape := ⟨2, ![1024, 1024]⟩
abbrev S1x1024x1024 : Shape := ⟨3, ![1, 1024, 1024]⟩
abbrev S1 : Shape := ⟨1, ![1]⟩
abbrev S1x1x1 : Shape := ⟨3, ![1, 1, 1]⟩
abbrev S1x1024x1 : Shape := ⟨3, ![1, 1024, 1]⟩
abbrev S8x128 : Shape := ⟨2, ![8, 128]⟩
abbrev S_ : Shape := ⟨0, ![]⟩

abbrev nBuf : Space → Nat
  | .hbm => 21
  | .vmem => 10
  | .smem => 2
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S8192x1, .f32⟩
  | .hbm, ⟨3, _⟩ => ⟨S1x8192, .f32⟩
  | .hbm, ⟨4, _⟩ => ⟨S8192x1, .f32⟩
  | .hbm, ⟨5, _⟩ => ⟨S1x8192, .f32⟩
  | .hbm, ⟨6, _⟩ => ⟨S2x8x128, .f32⟩
  | .hbm, ⟨7, _⟩ => ⟨S2x8x128, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S8192x1, .f32⟩
  | .local _ .vmem, ⟨1, _⟩ => ⟨S1x8192, .f32⟩
  | .local _ .vmem, ⟨2, _⟩ => ⟨S8192x1, .f32⟩
  | .local _ .vmem, ⟨3, _⟩ => ⟨S1x8192, .f32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | .local _ .vmem, ⟨8, _⟩ => ⟨S1x1, .f32⟩
  | .local _ .vmem, ⟨9, _⟩ => ⟨S1x1, .f32⟩
  | .local _ .smem, ⟨0, _⟩ => ⟨S2x18, .i32⟩
  | .local _ .smem, ⟨1, _⟩ => ⟨S2x18, .i32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_cst : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_v9 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [BitOps F]

abbrev grid0 : Pipeline.Grid := ⟨2, ![2, 18], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 2 → Nat :=
  let arg0 : BitVec 32 := BitVec.ofNat 32 (i 0).val
  let v3 : Index := Scalar.indexCast arg0
  let arg1 : BitVec 32 := BitVec.ofNat 32 (i 1).val
  let v4 : Index := Scalar.indexCast arg1
  ![v3.toNat, v4.toNat]
def k0_mult1 (v5 : BitVec 32) : BitVec 32 :=
  let c1024_i32 : BitVec 32 := 1024#32
  let v9 : BitVec 32 := Scalar.muli v5 c1024_i32
  v9

def k0_mult2 (v8 : BitVec 32) : BitVec 32 :=
  let c1024_i32_1 : BitVec 32 := 1024#32
  let v11 : BitVec 32 := Scalar.muli v8 c1024_i32_1
  v11

def k0_off2 (v5 : BitVec 32) : Fin 2 → Nat :=
  let c1024_i32 : BitVec 32 := 1024#32
  let v9 : BitVec 32 := Scalar.muli v5 c1024_i32
  let v10 : BitVec 32 := v9
  let v13 : Index := Scalar.indexCast v10
  let c0 : Index := 0#32
  ![v13.toNat, 0]

def k0_chk1 (v5 : BitVec 32) : Prop :=
  (1024 ∣ (k0_mult1 v5).toNat) ∧
  (∀ a, (k0_off2 v5) a + S1024x1.size a ≤ S8192x1.size a)
instance k0_chk1.dec : ∀ (v5 : BitVec 32), Decidable (k0_chk1 v5) := fun v5 => decidable_of_iff' _ (Iff.of_eq (k0_chk1.eq_1 v5))
theorem k0_mult1_dvd : ∀ (v5 : BitVec 32) (k0_hw1 : k0_chk1 v5), 1024 ∣ (k0_mult1 v5).toNat := fun v5 k0_hw1 => k0_hw1.1
theorem k0_off2_inb : ∀ (v5 : BitVec 32) (k0_hw1 : k0_chk1 v5), ∀ a, (k0_off2 v5) a + S1024x1.size a ≤ S8192x1.size a := fun v5 k0_hw1 => k0_hw1.2

def k0_off3 (v8 : BitVec 32) : Fin 2 → Nat :=
  let c0_3 : Index := 0#32
  let c1024_i32_1 : BitVec 32 := 1024#32
  let v11 : BitVec 32 := Scalar.muli v8 c1024_i32_1
  let v12 : BitVec 32 := v11
  let v19 : Index := Scalar.indexCast v12
  ![0, v19.toNat]

def k0_chk2 (v8 : BitVec 32) : Prop :=
  (1024 ∣ (k0_mult2 v8).toNat) ∧
  (∀ a, (k0_off3 v8) a + S1x1024.size a ≤ S1x8192.size a)
instance k0_chk2.dec : ∀ (v8 : BitVec 32), Decidable (k0_chk2 v8) := fun v8 => decidable_of_iff' _ (Iff.of_eq (k0_chk2.eq_1 v8))
theorem k0_mult2_dvd : ∀ (v8 : BitVec 32) (k0_hw2 : k0_chk2 v8), 1024 ∣ (k0_mult2 v8).toNat := fun v8 k0_hw2 => k0_hw2.1
theorem k0_off3_inb : ∀ (v8 : BitVec 32) (k0_hw2 : k0_chk2 v8), ∀ a, (k0_off3 v8) a + S1x1024.size a ≤ S1x8192.size a := fun v8 k0_hw2 => k0_hw2.2

def k0_cond4 (i : grid0.Coords) : BitVec 1 :=
  let arg1 : BitVec 32 := BitVec.ofNat 32 (i 1).val
  let c17_i32 : BitVec 32 := 17#32
  let v59 : BitVec 1 := Scalar.cmpi .eq arg1 c17_i32
  let v60 : BitVec 32 := Scalar.extui v59
  let c0_i32_11 : BitVec 32 := 0#32
  let v61 : BitVec 1 := Scalar.cmpi .ne v60 c0_i32_11
  v61

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8192x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8192x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S8192_S8192x1 : S8192.ShapeCasts S8192x1
  shapeCasts_S8192_S1x8192 : S8192.ShapeCasts S1x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  numel1_S1x1 : S1x1.numel = 1
  h_S1024x1 : 0 < S1024x1.numel
  shapeCasts_S1024x1_S1024x1 : S1024x1.ShapeCasts S1024x1
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  iota_S1024x1024_d0_w32 : S1024x1024.Iotas .tc 32 [0]
  iota_S1024x1024_d1_w32 : S1024x1024.Iotas .tc 32 [1]
  natLt_1_32 : 1 < 32
  shapeCasts_S1024x1024_S1x1024x1024 : S1024x1024.ShapeCasts S1x1024x1024
  reduces_S1x1024x1024_S1 : S1x1024x1024.Reduces [1, 2] S1
  shapeCasts_S1_S1x1x1 : S1.ShapeCasts S1x1x1
  inpos_S1x1x1_p0_0_0 : ∀ a, (![0, 0, 0] : Fin 3 → Nat) a < S1x1x1.size a
  shapeCasts_S1024x1_S1x1024x1 : S1024x1.ShapeCasts S1x1024x1
  reduces_S1x1024x1_S1 : S1x1024x1.Reduces [1, 2] S1
  iota_S8x128_d0_w32 : S8x128.Iotas .tc 32 [0]
  iota_S8x128_d1_w32 : S8x128.Iotas .tc 32 [1]
  inpos_S1x1_p0_0 : ∀ a, (![0, 0] : Fin 2 → Nat) a < S1x1.size a
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  reducesTo_S2x8x128_S_d0_1_2 : S2x8x128.ReducesTo [0, 1, 2] S_
  h_S_ : 0 < S_.numel
  hrank0 : 0 < grid0.rank
  k0_off1_inb : ∀ i : grid0.Coords, ∀ a, (k0_off1 i) a + S1x1.size a ≤ S2x18.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x1.size a ≤ S8192x1.size a
  hwx0_0 : ∀ i : grid0.Coords, EltTy.bits .f32 = 32 ∨ (Rect.block (s := S8192x1) S8192x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x8192.size a
  hwx0_1 : ∀ i : grid0.Coords, EltTy.bits .f32 = 32 ∨ (Rect.block (s := S1x8192) S1x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x1.size a ≤ S8192x1.size a
  hwx0_2 : ∀ i : grid0.Coords, EltTy.bits .f32 = 32 ∨ (Rect.block (s := S8192x1) S8192x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .f32 = 32 ∨ (Rect.block (s := S1x8192) S1x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S2x8x128.size a
  hwx0_4 : ∀ i : grid0.Coords, EltTy.bits .f32 = 32 ∨ (Rect.block (s := S2x8x128) S1x8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x128.size a ≤ S2x8x128.size a
  hwx0_5 : ∀ i : grid0.Coords, EltTy.bits .f32 = 32 ∨ (Rect.block (s := S2x8x128) S1x8x128.size (cc0_transform_5 i) (hinb0_5 i)).WholeWords (EltTy.packing .f32)

variable [Facts₀]

abbrev spec0_0 : Pipeline.WinSpec sig grid0.rank :=
  Pipeline.WinSpec.ofSpec (Memref.whole main_v0) S8192x1.size reads0_0 false true 1 stage0_0 sem0_0 nbuf0_0 hstage0_0

abbrev spec0_1 : Pipeline.WinSpec sig grid0.rank :=
  Pipeline.WinSpec.ofSpec (Memref.whole main_v1) S1x8192.size reads0_1 false true 1 stage0_1 sem0_1 nbuf0_1 hstage0_1

abbrev spec0_2 : Pipeline.WinSpec sig grid0.rank :=
  Pipeline.WinSpec.ofSpec (Memref.whole main_v2) S8192x1.size reads0_2 false true 1 stage0_2 sem0_2 nbuf0_2 hstage0_2

abbrev spec0_3 : Pipeline.WinSpec sig grid0.rank :=
  Pipeline.WinSpec.ofSpec (Memref.whole main_v3) S1x8192.size reads0_3 false true 1 stage0_3 sem0_3 nbuf0_3 hstage0_3

abbrev spec0_4 : Pipeline.WinSpec sig grid0.rank :=
  Pipeline.WinSpec.ofSpec (Memref.whole main_v4_0) S1x8x128.size reads0_4 true false 2 stage0_4 sem0_4 nbuf0_4 hstage0_4

abbrev spec0_5 : Pipeline.WinSpec sig grid0.rank :=
  Pipeline.WinSpec.ofSpec (Memref.whole main_v4_1) S1x8x128.size reads0_5 true false 2 stage0_5 sem0_5 nbuf0_5 hstage0_5

abbrev spec0 : Fin 6 → Pipeline.WinSpec sig grid0.rank := fun | 0 => spec0_0 | 1 => spec0_1 | 2 => spec0_2 | 3 => spec0_3 | 4 => spec0_4 | 5 => spec0_5 | ⟨_ + 6, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | ⟨_ + 6, h⟩ => absurd h (Nat.not_lt.2 (Nat.le_add_left _ _))
abbrev ix0 (pf : pre0.Contents (Elt F)) : (w : Fin 6) → grid0.Coords → Fin (spec0 w).shape.rank → Nat := fun | 0 => cc0_transform_0 | 1 => cc0_transform_1 | 2 => cc0_transform_2 | 3 => cc0_transform_3 | 4 => cc0_transform_4 | 5 => cc0_transform_5 | ⟨_ + 6, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | ⟨_ + 6, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | ⟨_ + 6, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | ⟨_ + 6, h⟩ => absurd h (Nat.not_lt.2 (Nat.le_add_left _ _))
abbrev idle0 : Fin 6 → grid0.Coords → Bool := fun | 0 => fun _ => false | 1 => fun _ => false | 2 => fun _ => false | 3 => fun _ => false | 4 => fun i => !(k0_cond4 i == 1#1) | 5 => fun i => !(k0_cond4 i == 1#1) | ⟨_ + 6, h⟩ => absurd h (Nat.not_lt.2 (Nat.le_add_left _ _))

class Facts : Prop extends Facts₀ where
  harr0 : ∀ w, (spec0 w).arr.IsWhole

variable [Facts]
-- ==== ReferenceIdeal.lean ====
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩

abbrev nBuf : Space → Nat
  | .hbm => 56
  | .vmem => 0
  | .smem => 0
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S8192, .f32⟩
  | .hbm, ⟨3, _⟩ => ⟨S8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S8192x1, .f32⟩
  | .hbm, ⟨25, _⟩ => ⟨S1x8192, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192x8192, .f32⟩
  | .hbm, ⟨37, _⟩ => ⟨S8192x8192, .i32⟩
  | .hbm, ⟨38, _⟩ => ⟨S_, .i32⟩
  | .hbm, ⟨39, _⟩ => ⟨S8192x8192, .i32⟩
  | .hbm, ⟨40, _⟩ => ⟨S8192x8192, .i32⟩
  | .hbm, ⟨41, _⟩ => ⟨S8192x8192, .i32⟩
  | .hbm, ⟨42, _⟩ => ⟨S8192x8192, .i1⟩
  | .hbm, ⟨43, _⟩ => ⟨S_, .f32⟩
  | .hbm, ⟨44, _⟩ => ⟨S8192x8192, .f32⟩
  | .hbm, ⟨45, _⟩ => ⟨S8192x8192, .f32⟩
  | .hbm, ⟨46, _⟩ => ⟨S8192x8192, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_4 : Ref sig .tc := ⟨.hbm, 32, rfl⟩
abbrev main_v25 : Ref sig .tc := ⟨.hbm, 33, rfl⟩
abbrev main_v26 : Ref sig .tc := ⟨.hbm, 34, rfl⟩
abbrev main_cst_5 : Ref sig .tc := ⟨.hbm, 35, rfl⟩
abbrev main_v27 : Ref sig .tc := ⟨.hbm, 36, rfl⟩
abbrev main_call0_v0 : Ref sig .tc := ⟨.hbm, 37, rfl⟩
abbrev main_call0_c : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_cst : Ref sig .tc := ⟨.hbm, 43, rfl⟩
abbrev main_call0_v5 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_cst_9 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]

class Facts₀ : Prop where
  reducesTo_S8192_S_d0 : S8192.ReducesTo [0] S_
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_

variable [Facts₀]

class Facts : Prop extends Facts₀ where

variable [Facts]
-- ==== Proof.Spec.lean ====
/-
  The specification both programs are compared against, stated over the extended reals with no program imported.

  For vectors `p` (the predictions) and `t` (the targets) of length 8192, the loss of the ordered pair `(a, b)` is
  `max 0 (0.3 / (1 + 0.1 * |t a - t b|) * |t a - t b| - (p a - p b) * sign (t a - t b))`; the ranking sum adds it over the pairs
  with `a < b` (every pair's loss multiplied by the strict-upper-triangle indicator), and the squared-error sum adds `(p a - t a)^2`
  over `a`. The three results are the squared-error sum over 8192, the ranking sum over 8192 * 8191 / 2, and their sum, each term
  multiplied by one. The float literals are kept as their bit patterns: the same pattern is read on both sides and is never evaluated.

  The index range 0 … 8191 is also cut into 8 blocks of 1024: `row i r = 1024 * i + r`. A tile `(i, j)` of the pair matrix is the
  1024 x 1024 block of rows `row i ·` and columns `row j ·`; the two tables `il`, `jl` list, for each of 2 cores and 18 steps, one
  tile with `i ≤ j`, every such tile exactly once.
-/
import Idealize.ShloMosaic.PureOps.Ideal
import Idealize.ShloMosaic.PureOps.Ideal.Laws
import Idealize.ShloMosaic.Lib.ValueIdx

noncomputable section

namespace Cert.Spec

open Idealize.ShloMosaic

/-- The float zero, one, 0.1, 0.3, 8192 and 8192 * 8191 / 2 = 33550336, as the patterns both programs print. -/
abbrev zeroF : EReal := Ideal.ofBits .f32 0x00000000#32
abbrev oneF : EReal := Ideal.ofBits .f32 0x3F800000#32
abbrev tenthF : EReal := Ideal.ofBits .f32 0x3DCCCCCD#32
abbrev threeTenthsF : EReal := Ideal.ofBits .f32 0x3E99999A#32
abbrev countF : EReal := Ideal.ofBits .f32 0x46000000#32
abbrev pairsF : EReal := Ideal.ofBits .f32 0x4BFFF800#32

/-- The loss of one ordered pair, from the two targets and the two predictions. -/
def pairLoss (ti tj pi pj : EReal) : EReal :=
  max zeroF
    (Ideal.div threeTenthsF (oneF + tenthF * max (ti - tj) (-(ti - tj))) * max (ti - tj) (-(ti - tj))
      - (pi - pj) * Ideal.sign (ti - tj))

/-- The indicator of the strict upper triangle, as an extended real. -/
def upper (a b : ℕ) : EReal := if a < b then 1 else 0

/-- The ranking sum: every pair's loss times the indicator of `a < b`. -/
def rankSum (p t : Fin 8192 → EReal) : EReal :=
  ∑ a : Fin 8192, ∑ b : Fin 8192, pairLoss (t a) (t b) (p a) (p b) * upper a.val b.val

/-- The squared-error sum. -/
def mseSum (p t : Fin 8192 → EReal) : EReal :=
  ∑ a : Fin 8192, (p a - t a) * (p a - t a)

/-- The three results. -/
def outMse (p t : Fin 8192 → EReal) : EReal := Ideal.div (zeroF + mseSum p t) countF
def outRank (p t : Fin 8192 → EReal) : EReal := Ideal.div (zeroF + rankSum p t) pairsF
def outCombined (p t : Fin 8192 → EReal) : EReal := oneF * outMse p t + oneF * outRank p t

/-- Row `r` of block `i`. -/
def row (i : Fin 8) (r : Fin 1024) : Fin 8192 := ⟨1024 * i.val + r.val, by omega⟩

/-- The ranking sum restricted to the tile `(i, j)`. -/
def tileRank (p t : Fin 8192 → EReal) (i j : Fin 8) : EReal :=
  ∑ r : Fin 1024, ∑ q : Fin 1024,
    pairLoss (t (row i r)) (t (row j q)) (p (row i r)) (p (row j q)) * upper (row i r).val (row j q).val

/-- The squared-error sum restricted to block `i`. -/
def tileMse (p t : Fin 8192 → EReal) (i : Fin 8) : EReal :=
  ∑ r : Fin 1024, (p (row i r) - t (row i r)) * (p (row i r) - t (row i r))

/-- The tile each core visits at each step: block row, then block column. -/
def il : Fin 2 → Fin 18 → Fin 8 :=
  ![![0, 0, 0, 0, 1, 1, 1, 1, 2, 2, 2, 3, 3, 4, 4, 5, 5, 6], ![0, 0, 0, 0, 1, 1, 1, 2, 2, 2, 3, 3, 3, 4, 4, 5, 6, 7]]
def jl : Fin 2 → Fin 18 → Fin 8 :=
  ![![0, 2, 4, 6, 1, 3, 5, 7, 3, 5, 7, 4, 6, 4, 6, 5, 7, 7], ![1, 3, 5, 7, 2, 4, 6, 2, 4, 6, 3, 5, 7, 5, 7, 6, 6, 7]]

end Cert.Spec

end
-- ==== Proof.TablesBits.lean ====
/-
  The two prefetched tables, as this program's launch memory holds them when the region is entered: the host writes them as
  constants before the launch, so the word the body reads at grid point `t` = 18 * core + step is the table's entry at row-major
  position `t`. Everything the proof needs of those words is a fact about 36 literal words, decided once over the grid:
  the side conditions the body assumes of them (an offset 1024 * word is a multiple of 1024 and the 1024 rows from it lie inside
  the 8192), the two branch conditions (the row word equals the column word, or not), and the offsets themselves as 1024 times
  the specification's block indices.
-/
import proofs.«178835_j59803124630166_2_alg».proof.Proof.Gen.Kernel.Frame
import proofs.«178835_j59803124630166_2_alg».proof.Proof.Spec
import Idealize.ShloMosaic.Lib.StableHlo.Run
import Idealize.ShloMosaic.Lib.Tactic

set_option maxRecDepth 16384

noncomputable section

namespace Cert.Kernel.Tables

open Cert.Kernel Cert.Kernel.Gen
open Idealize.ShloMosaic Idealize.ShloMosaic.TcCoe Idealize.SL.Sem

variable {F : FTy → Type} [BitOps F]
variable (m : (ℓ : Loc nD τ sig) → Buf (Elt F) ℓ)

/-- The table position the body reads at the grid coordinates `i`. -/
abbrev pos (i : grid0.Coords) : S2x18.Idx :=
  (Rect.unit (s := S2x18) (k0_off1 i) S1x1.size (k0_off1_inb i)).idx (Shape.Idx.first (numel1_S1x1.symm ▸ Nat.one_pos))

/-- The row table's and the column table's word at the coordinates `i`. -/
abbrev rowWord (i : grid0.Coords) : BitVec 32 := lit0 (S2x18.rowMajor (pos i))
abbrev colWord (i : grid0.Coords) : BitVec 32 := lit1 (S2x18.rowMajor (pos i))

/-- The tables hold the constants the host wrote. -/
theorem tbl0_eq : tbl m 0 = fun i => lit0 (S2x18.rowMajor i) := by
  unfold tbl
  show StableHlo.after hostOps0 (fun b => m ((0 : Dev nD), b)) (Proc.devRef .tc main_c) = _
  after_results; rfl

theorem tbl1_eq : tbl m 1 = fun i => lit1 (S2x18.rowMajor i) := by
  unfold tbl
  show StableHlo.after hostOps0 (fun b => m ((0 : Dev nD), b)) (Proc.devRef .tc main_c_0) = _
  after_results; rfl

/-- So the words the body reads are the constants' entries at the position read. -/
theorem word0 (i : grid0.Coords) :
    tbM0_0.view.readAt (Elt F) (Rect.unit (s := S2x18) (k0_off1 i) S1x1.size (k0_off1_inb i)).toLoadRect (tbl m 0) (Shape.Idx.first (numel1_S1x1.symm ▸ Nat.one_pos))
      = rowWord i := by
  rw [tbl0_eq]; rfl

theorem word1 (i : grid0.Coords) :
    tbM0_1.view.readAt (Elt F) (Rect.unit (s := S2x18) (k0_off1 i) S1x1.size (k0_off1_inb i)).toLoadRect (tbl m 1) (Shape.Idx.first (numel1_S1x1.symm ▸ Nat.one_pos))
      = colWord i := by
  rw [tbl1_eq]; rfl

/-- The block row and the block column of the tile visited at grid position `n` = 18 * core + step (a total function of the
    natural number: positions past the grid's 36 are never used). -/
def blockRow (n : ℕ) : Fin 8 := Spec.il ⟨n / 18 % 2, Nat.mod_lt _ (by decide)⟩ ⟨n % 18, Nat.mod_lt _ (by decide)⟩
def blockCol (n : ℕ) : Fin 8 := Spec.jl ⟨n / 18 % 2, Nat.mod_lt _ (by decide)⟩ ⟨n % 18, Nat.mod_lt _ (by decide)⟩

/-- The side conditions the body assumes hold of every word it reads. -/
theorem chk1_all : ∀ t : Fin grid0.N, k0_chk1 (rowWord (grid0.coords t)) := by decide +kernel
theorem chk2_all : ∀ t : Fin grid0.N, k0_chk2 (colWord (grid0.coords t)) := by decide +kernel

/-- The two branch conditions on the words are: the block row equals the block column, and its negation. -/
theorem cond1_all : ∀ t : Fin grid0.N, cond0_1 (grid0.coords t) (rowWord (grid0.coords t)) (colWord (grid0.coords t))
    ↔ blockRow t.val = blockCol t.val := by decide +kernel
theorem cond2_all : ∀ t : Fin grid0.N, cond0_2 (grid0.coords t) (rowWord (grid0.coords t)) (colWord (grid0.coords t))
    ↔ ¬ blockRow t.val = blockCol t.val := by decide +kernel

/-- The offsets of the loads: 1024 times the block row along the rows of a column vector, 1024 times the block column
    along the lanes of a row vector. -/
theorem off2_all : ∀ t : Fin grid0.N, k0_off2 (rowWord (grid0.coords t)) = ![1024 * (blockRow t.val).val, 0] := by decide +kernel
theorem off3_all : ∀ t : Fin grid0.N, k0_off3 (colWord (grid0.coords t)) = ![0, 1024 * (blockCol t.val).val] := by decide +kernel

/-- A tile that is not diagonal lies strictly above the diagonal. -/
theorem row_lt_col_all : ∀ t : Fin grid0.N, ¬ blockRow t.val = blockCol t.val → (blockRow t.val).val < (blockCol t.val).val := by decide +kernel

/-- The same facts at a grid point, over the words as the body reads them from the launch memory's tables. -/
theorem cond1_at (t : Fin grid0.N) : cond0_1 (grid0.coords t) (tbM0_0.view.readAt (Elt F) (Rect.unit (s := S2x18) (k0_off1 (grid0.coords t)) S1x1.size (k0_off1_inb (grid0.coords t))).toLoadRect (tbl m 0) (Shape.Idx.first (numel1_S1x1.symm ▸ Nat.one_pos))) (tbM0_1.view.readAt (Elt F) (Rect.unit (s := S2x18) (k0_off1 (grid0.coords t)) S1x1.size (k0_off1_inb (grid0.coords t))).toLoadRect (tbl m 1) (Shape.Idx.first (numel1_S1x1.symm ▸ Nat.one_pos))) ↔ blockRow t.val = blockCol t.val := by
  rw [word0 m, word1 m]; exact cond1_all t
theorem cond2_at (t : Fin grid0.N) : cond0_2 (grid0.coords t) (tbM0_0.view.readAt (Elt F) (Rect.unit (s := S2x18) (k0_off1 (grid0.coords t)) S1x1.size (k0_off1_inb (grid0.coords t))).toLoadRect (tbl m 0) (Shape.Idx.first (numel1_S1x1.symm ▸ Nat.one_pos))) (tbM0_1.view.readAt (Elt F) (Rect.unit (s := S2x18) (k0_off1 (grid0.coords t)) S1x1.size (k0_off1_inb (grid0.coords t))).toLoadRect (tbl m 1) (Shape.Idx.first (numel1_S1x1.symm ▸ Nat.one_pos))) ↔ ¬ blockRow t.val = blockCol t.val := by
  rw [word0 m, word1 m]; exact cond2_all t
theorem off2_at (t : Fin grid0.N) : k0_off2 (tbM0_0.view.readAt (Elt F) (Rect.unit (s := S2x18) (k0_off1 (grid0.coords t)) S1x1.size (k0_off1_inb (grid0.coords t))).toLoadRect (tbl m 0) (Shape.Idx.first (numel1_S1x1.symm ▸ Nat.one_pos))) = ![1024 * (blockRow t.val).val, 0] := by
  rw [word0 m]; exact off2_all t
theorem off3_at (t : Fin grid0.N) : k0_off3 (tbM0_1.view.readAt (Elt F) (Rect.unit (s := S2x18) (k0_off1 (grid0.coords t)) S1x1.size (k0_off1_inb (grid0.coords t))).toLoadRect (tbl m 1) (Shape.Idx.first (numel1_S1x1.symm ▸ Nat.one_pos))) = ![0, 1024 * (blockCol t.val).val] := by
  rw [word1 m]; exact off3_all t

/-- The frame's two hypotheses: the table-indexed-block condition is vacuous (no index map reads a table), and the
    assumed side conditions hold of the constant words. -/
theorem ok : Ok m := trivial

theorem hyps (hO : Ok m) : Hyps m hO := fun c t =>
  ⟨(word0 m (grid0.coords t)).symm ▸ chk1_all t, (word1 m (grid0.coords t)).symm ▸ chk2_all t⟩

end Cert.Kernel.Tables

end
-- ==== Proof.TablesIdeal.lean ====
/-
  The two prefetched tables, as this program's launch memory holds them when the region is entered: the host writes them as
  constants before the launch, so the word the body reads at grid point `t` = 18 * core + step is the table's entry at row-major
  position `t`. Everything the proof needs of those words is a fact about 36 literal words, decided once over the grid:
  the side conditions the body assumes of them (an offset 1024 * word is a multiple of 1024 and the 1024 rows from it lie inside
  the 8192), the two branch conditions (the row word equals the column word, or not), and the offsets themselves as 1024 times
  the specification's block indices.
-/
import proofs.«178835_j59803124630166_2_alg».proof.Proof.Gen.KernelIdeal.Frame
import proofs.«178835_j59803124630166_2_alg».proof.Proof.Spec
import Idealize.ShloMosaic.Lib.StableHlo.Run
import Idealize.ShloMosaic.Lib.Tactic

set_option maxRecDepth 16384

noncomputable section

namespace Cert.KernelIdeal.Tables

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The table position the body reads at the grid coordinates `i`. -/
abbrev pos (i : grid0.Coords) : S2x18.Idx :=
  (Rect.unit (s := S2x18) (k0_off1 i) S1x1.size (k0_off1_inb i)).idx (Shape.Idx.first (numel1_S1x1.symm ▸ Nat.one_pos))

/-- The row table's and the column table's word at the coordinates `i`. -/
abbrev rowWord (i : grid0.Coords) : BitVec 32 := lit0 (S2x18.rowMajor (pos i))
abbrev colWord (i : grid0.Coords) : BitVec 32 := lit1 (S2x18.rowMajor (pos i))

/-- The tables hold the constants the host wrote. -/
theorem tbl0_eq : tbl m 0 = fun i => lit0 (S2x18.rowMajor i) := by
  unfold tbl
  show StableHlo.after hostOps0 (fun b => m ((0 : Dev nD), b)) (Proc.devRef .tc main_c) = _
  after_results; rfl

theorem tbl1_eq : tbl m 1 = fun i => lit1 (S2x18.rowMajor i) := by
  unfold tbl
  show StableHlo.after hostOps0 (fun b => m ((0 : Dev nD), b)) (Proc.devRef .tc main_c_0) = _
  after_results; rfl

/-- So the words the body reads are the constants' entries at the position read. -/
theorem word0 (i : grid0.Coords) :
    tbM0_0.view.readAt (Elt F) (Rect.unit (s := S2x18) (k0_off1 i) S1x1.size (k0_off1_inb i)).toLoadRect (tbl m 0) (Shape.Idx.first (numel1_S1x1.symm ▸ Nat.one_pos))
      = rowWord i := by
  rw [tbl0_eq]; rfl

theorem word1 (i : grid0.Coords) :
    tbM0_1.view.readAt (Elt F) (Rect.unit (s := S2x18) (k0_off1 i) S1x1.size (k0_off1_inb i)).toLoadRect (tbl m 1) (Shape.Idx.first (numel1_S1x1.symm ▸ Nat.one_pos))
      = colWord i := by
  rw [tbl1_eq]; rfl

/-- The block row and the block column of the tile visited at grid position `n` = 18 * core + step (a total function of the
    natural number: positions past the grid's 36 are never used). -/
def blockRow (n : ℕ) : Fin 8 := Spec.il ⟨n / 18 % 2, Nat.mod_lt _ (by decide)⟩ ⟨n % 18, Nat.mod_lt _ (by decide)⟩
def blockCol (n : ℕ) : Fin 8 := Spec.jl ⟨n / 18 % 2, Nat.mod_lt _ (by decide)⟩ ⟨n % 18, Nat.mod_lt _ (by decide)⟩

/-- The side conditions the body assumes hold of every word it reads. -/
theorem chk1_all : ∀ t : Fin grid0.N, k0_chk1 (rowWord (grid0.coords t)) := by decide +kernel
theorem chk2_all : ∀ t : Fin grid0.N, k0_chk2 (colWord (grid0.coords t)) := by decide +kernel

/-- The two branch conditions on the words are: the block row equals the block column, and its negation. -/
theorem cond1_all : ∀ t : Fin grid0.N, cond0_1 (grid0.coords t) (rowWord (grid0.coords t)) (colWord (grid0.coords t))
    ↔ blockRow t.val = blockCol t.val := by decide +kernel
theorem cond2_all : ∀ t : Fin grid0.N, cond0_2 (grid0.coords t) (rowWord (grid0.coords t)) (colWord (grid0.coords t))
    ↔ ¬ blockRow t.val = blockCol t.val := by decide +kernel

/-- The offsets of the loads: 1024 times the block row along the rows of a column vector, 1024 times the block column
    along the lanes of a row vector. -/
theorem off2_all : ∀ t : Fin grid0.N, k0_off2 (rowWord (grid0.coords t)) = ![1024 * (blockRow t.val).val, 0] := by decide +kernel
theorem off3_all : ∀ t : Fin grid0.N, k0_off3 (colWord (grid0.coords t)) = ![0, 1024 * (blockCol t.val).val] := by decide +kernel

/-- A tile that is not diagonal lies strictly above the diagonal. -/
theorem row_lt_col_all : ∀ t : Fin grid0.N, ¬ blockRow t.val = blockCol t.val → (blockRow t.val).val < (blockCol t.val).val := by decide +kernel

/-- The same facts at a grid point, over the words as the body reads them from the launch memory's tables. -/
theorem cond1_at (t : Fin grid0.N) : cond0_1 (grid0.coords t) (tbM0_0.view.readAt (Elt F) (Rect.unit (s := S2x18) (k0_off1 (grid0.coords t)) S1x1.size (k0_off1_inb (grid0.coords t))).toLoadRect (tbl m 0) (Shape.Idx.first (numel1_S1x1.symm ▸ Nat.one_pos))) (tbM0_1.view.readAt (Elt F) (Rect.unit (s := S2x18) (k0_off1 (grid0.coords t)) S1x1.size (k0_off1_inb (grid0.coords t))).toLoadRect (tbl m 1) (Shape.Idx.first (numel1_S1x1.symm ▸ Nat.one_pos))) ↔ blockRow t.val = blockCol t.val := by
  rw [word0 m, word1 m]; exact cond1_all t
theorem cond2_at (t : Fin grid0.N) : cond0_2 (grid0.coords t) (tbM0_0.view.readAt (Elt F) (Rect.unit (s := S2x18) (k0_off1 (grid0.coords t)) S1x1.size (k0_off1_inb (grid0.coords t))).toLoadRect (tbl m 0) (Shape.Idx.first (numel1_S1x1.symm ▸ Nat.one_pos))) (tbM0_1.view.readAt (Elt F) (Rect.unit (s := S2x18) (k0_off1 (grid0.coords t)) S1x1.size (k0_off1_inb (grid0.coords t))).toLoadRect (tbl m 1) (Shape.Idx.first (numel1_S1x1.symm ▸ Nat.one_pos))) ↔ ¬ blockRow t.val = blockCol t.val := by
  rw [word0 m, word1 m]; exact cond2_all t
theorem off2_at (t : Fin grid0.N) : k0_off2 (tbM0_0.view.readAt (Elt F) (Rect.unit (s := S2x18) (k0_off1 (grid0.coords t)) S1x1.size (k0_off1_inb (grid0.coords t))).toLoadRect (tbl m 0) (Shape.Idx.first (numel1_S1x1.symm ▸ Nat.one_pos))) = ![1024 * (blockRow t.val).val, 0] := by
  rw [word0 m]; exact off2_all t
theorem off3_at (t : Fin grid0.N) : k0_off3 (tbM0_1.view.readAt (Elt F) (Rect.unit (s := S2x18) (k0_off1 (grid0.coords t)) S1x1.size (k0_off1_inb (grid0.coords t))).toLoadRect (tbl m 1) (Shape.Idx.first (numel1_S1x1.symm ▸ Nat.one_pos))) = ![0, 1024 * (blockCol t.val).val] := by
  rw [word1 m]; exact off3_all t

/-- The frame's two hypotheses: the table-indexed-block condition is vacuous (no index map reads a table), and the
    assumed side conditions hold of the constant words. -/
theorem ok : Ok m := trivial

theorem hyps (hO : Ok m) : Hyps m hO := fun c t =>
  ⟨(word0 m (grid0.coords t)).symm ▸ chk1_all t, (word1 m (grid0.coords t)).symm ▸ chk2_all t⟩

end Cert.KernelIdeal.Tables

end
-- ==== Proof.PiecesIdeal.lean ====
/-
  What each control case of the kernel body leaves in the two one-element accumulators and in the two output tiles, as the
  body's arithmetic applied to what it loaded. The body loads four tiles through offsets computed from the two table words
  read at the grid point: 1024 rows of the prediction column and of the target column starting at 1024 * (row word), and 1024
  lanes of the prediction row and of the target row starting at 1024 * (column word). On a diagonal tile it adds the masked
  pair-loss sum to the first accumulator and the squared-error sum to the second; on an off-diagonal tile it adds the plain
  pair-loss sum to the first and leaves the second alone; at a core's first step both accumulators are zeroed before that; at
  its last step both are copied, at row 0 and lane 0 of an otherwise zero tile, into the two outputs.
-/
import proofs.«178835_j59803124630166_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- 1024 rows of a column vector from the offset the row word gives; 1024 lanes of a row vector from the offset the column
    word gives. -/
abbrev colTile (x : Vec F S8192x1 .f32) {w : BitVec 32} (hw : k0_chk1 w) : Vec F S1024x1 .f32 :=
  View.ld x (Rect.unit (s := S8192x1) (k0_off2 w) S1024x1.size (k0_off2_inb w hw))
abbrev rowTile (x : Vec F S1x8192 .f32) {w : BitVec 32} (hw : k0_chk2 w) : Vec F S1x1024 .f32 :=
  View.ld x (Rect.unit (s := S1x8192) (k0_off3 w) S1x1024.size (k0_off3_inb w hw))

/-- The three accumulating payloads over the four tiles: the masked pair-loss sum, the plain pair-loss sum, the squared-error sum,
    each added to `acc`. -/
abbrev rankDiag (x0 : Vec F S8192x1 .f32) (x1 : Vec F S1x8192 .f32) (x2 : Vec F S8192x1 .f32) (x3 : Vec F S1x8192 .f32)
    {w0 w1 : BitVec 32} (h1 : k0_chk1 w0) (h2 : k0_chk2 w1) (acc : Vec F S1x1 .f32) : Vec F S1x1 .f32 :=
  k0_pay2 (k0_pay12 (colTile x2 h1) (rowTile x3 h2)) (k0_pay13 (colTile x2 h1) (rowTile x3 h2))
    (k0_pay14 (colTile x0 h1) (rowTile x1 h2)) (k0_pay15 (colTile x2 h1) (rowTile x3 h2)) acc
abbrev rankOff (x0 : Vec F S8192x1 .f32) (x1 : Vec F S1x8192 .f32) (x2 : Vec F S8192x1 .f32) (x3 : Vec F S1x8192 .f32)
    {w0 w1 : BitVec 32} (h1 : k0_chk1 w0) (h2 : k0_chk2 w1) (acc : Vec F S1x1 .f32) : Vec F S1x1 .f32 :=
  k0_pay4 (k0_pay12 (colTile x2 h1) (rowTile x3 h2)) (k0_pay13 (colTile x2 h1) (rowTile x3 h2))
    (k0_pay14 (colTile x0 h1) (rowTile x1 h2)) (k0_pay15 (colTile x2 h1) (rowTile x3 h2)) acc
abbrev mseDiag (x0 x2 : Vec F S8192x1 .f32) {w0 : BitVec 32} (h1 : k0_chk1 w0) (acc : Vec F S1x1 .f32) : Vec F S1x1 .f32 :=
  k0_pay3 (k0_pay10 (colTile x0 h1)) (k0_pay11 (colTile x2 h1)) acc

/-- Case B (first, diagonal: zero, then the masked sum). -/
theorem sout0_B_0_eq (c : Dev nD) (i : grid0.Coords) (arg4 : Memref sig .tc .vmem S8192x1 .f32) (harg4 : arg4.IsWhole) (arg5 : Memref sig .tc .vmem S1x8192 .f32) (harg5 : arg5.IsWhole) (arg6 : Memref sig .tc .vmem S8192x1 .f32) (harg6 : arg6.IsWhole) (arg7 : Memref sig .tc .vmem S1x8192 .f32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S1x1 .f32) (harg10 : arg10.IsWhole) (arg11 : Memref sig .tc .vmem S1x1 .f32) (harg11 : arg11.IsWhole) (hc0 : cond0_0 i) (hc3 : ¬cond0_3 i)
    (x0 : Vec F S8192x1 .f32) (x1 : Vec F S1x8192 .f32) (x2 : Vec F S8192x1 .f32) (x3 : Vec F S1x8192 .f32) (xt0 : TbBuf0 (F := F) c tbM0_0) (xt1 : TbBuf0 (F := F) c tbM0_1) (hc1 : cond0_1 i (tbM0_0.view.readAt (Elt F) (Rect.unit (s := S2x18) (k0_off1 i) S1x1.size (k0_off1_inb i)).toLoadRect xt0 (Shape.Idx.first (numel1_S1x1.symm ▸ Nat.one_pos))) (tbM0_1.view.readAt (Elt F) (Rect.unit (s := S2x18) (k0_off1 i) S1x1.size (k0_off1_inb i)).toLoadRect xt1 (Shape.Idx.first (numel1_S1x1.symm ▸ Nat.one_pos)))) (hc2 : ¬cond0_2 i (tbM0_0.view.readAt (Elt F) (Rect.unit (s := S2x18) (k0_off1 i) S1x1.size (k0_off1_inb i)).toLoadRect xt0 (Shape.Idx.first (numel1_S1x1.symm ▸ Nat.one_pos))) (tbM0_1.view.readAt (Elt F) (Rect.unit (s := S2x18) (k0_off1 i) S1x1.size (k0_off1_inb i)).toLoadRect xt1 (Shape.Idx.first (numel1_S1x1.symm ▸ Nat.one_pos)))) (k0_hw1 : k0_chk1 (tbM0_0.view.readAt (Elt F) (Rect.unit (s := S2x18) (k0_off1 i) S1x1.size (k0_off1_inb i)).toLoadRect xt0 (Shape.Idx.first (numel1_S1x1.symm ▸ Nat.one_pos)))) (k0_hw2 : k0_chk2 (tbM0_1.view.readAt (Elt F) (Rect.unit (s := S2x18) (k0_off1 i) S1x1.size (k0_off1_inb i)).toLoadRect xt1 (Shape.Idx.first (numel1_S1x1.symm ▸ Nat.one_pos)))) :
    sout0_B_0 c i arg4 harg4 arg5 harg5 arg6 harg6 arg7 harg7 arg8 harg8 arg9 harg9 arg10 harg10 arg11 harg11 hc0 hc3 x0 x1 x2 x3 xt0 xt1 hc1 hc2 k0_hw1 k0_hw2 = rankDiag x0 x1 x2 x3 k0_hw1 k0_hw2 k0_pay8 := by
  unfold sout0_B_0
  rw [View.read_writes_eq_canon _ _ _ (scover0_B_0 c i arg4 harg4 arg5 harg5 arg6 harg6 arg7 harg7 arg8 harg8 arg9 harg9 arg10 harg10 arg11 harg11 hc0 hc3 x0 x1 x2 x3 xt0 xt1 hc1 hc2 k0_hw1 k0_hw2)]
  unfold kernelRun0_B
  dsimp only
  sl_unfold_words
  rw [View.canon_cons_unit_zero (S := S1x1) hz2]
  simp only [View.readCov_unit_zero (S := S1x1) _ hz2, View.readAt_eq_ld, harg4.read_unread, harg5.read_unread, harg6.read_unread, harg7.read_unread, harg10.read_unread, harg11.read_unread, View.ld_unit_zero (S := S1x1) hz2]
  rfl

/-- Case B (first, diagonal: zero, then the squared errors). -/
theorem sout0_B_1_eq (c : Dev nD) (i : grid0.Coords) (arg4 : Memref sig .tc .vmem S8192x1 .f32) (harg4 : arg4.IsWhole) (arg5 : Memref sig .tc .vmem S1x8192 .f32) (harg5 : arg5.IsWhole) (arg6 : Memref sig .tc .vmem S8192x1 .f32) (harg6 : arg6.IsWhole) (arg7 : Memref sig .tc .vmem S1x8192 .f32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S1x1 .f32) (harg10 : arg10.IsWhole) (arg11 : Memref sig .tc .vmem S1x1 .f32) (harg11 : arg11.IsWhole) (hc0 : cond0_0 i) (hc3 : ¬cond0_3 i)
    (x0 : Vec F S8192x1 .f32) (x1 : Vec F S1x8192 .f32) (x2 : Vec F S8192x1 .f32) (x3 : Vec F S1x8192 .f32) (xt0 : TbBuf0 (F := F) c tbM0_0) (xt1 : TbBuf0 (F := F) c tbM0_1) (hc1 : cond0_1 i (tbM0_0.view.readAt (Elt F) (Rect.unit (s := S2x18) (k0_off1 i) S1x1.size (k0_off1_inb i)).toLoadRect xt0 (Shape.Idx.first (numel1_S1x1.symm ▸ Nat.one_pos))) (tbM0_1.view.readAt (Elt F) (Rect.unit (s := S2x18) (k0_off1 i) S1x1.size (k0_off1_inb i)).toLoadRect xt1 (Shape.Idx.first (numel1_S1x1.symm ▸ Nat.one_pos)))) (hc2 : ¬cond0_2 i (tbM0_0.view.readAt (Elt F) (Rect.unit (s := S2x18) (k0_off1 i) S1x1.size (k0_off1_inb i)).toLoadRect xt0 (Shape.Idx.first (numel1_S1x1.symm ▸ Nat.one_pos))) (tbM0_1.view.readAt (Elt F) (Rect.unit (s := S2x18) (k0_off1 i) S1x1.size (k0_off1_inb i)).toLoadRect xt1 (Shape.Idx.first (numel1_S1x1.symm ▸ Nat.one_pos)))) (k0_hw1 : k0_chk1 (tbM0_0.view.readAt (Elt F) (Rect.unit (s := S2x18) (k0_off1 i) S1x1.size (k0_off1_inb i)).toLoadRect xt0 (Shape.Idx.first (numel1_S1x1.symm ▸ Nat.one_pos)))) (k0_hw2 : k0_chk2 (tbM0_1.view.readAt (Elt F) (Rect.unit (s := S2x18) (k0_off1 i) S1x1.size (k0_off1_inb i)).toLoadRect xt1 (Shape.Idx.first (numel1_S1x1.symm ▸ Nat.one_pos)))) :
    sout0_B_1 c i arg4 harg4 arg5 harg5 arg6 harg6 arg7 harg7 arg8 harg8 arg9 harg9 arg10 harg10 arg11 harg11 hc0 hc3 x0 x1 x2 x3 xt0 xt1 hc1 hc2 k0_hw1 k0_hw2 = mseDiag x0 x2 k0_hw1 k0_pay9 := by
  unfold sout0_B_1
  rw [View.read_writes_eq_canon _ _ _ (scover0_B_1 c i arg4 harg4 arg5 harg5 arg6 harg6 arg7 harg7 arg8 harg8 arg9 harg9 arg10 harg10 arg11 harg11 hc0 hc3 x0 x1 x2 x3 xt0 xt1 hc1 hc2 k0_hw1 k0_hw2)]
  unfold kernelRun0_B
  dsimp only
  sl_unfold_words
  rw [View.canon_cons_unit_zero (S := S1x1) hz2]
  simp only [View.readCov_unit_zero (S := S1x1) _ hz2, View.readAt_eq_ld, harg4.read_unread, harg5.read_unread, harg6.read_unread, harg7.read_unread, harg10.read_unread, harg11.read_unread, View.ld_unit_zero (S := S1x1) hz2]
  rfl

/-- Case C (first, off-diagonal: zero, then the plain sum). -/
theorem sout0_C_0_eq (c : Dev nD) (i : grid0.Coords) (arg4 : Memref sig .tc .vmem S8192x1 .f32) (harg4 : arg4.IsWhole) (arg5 : Memref sig .tc .vmem S1x8192 .f32) (harg5 : arg5.IsWhole) (arg6 : Memref sig .tc .vmem S8192x1 .f32) (harg6 : arg6.IsWhole) (arg7 : Memref sig .tc .vmem S1x8192 .f32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S1x1 .f32) (harg10 : arg10.IsWhole) (arg11 : Memref sig .tc .vmem S1x1 .f32) (harg11 : arg11.IsWhole) (hc0 : cond0_0 i) (hc3 : ¬cond0_3 i)
    (x0 : Vec F S8192x1 .f32) (x1 : Vec F S1x8192 .f32) (x2 : Vec F S8192x1 .f32) (x3 : Vec F S1x8192 .f32) (xt0 : TbBuf0 (F := F) c tbM0_0) (xt1 : TbBuf0 (F := F) c tbM0_1) (hc1 : ¬cond0_1 i (tbM0_0.view.readAt (Elt F) (Rect.unit (s := S2x18) (k0_off1 i) S1x1.size (k0_off1_inb i)).toLoadRect xt0 (Shape.Idx.first (numel1_S1x1.symm ▸ Nat.one_pos))) (tbM0_1.view.readAt (Elt F) (Rect.unit (s := S2x18) (k0_off1 i) S1x1.size (k0_off1_inb i)).toLoadRect xt1 (Shape.Idx.first (numel1_S1x1.symm ▸ Nat.one_pos)))) (hc2 : cond0_2 i (tbM0_0.view.readAt (Elt F) (Rect.unit (s := S2x18) (k0_off1 i) S1x1.size (k0_off1_inb i)).toLoadRect xt0 (Shape.Idx.first (numel1_S1x1.symm ▸ Nat.one_pos))) (tbM0_1.view.readAt (Elt F) (Rect.unit (s := S2x18) (k0_off1 i) S1x1.size (k0_off1_inb i)).toLoadRect xt1 (Shape.Idx.first (numel1_S1x1.symm ▸ Nat.one_pos)))) (k0_hw1 : k0_chk1 (tbM0_0.view.readAt (Elt F) (Rect.unit (s := S2x18) (k0_off1 i) S1x1.size (k0_off1_inb i)).toLoadRect xt0 (Shape.Idx.first (numel1_S1x1.symm ▸ Nat.one_pos)))) (k0_hw2 : k0_chk2 (tbM0_1.view.readAt (Elt F) (Rect.unit (s := S2x18) (k0_off1 i) S1x1.size (k0_off1_inb i)).toLoadRect xt1 (Shape.Idx.first (numel1_S1x1.symm ▸ Nat.one_pos)))) :
    sout0_C_0 c i arg4 harg4 arg5 harg5 arg6 harg6 arg7 harg7 arg8 harg8 arg9 harg9 arg10 harg10 arg11 harg11 hc0 hc3 x0 x1 x2 x3 xt0 xt1 hc1 hc2 k0_hw1 k0_hw2 = rankOff x0 x1 x2 x3 k0_hw1 k0_hw2 k0_pay8 := by
  unfold sout0_C_0
  rw [View.read_writes_eq_canon _ _ _ (scover0_C_0 c i arg4 harg4 arg5 harg5 arg6 harg6 arg7 harg7 arg8 harg8 arg9 harg9 arg10 harg10 arg11 harg11 hc0 hc3 x0 x1 x2 x3 xt0 xt1 hc1 hc2 k0_hw1 k0_hw2)]
  unfold kernelRun0_C
  dsimp only
  sl_unfold_words
  rw [View.canon_cons_unit_zero (S := S1x1) hz2]
  simp only [View.readCov_unit_zero (S := S1x1) _ hz2, View.readAt_eq_ld, harg4.read_unread, harg5.read_unread, harg6.read_unread, harg7.read_unread, harg10.read_unread, harg11.read_unread, View.ld_unit_zero (S := S1x1) hz2]
  rfl

/-- Case C (first, off-diagonal: zero). -/
theorem sout0_C_1_eq (c : Dev nD) (i : grid0.Coords) (arg4 : Memref sig .tc .vmem S8192x1 .f32) (harg4 : arg4.IsWhole) (arg5 : Memref sig .tc .vmem S1x8192 .f32) (harg5 : arg5.IsWhole) (arg6 : Memref sig .tc .vmem S8192x1 .f32) (harg6 : arg6.IsWhole) (arg7 : Memref sig .tc .vmem S1x8192 .f32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S1x1 .f32) (harg10 : arg10.IsWhole) (arg11 : Memref sig .tc .vmem S1x1 .f32) (harg11 : arg11.IsWhole) (hc0 : cond0_0 i) (hc3 : ¬cond0_3 i)
    (x0 : Vec F S8192x1 .f32) (x1 : Vec F S1x8192 .f32) (x2 : Vec F S8192x1 .f32) (x3 : Vec F S1x8192 .f32) (xt0 : TbBuf0 (F := F) c tbM0_0) (xt1 : TbBuf0 (F := F) c tbM0_1) (hc1 : ¬cond0_1 i (tbM0_0.view.readAt (Elt F) (Rect.unit (s := S2x18) (k0_off1 i) S1x1.size (k0_off1_inb i)).toLoadRect xt0 (Shape.Idx.first (numel1_S1x1.symm ▸ Nat.one_pos))) (tbM0_1.view.readAt (Elt F) (Rect.unit (s := S2x18) (k0_off1 i) S1x1.size (k0_off1_inb i)).toLoadRect xt1 (Shape.Idx.first (numel1_S1x1.symm ▸ Nat.one_pos)))) (hc2 : cond0_2 i (tbM0_0.view.readAt (Elt F) (Rect.unit (s := S2x18) (k0_off1 i) S1x1.size (k0_off1_inb i)).toLoadRect xt0 (Shape.Idx.first (numel1_S1x1.symm ▸ Nat.one_pos))) (tbM0_1.view.readAt (Elt F) (Rect.unit (s := S2x18) (k0_off1 i) S1x1.size (k0_off1_inb i)).toLoadRect xt1 (Shape.Idx.first (numel1_S1x1.symm ▸ Nat.one_pos)))) (k0_hw1 : k0_chk1 (tbM0_0.view.readAt (Elt F) (Rect.unit (s := S2x18) (k0_off1 i) S1x1.size (k0_off1_inb i)).toLoadRect xt0 (Shape.Idx.first (numel1_S1x1.symm ▸ Nat.one_pos)))) (k0_hw2 : k0_chk2 (tbM0_1.view.readAt (Elt F) (Rect.unit (s := S2x18) (k0_off1 i) S1x1.size (k0_off1_inb i)).toLoadRect xt1 (Shape.Idx.first (numel1_S1x1.symm ▸ Nat.one_pos)))) :
    sout0_C_1 c i arg4 harg4 arg5 harg5 arg6 harg6 arg7 harg7 arg8 harg8 arg9 harg9 arg10 harg10 arg11 harg11 hc0 hc3 x0 x1 x2 x3 xt0 xt1 hc1 hc2 k0_hw1 k0_hw2 = k0_pay9 := by
  unfold sout0_C_1
  rw [View.read_writes_eq_canon _ _ _ (scover0_C_1 c i arg4 harg4 arg5 harg5 arg6 harg6 arg7 harg7 arg8 harg8 arg9 harg9 arg10 harg10 arg11 harg11 hc0 hc3 x0 x1 x2 x3 xt0 xt1 hc1 hc2 k0_hw1 k0_hw2)]
  unfold kernelRun0_C
  dsimp only
  sl_unfold_words
  rw [View.canon_unit_zero (S := S1x1) hz2]

/-- Case F (middle, diagonal). -/
theorem sout0_F_0_eq (c : Dev nD) (i : grid0.Coords) (arg4 : Memref sig .tc .vmem S8192x1 .f32) (harg4 : arg4.IsWhole) (arg5 : Memref sig .tc .vmem S1x8192 .f32) (harg5 : arg5.IsWhole) (arg6 : Memref sig .tc .vmem S8192x1 .f32) (harg6 : arg6.IsWhole) (arg7 : Memref sig .tc .vmem S1x8192 .f32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc3 : ¬cond0_3 i)
    (x0 : Vec F S8192x1 .f32) (x1 : Vec F S1x8192 .f32) (x2 : Vec F S8192x1 .f32) (x3 : Vec F S1x8192 .f32) (xt0 : TbBuf0 (F := F) c tbM0_0) (xt1 : TbBuf0 (F := F) c tbM0_1) (xs0 : Vec F S1x1 .f32) (xs1 : Vec F S1x1 .f32) (hc1 : cond0_1 i (tbM0_0.view.readAt (Elt F) (Rect.unit (s := S2x18) (k0_off1 i) S1x1.size (k0_off1_inb i)).toLoadRect xt0 (Shape.Idx.first (numel1_S1x1.symm ▸ Nat.one_pos))) (tbM0_1.view.readAt (Elt F) (Rect.unit (s := S2x18) (k0_off1 i) S1x1.size (k0_off1_inb i)).toLoadRect xt1 (Shape.Idx.first (numel1_S1x1.symm ▸ Nat.one_pos)))) (hc2 : ¬cond0_2 i (tbM0_0.view.readAt (Elt F) (Rect.unit (s := S2x18) (k0_off1 i) S1x1.size (k0_off1_inb i)).toLoadRect xt0 (Shape.Idx.first (numel1_S1x1.symm ▸ Nat.one_pos))) (tbM0_1.view.readAt (Elt F) (Rect.unit (s := S2x18) (k0_off1 i) S1x1.size (k0_off1_inb i)).toLoadRect xt1 (Shape.Idx.first (numel1_S1x1.symm ▸ Nat.one_pos)))) (k0_hw1 : k0_chk1 (tbM0_0.view.readAt (Elt F) (Rect.unit (s := S2x18) (k0_off1 i) S1x1.size (k0_off1_inb i)).toLoadRect xt0 (Shape.Idx.first (numel1_S1x1.symm ▸ Nat.one_pos)))) (k0_hw2 : k0_chk2 (tbM0_1.view.readAt (Elt F) (Rect.unit (s := S2x18) (k0_off1 i) S1x1.size (k0_off1_inb i)).toLoadRect xt1 (Shape.Idx.first (numel1_S1x1.symm ▸ Nat.one_pos)))) :
    sout0_F_0 c i arg4 harg4 arg5 harg5 arg6 harg6 arg7 harg7 arg8 harg8 arg9 harg9 arg10 harg10 arg11 harg11 hc0 hc3 x0 x1 x2 x3 xt0 xt1 xs0 xs1 hc1 hc2 k0_hw1 k0_hw2 = rankDiag x0 x1 x2 x3 k0_hw1 k0_hw2 xs0 := by
  unfold sout0_F_0
  rw [View.read_writes_eq_canon _ _ _ (scover0_F_0 c i arg4 harg4 arg5 harg5 arg6 harg6 arg7 harg7 arg8 harg8 arg9 harg9 arg10 harg10 arg11 harg11 hc0 hc3 x0 x1 x2 x3 xt0 xt1 xs0 xs1 hc1 hc2 k0_hw1 k0_hw2)]
  unfold kernelRun0_F
  dsimp only
  sl_unfold_words
  rw [View.canon_unit_zero (S := S1x1) hz2]
  simp only [View.readCov_unit_zero (S := S1x1) _ hz2, View.readAt_eq_ld, harg4.read_unread, harg5.read_unread, harg6.read_unread, harg7.read_unread, harg10.read_unread, harg11.read_unread, View.ld_unit_zero (S := S1x1) hz2]
  rfl

/-- Case F (middle, diagonal). -/
theorem sout0_F_1_eq (c : Dev nD) (i : grid0.Coords) (arg4 : Memref sig .tc .vmem S8192x1 .f32) (harg4 : arg4.IsWhole) (arg5 : Memref sig .tc .vmem S1x8192 .f32) (harg5 : arg5.IsWhole) (arg6 : Memref sig .tc .vmem S8192x1 .f32) (harg6 : arg6.IsWhole) (arg7 : Memref sig .tc .vmem S1x8192 .f32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc3 : ¬cond0_3 i)
    (x0 : Vec F S8192x1 .f32) (x1 : Vec F S1x8192 .f32) (x2 : Vec F S8192x1 .f32) (x3 : Vec F S1x8192 .f32) (xt0 : TbBuf0 (F := F) c tbM0_0) (xt1 : TbBuf0 (F := F) c tbM0_1) (xs0 : Vec F S1x1 .f32) (xs1 : Vec F S1x1 .f32) (hc1 : cond0_1 i (tbM0_0.view.readAt (Elt F) (Rect.unit (s := S2x18) (k0_off1 i) S1x1.size (k0_off1_inb i)).toLoadRect xt0 (Shape.Idx.first (numel1_S1x1.symm ▸ Nat.one_pos))) (tbM0_1.view.readAt (Elt F) (Rect.unit (s := S2x18) (k0_off1 i) S1x1.size (k0_off1_inb i)).toLoadRect xt1 (Shape.Idx.first (numel1_S1x1.symm ▸ Nat.one_pos)))) (hc2 : ¬cond0_2 i (tbM0_0.view.readAt (Elt F) (Rect.unit (s := S2x18) (k0_off1 i) S1x1.size (k0_off1_inb i)).toLoadRect xt0 (Shape.Idx.first (numel1_S1x1.symm ▸ Nat.one_pos))) (tbM0_1.view.readAt (Elt F) (Rect.unit (s := S2x18) (k0_off1 i) S1x1.size (k0_off1_inb i)).toLoadRect xt1 (Shape.Idx.first (numel1_S1x1.symm ▸ Nat.one_pos)))) (k0_hw1 : k0_chk1 (tbM0_0.view.readAt (Elt F) (Rect.unit (s := S2x18) (k0_off1 i) S1x1.size (k0_off1_inb i)).toLoadRect xt0 (Shape.Idx.first (numel1_S1x1.symm ▸ Nat.one_pos)))) (k0_hw2 : k0_chk2 (tbM0_1.view.readAt (Elt F) (Rect.unit (s := S2x18) (k0_off1 i) S1x1.size (k0_off1_inb i)).toLoadRect xt1 (Shape.Idx.first (numel1_S1x1.symm ▸ Nat.one_pos)))) :
    sout0_F_1 c i arg4 harg4 arg5 harg5 arg6 harg6 arg7 harg7 arg8 harg8 arg9 harg9 arg10 harg10 arg11 harg11 hc0 hc3 x0 x1 x2 x3 xt0 xt1 xs0 xs1 hc1 hc2 k0_hw1 k0_hw2 = mseDiag x0 x2 k0_hw1 xs1 := by
  unfold sout0_F_1
  rw [View.read_writes_eq_canon _ _ _ (scover0_F_1 c i arg4 harg4 arg5 harg5 arg6 harg6 arg7 harg7 arg8 harg8 arg9 harg9 arg10 harg10 arg11 harg11 hc0 hc3 x0 x1 x2 x3 xt0 xt1 xs0 xs1 hc1 hc2 k0_hw1 k0_hw2)]
  unfold kernelRun0_F
  dsimp only
  sl_unfold_words
  rw [View.canon_unit_zero (S := S1x1) hz2]
  simp only [View.readCov_unit_zero (S := S1x1) _ hz2, View.readAt_eq_ld, harg4.read_unread, harg5.read_unread, harg6.read_unread, harg7.read_unread, harg10.read_unread, harg11.read_unread, View.ld_unit_zero (S := S1x1) hz2]
  rfl

/-- Case G (middle, off-diagonal). -/
theorem sout0_G_0_eq (c : Dev nD) (i : grid0.Coords) (arg4 : Memref sig .tc .vmem S8192x1 .f32) (harg4 : arg4.IsWhole) (arg5 : Memref sig .tc .vmem S1x8192 .f32) (harg5 : arg5.IsWhole) (arg6 : Memref sig .tc .vmem S8192x1 .f32) (harg6 : arg6.IsWhole) (arg7 : Memref sig .tc .vmem S1x8192 .f32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc3 : ¬cond0_3 i)
    (x0 : Vec F S8192x1 .f32) (x1 : Vec F S1x8192 .f32) (x2 : Vec F S8192x1 .f32) (x3 : Vec F S1x8192 .f32) (xt0 : TbBuf0 (F := F) c tbM0_0) (xt1 : TbBuf0 (F := F) c tbM0_1) (xs0 : Vec F S1x1 .f32) (xs1 : Vec F S1x1 .f32) (hc1 : ¬cond0_1 i (tbM0_0.view.readAt (Elt F) (Rect.unit (s := S2x18) (k0_off1 i) S1x1.size (k0_off1_inb i)).toLoadRect xt0 (Shape.Idx.first (numel1_S1x1.symm ▸ Nat.one_pos))) (tbM0_1.view.readAt (Elt F) (Rect.unit (s := S2x18) (k0_off1 i) S1x1.size (k0_off1_inb i)).toLoadRect xt1 (Shape.Idx.first (numel1_S1x1.symm ▸ Nat.one_pos)))) (hc2 : cond0_2 i (tbM0_0.view.readAt (Elt F) (Rect.unit (s := S2x18) (k0_off1 i) S1x1.size (k0_off1_inb i)).toLoadRect xt0 (Shape.Idx.first (numel1_S1x1.symm ▸ Nat.one_pos))) (tbM0_1.view.readAt (Elt F) (Rect.unit (s := S2x18) (k0_off1 i) S1x1.size (k0_off1_inb i)).toLoadRect xt1 (Shape.Idx.first (numel1_S1x1.symm ▸ Nat.one_pos)))) (k0_hw1 : k0_chk1 (tbM0_0.view.readAt (Elt F) (Rect.unit (s := S2x18) (k0_off1 i) S1x1.size (k0_off1_inb i)).toLoadRect xt0 (Shape.Idx.first (numel1_S1x1.symm ▸ Nat.one_pos)))) (k0_hw2 : k0_chk2 (tbM0_1.view.readAt (Elt F) (Rect.unit (s := S2x18) (k0_off1 i) S1x1.size (k0_off1_inb i)).toLoadRect xt1 (Shape.Idx.first (numel1_S1x1.symm ▸ Nat.one_pos)))) :
    sout0_G_0 c i arg4 harg4 arg5 harg5 arg6 harg6 arg7 harg7 arg8 harg8 arg9 harg9 arg10 harg10 arg11 harg11 hc0 hc3 x0 x1 x2 x3 xt0 xt1 xs0 xs1 hc1 hc2 k0_hw1 k0_hw2 = rankOff x0 x1 x2 x3 k0_hw1 k0_hw2 xs0 := by
  unfold sout0_G_0
  rw [View.read_writes_eq_canon _ _ _ (scover0_G_0 c i arg4 harg4 arg5 harg5 arg6 harg6 arg7 harg7 arg8 harg8 arg9 harg9 arg10 harg10 arg11 harg11 hc0 hc3 x0 x1 x2 x3 xt0 xt1 xs0 xs1 hc1 hc2 k0_hw1 k0_hw2)]
  unfold kernelRun0_G
  dsimp only
  sl_unfold_words
  rw [View.canon_unit_zero (S := S1x1) hz2]
  simp only [View.readCov_unit_zero (S := S1x1) _ hz2, View.readAt_eq_ld, harg4.read_unread, harg5.read_unread, harg6.read_unread, harg7.read_unread, harg10.read_unread, harg11.read_unread, View.ld_unit_zero (S := S1x1) hz2]
  rfl

/-- Case J (last, diagonal). -/
theorem sout0_J_0_eq (c : Dev nD) (i : grid0.Coords) (arg4 : Memref sig .tc .vmem S8192x1 .f32) (harg4 : arg4.IsWhole) (arg5 : Memref sig .tc .vmem S1x8192 .f32) (harg5 : arg5.IsWhole) (arg6 : Memref sig .tc .vmem S8192x1 .f32) (harg6 : arg6.IsWhole) (arg7 : Memref sig .tc .vmem S1x8192 .f32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc3 : cond0_3 i)
    (x0 : Vec F S8192x1 .f32) (x1 : Vec F S1x8192 .f32) (x2 : Vec F S8192x1 .f32) (x3 : Vec F S1x8192 .f32) (xt0 : TbBuf0 (F := F) c tbM0_0) (xt1 : TbBuf0 (F := F) c tbM0_1) (xs0 : Vec F S1x1 .f32) (xs1 : Vec F S1x1 .f32) (hc1 : cond0_1 i (tbM0_0.view.readAt (Elt F) (Rect.unit (s := S2x18) (k0_off1 i) S1x1.size (k0_off1_inb i)).toLoadRect xt0 (Shape.Idx.first (numel1_S1x1.symm ▸ Nat.one_pos))) (tbM0_1.view.readAt (Elt F) (Rect.unit (s := S2x18) (k0_off1 i) S1x1.size (k0_off1_inb i)).toLoadRect xt1 (Shape.Idx.first (numel1_S1x1.symm ▸ Nat.one_pos)))) (hc2 : ¬cond0_2 i (tbM0_0.view.readAt (Elt F) (Rect.unit (s := S2x18) (k0_off1 i) S1x1.size (k0_off1_inb i)).toLoadRect xt0 (Shape.Idx.first (numel1_S1x1.symm ▸ Nat.one_pos))) (tbM0_1.view.readAt (Elt F) (Rect.unit (s := S2x18) (k0_off1 i) S1x1.size (k0_off1_inb i)).toLoadRect xt1 (Shape.Idx.first (numel1_S1x1.symm ▸ Nat.one_pos)))) (k0_hw1 : k0_chk1 (tbM0_0.view.readAt (Elt F) (Rect.unit (s := S2x18) (k0_off1 i) S1x1.size (k0_off1_inb i)).toLoadRect xt0 (Shape.Idx.first (numel1_S1x1.symm ▸ Nat.one_pos)))) (k0_hw2 : k0_chk2 (tbM0_1.view.readAt (Elt F) (Rect.unit (s := S2x18) (k0_off1 i) S1x1.size (k0_off1_inb i)).toLoadRect xt1 (Shape.Idx.first (numel1_S1x1.symm ▸ Nat.one_pos)))) :
    sout0_J_0 c i arg4 harg4 arg5 harg5 arg6 harg6 arg7 harg7 arg8 harg8 arg9 harg9 arg10 harg10 arg11 harg11 hc0 hc3 x0 x1 x2 x3 xt0 xt1 xs0 xs1 hc1 hc2 k0_hw1 k0_hw2 = rankDiag x0 x1 x2 x3 k0_hw1 k0_hw2 xs0 := by
  unfold sout0_J_0
  rw [View.read_writes_eq_canon _ _ _ (scover0_J_0 c i arg4 harg4 arg5 harg5 arg6 harg6 arg7 harg7 arg8 harg8 arg9 harg9 arg10 harg10 arg11 harg11 hc0 hc3 x0 x1 x2 x3 xt0 xt1 xs0 xs1 hc1 hc2 k0_hw1 k0_hw2)]
  unfold kernelRun0_J
  dsimp only
  sl_unfold_words
  rw [View.canon_unit_zero (S := S1x1) hz2]
  simp only [View.readCov_unit_zero (S := S1x1) _ hz2, View.readAt_eq_ld, harg4.read_unread, harg5.read_unread, harg6.read_unread, harg7.read_unread, harg10.read_unread, harg11.read_unread, View.ld_unit_zero (S := S1x1) hz2]
  rfl

/-- Case J (last, diagonal). -/
theorem sout0_J_1_eq (c : Dev nD) (i : grid0.Coords) (arg4 : Memref sig .tc .vmem S8192x1 .f32) (harg4 : arg4.IsWhole) (arg5 : Memref sig .tc .vmem S1x8192 .f32) (harg5 : arg5.IsWhole) (arg6 : Memref sig .tc .vmem S8192x1 .f32) (harg6 : arg6.IsWhole) (arg7 : Memref sig .tc .vmem S1x8192 .f32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc3 : cond0_3 i)
    (x0 : Vec F S8192x1 .f32) (x1 : Vec F S1x8192 .f32) (x2 : Vec F S8192x1 .f32) (x3 : Vec F S1x8192 .f32) (xt0 : TbBuf0 (F := F) c tbM0_0) (xt1 : TbBuf0 (F := F) c tbM0_1) (xs0 : Vec F S1x1 .f32) (xs1 : Vec F S1x1 .f32) (hc1 : cond0_1 i (tbM0_0.view.readAt (Elt F) (Rect.unit (s := S2x18) (k0_off1 i) S1x1.size (k0_off1_inb i)).toLoadRect xt0 (Shape.Idx.first (numel1_S1x1.symm ▸ Nat.one_pos))) (tbM0_1.view.readAt (Elt F) (Rect.unit (s := S2x18) (k0_off1 i) S1x1.size (k0_off1_inb i)).toLoadRect xt1 (Shape.Idx.first (numel1_S1x1.symm ▸ Nat.one_pos)))) (hc2 : ¬cond0_2 i (tbM0_0.view.readAt (Elt F) (Rect.unit (s := S2x18) (k0_off1 i) S1x1.size (k0_off1_inb i)).toLoadRect xt0 (Shape.Idx.first (numel1_S1x1.symm ▸ Nat.one_pos))) (tbM0_1.view.readAt (Elt F) (Rect.unit (s := S2x18) (k0_off1 i) S1x1.size (k0_off1_inb i)).toLoadRect xt1 (Shape.Idx.first (numel1_S1x1.symm ▸ Nat.one_pos)))) (k0_hw1 : k0_chk1 (tbM0_0.view.readAt (Elt F) (Rect.unit (s := S2x18) (k0_off1 i) S1x1.size (k0_off1_inb i)).toLoadRect xt0 (Shape.Idx.first (numel1_S1x1.symm ▸ Nat.one_pos)))) (k0_hw2 : k0_chk2 (tbM0_1.view.readAt (Elt F) (Rect.unit (s := S2x18) (k0_off1 i) S1x1.size (k0_off1_inb i)).toLoadRect xt1 (Shape.Idx.first (numel1_S1x1.symm ▸ Nat.one_pos)))) :
    sout0_J_1 c i arg4 harg4 arg5 harg5 arg6 harg6 arg7 harg7 arg8 harg8 arg9 harg9 arg10 harg10 arg11 harg11 hc0 hc3 x0 x1 x2 x3 xt0 xt1 xs0 xs1 hc1 hc2 k0_hw1 k0_hw2 = mseDiag x0 x2 k0_hw1 xs1 := by
  unfold sout0_J_1
  rw [View.read_writes_eq_canon _ _ _ (scover0_J_1 c i arg4 harg4 arg5 harg5 arg6 harg6 arg7 harg7 arg8 harg8 arg9 harg9 arg10 harg10 arg11 harg11 hc0 hc3 x0 x1 x2 x3 xt0 xt1 xs0 xs1 hc1 hc2 k0_hw1 k0_hw2)]
  unfold kernelRun0_J
  dsimp only
  sl_unfold_words
  rw [View.canon_unit_zero (S := S1x1) hz2]
  simp only [View.readCov_unit_zero (S := S1x1) _ hz2, View.readAt_eq_ld, harg4.read_unread, harg5.read_unread, harg6.read_unread, harg7.read_unread, harg10.read_unread, harg11.read_unread, View.ld_unit_zero (S := S1x1) hz2]
  rfl

/-- Case K (last, off-diagonal). -/
theorem sout0_K_0_eq (c : Dev nD) (i : grid0.Coords) (arg4 : Memref sig .tc .vmem S8192x1 .f32) (harg4 : arg4.IsWhole) (arg5 : Memref sig .tc .vmem S1x8192 .f32) (harg5 : arg5.IsWhole) (arg6 : Memref sig .tc .vmem S8192x1 .f32) (harg6 : arg6.IsWhole) (arg7 : Memref sig .tc .vmem S1x8192 .f32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc3 : cond0_3 i)
    (x0 : Vec F S8192x1 .f32) (x1 : Vec F S1x8192 .f32) (x2 : Vec F S8192x1 .f32) (x3 : Vec F S1x8192 .f32) (xt0 : TbBuf0 (F := F) c tbM0_0) (xt1 : TbBuf0 (F := F) c tbM0_1) (xs0 : Vec F S1x1 .f32) (xs1 : Vec F S1x1 .f32) (hc1 : ¬cond0_1 i (tbM0_0.view.readAt (Elt F) (Rect.unit (s := S2x18) (k0_off1 i) S1x1.size (k0_off1_inb i)).toLoadRect xt0 (Shape.Idx.first (numel1_S1x1.symm ▸ Nat.one_pos))) (tbM0_1.view.readAt (Elt F) (Rect.unit (s := S2x18) (k0_off1 i) S1x1.size (k0_off1_inb i)).toLoadRect xt1 (Shape.Idx.first (numel1_S1x1.symm ▸ Nat.one_pos)))) (hc2 : cond0_2 i (tbM0_0.view.readAt (Elt F) (Rect.unit (s := S2x18) (k0_off1 i) S1x1.size (k0_off1_inb i)).toLoadRect xt0 (Shape.Idx.first (numel1_S1x1.symm ▸ Nat.one_pos))) (tbM0_1.view.readAt (Elt F) (Rect.unit (s := S2x18) (k0_off1 i) S1x1.size (k0_off1_inb i)).toLoadRect xt1 (Shape.Idx.first (numel1_S1x1.symm ▸ Nat.one_pos)))) (k0_hw1 : k0_chk1 (tbM0_0.view.readAt (Elt F) (Rect.unit (s := S2x18) (k0_off1 i) S1x1.size (k0_off1_inb i)).toLoadRect xt0 (Shape.Idx.first (numel1_S1x1.symm ▸ Nat.one_pos)))) (k0_hw2 : k0_chk2 (tbM0_1.view.readAt (Elt F) (Rect.unit (s := S2x18) (k0_off1 i) S1x1.size (k0_off1_inb i)).toLoadRect xt1 (Shape.Idx.first (numel1_S1x1.symm ▸ Nat.one_pos)))) :
    sout0_K_0 c i arg4 harg4 arg5 harg5 arg6 harg6 arg7 harg7 arg8 harg8 arg9 harg9 arg10 harg10 arg11 harg11 hc0 hc3 x0 x1 x2 x3 xt0 xt1 xs0 xs1 hc1 hc2 k0_hw1 k0_hw2 = rankOff x0 x1 x2 x3 k0_hw1 k0_hw2 xs0 := by
  unfold sout0_K_0
  rw [View.read_writes_eq_canon _ _ _ (scover0_K_0 c i arg4 harg4 arg5 harg5 arg6 harg6 arg7 harg7 arg8 harg8 arg9 harg9 arg10 harg10 arg11 harg11 hc0 hc3 x0 x1 x2 x3 xt0 xt1 xs0 xs1 hc1 hc2 k0_hw1 k0_hw2)]
  unfold kernelRun0_K
  dsimp only
  sl_unfold_words
  rw [View.canon_unit_zero (S := S1x1) hz2]
  simp only [View.readCov_unit_zero (S := S1x1) _ hz2, View.readAt_eq_ld, harg4.read_unread, harg5.read_unread, harg6.read_unread, harg7.read_unread, harg10.read_unread, harg11.read_unread, View.ld_unit_zero (S := S1x1) hz2]
  rfl

/-- Case J (last, diagonal: the first output tile). -/
theorem out0_J_4_eq (c : Dev nD) (i : grid0.Coords) (arg4 : Memref sig .tc .vmem S8192x1 .f32) (harg4 : arg4.IsWhole) (arg5 : Memref sig .tc .vmem S1x8192 .f32) (harg5 : arg5.IsWhole) (arg6 : Memref sig .tc .vmem S8192x1 .f32) (harg6 : arg6.IsWhole) (arg7 : Memref sig .tc .vmem S1x8192 .f32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc3 : cond0_3 i)
    (x0 : Vec F S8192x1 .f32) (x1 : Vec F S1x8192 .f32) (x2 : Vec F S8192x1 .f32) (x3 : Vec F S1x8192 .f32) (xt0 : TbBuf0 (F := F) c tbM0_0) (xt1 : TbBuf0 (F := F) c tbM0_1) (xs0 : Vec F S1x1 .f32) (xs1 : Vec F S1x1 .f32) (hc1 : cond0_1 i (tbM0_0.view.readAt (Elt F) (Rect.unit (s := S2x18) (k0_off1 i) S1x1.size (k0_off1_inb i)).toLoadRect xt0 (Shape.Idx.first (numel1_S1x1.symm ▸ Nat.one_pos))) (tbM0_1.view.readAt (Elt F) (Rect.unit (s := S2x18) (k0_off1 i) S1x1.size (k0_off1_inb i)).toLoadRect xt1 (Shape.Idx.first (numel1_S1x1.symm ▸ Nat.one_pos)))) (hc2 : ¬cond0_2 i (tbM0_0.view.readAt (Elt F) (Rect.unit (s := S2x18) (k0_off1 i) S1x1.size (k0_off1_inb i)).toLoadRect xt0 (Shape.Idx.first (numel1_S1x1.symm ▸ Nat.one_pos))) (tbM0_1.view.readAt (Elt F) (Rect.unit (s := S2x18) (k0_off1 i) S1x1.size (k0_off1_inb i)).toLoadRect xt1 (Shape.Idx.first (numel1_S1x1.symm ▸ Nat.one_pos)))) (k0_hw1 : k0_chk1 (tbM0_0.view.readAt (Elt F) (Rect.unit (s := S2x18) (k0_off1 i) S1x1.size (k0_off1_inb i)).toLoadRect xt0 (Shape.Idx.first (numel1_S1x1.symm ▸ Nat.one_pos)))) (k0_hw2 : k0_chk2 (tbM0_1.view.readAt (Elt F) (Rect.unit (s := S2x18) (k0_off1 i) S1x1.size (k0_off1_inb i)).toLoadRect xt1 (Shape.Idx.first (numel1_S1x1.symm ▸ Nat.one_pos)))) :
    out0_J_4 c i arg4 harg4 arg5 harg5 arg6 harg6 arg7 harg7 arg8 harg8 arg9 harg9 arg10 harg10 arg11 harg11 hc0 hc3 x0 x1 x2 x3 xt0 xt1 xs0 xs1 hc1 hc2 k0_hw1 k0_hw2 = k0_pay6 (rankDiag x0 x1 x2 x3 k0_hw1 k0_hw2 xs0) := by
  unfold out0_J_4
  rw [View.read_writes_eq_canon _ _ _ (cover0_J_4 c i arg4 harg4 arg5 harg5 arg6 harg6 arg7 harg7 arg8 harg8 arg9 harg9 arg10 harg10 arg11 harg11 hc0 hc3 x0 x1 x2 x3 xt0 xt1 xs0 xs1 hc1 hc2 k0_hw1 k0_hw2)]
  unfold kernelRun0_J
  dsimp only
  sl_unfold_words
  rw [View.canon_unit_zero (S := S1x8x128) hz3]
  simp only [View.readCov_unit_zero (S := S1x1) _ hz2, View.readAt_eq_ld, harg4.read_unread, harg5.read_unread, harg6.read_unread, harg7.read_unread, harg10.read_unread, harg11.read_unread, View.ld_unit_zero (S := S1x1) hz2]
  rfl

/-- Case J (last, diagonal: the second output tile). -/
theorem out0_J_5_eq (c : Dev nD) (i : grid0.Coords) (arg4 : Memref sig .tc .vmem S8192x1 .f32) (harg4 : arg4.IsWhole) (arg5 : Memref sig .tc .vmem S1x8192 .f32) (harg5 : arg5.IsWhole) (arg6 : Memref sig .tc .vmem S8192x1 .f32) (harg6 : arg6.IsWhole) (arg7 : Memref sig .tc .vmem S1x8192 .f32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc3 : cond0_3 i)
    (x0 : Vec F S8192x1 .f32) (x1 : Vec F S1x8192 .f32) (x2 : Vec F S8192x1 .f32) (x3 : Vec F S1x8192 .f32) (xt0 : TbBuf0 (F := F) c tbM0_0) (xt1 : TbBuf0 (F := F) c tbM0_1) (xs0 : Vec F S1x1 .f32) (xs1 : Vec F S1x1 .f32) (hc1 : cond0_1 i (tbM0_0.view.readAt (Elt F) (Rect.unit (s := S2x18) (k0_off1 i) S1x1.size (k0_off1_inb i)).toLoadRect xt0 (Shape.Idx.first (numel1_S1x1.symm ▸ Nat.one_pos))) (tbM0_1.view.readAt (Elt F) (Rect.unit (s := S2x18) (k0_off1 i) S1x1.size (k0_off1_inb i)).toLoadRect xt1 (Shape.Idx.first (numel1_S1x1.symm ▸ Nat.one_pos)))) (hc2 : ¬cond0_2 i (tbM0_0.view.readAt (Elt F) (Rect.unit (s := S2x18) (k0_off1 i) S1x1.size (k0_off1_inb i)).toLoadRect xt0 (Shape.Idx.first (numel1_S1x1.symm ▸ Nat.one_pos))) (tbM0_1.view.readAt (Elt F) (Rect.unit (s := S2x18) (k0_off1 i) S1x1.size (k0_off1_inb i)).toLoadRect xt1 (Shape.Idx.first (numel1_S1x1.symm ▸ Nat.one_pos)))) (k0_hw1 : k0_chk1 (tbM0_0.view.readAt (Elt F) (Rect.unit (s := S2x18) (k0_off1 i) S1x1.size (k0_off1_inb i)).toLoadRect xt0 (Shape.Idx.first (numel1_S1x1.symm ▸ Nat.one_pos)))) (k0_hw2 : k0_chk2 (tbM0_1.view.readAt (Elt F) (Rect.unit (s := S2x18) (k0_off1 i) S1x1.size (k0_off1_inb i)).toLoadRect xt1 (Shape.Idx.first (numel1_S1x1.symm ▸ Nat.one_pos)))) :
    out0_J_5 c i arg4 harg4 arg5 harg5 arg6 harg6 arg7 harg7 arg8 harg8 arg9 harg9 arg10 harg10 arg11 harg11 hc0 hc3 x0 x1 x2 x3 xt0 xt1 xs0 xs1 hc1 hc2 k0_hw1 k0_hw2 = k0_pay7 (mseDiag x0 x2 k0_hw1 xs1) := by
  unfold out0_J_5
  rw [View.read_writes_eq_canon _ _ _ (cover0_J_5 c i arg4 harg4 arg5 harg5 arg6 harg6 arg7 harg7 arg8 harg8 arg9 harg9 arg10 harg10 arg11 harg11 hc0 hc3 x0 x1 x2 x3 xt0 xt1 xs0 xs1 hc1 hc2 k0_hw1 k0_hw2)]
  unfold kernelRun0_J
  dsimp only
  sl_unfold_words
  rw [View.canon_unit_zero (S := S1x8x128) hz3]
  simp only [View.readCov_unit_zero (S := S1x1) _ hz2, View.readAt_eq_ld, harg4.read_unread, harg5.read_unread, harg6.read_unread, harg7.read_unread, harg10.read_unread, harg11.read_unread, View.ld_unit_zero (S := S1x1) hz2]
  rfl

/-- Case K (last, off-diagonal: the first output tile). -/
theorem out0_K_4_eq (c : Dev nD) (i : grid0.Coords) (arg4 : Memref sig .tc .vmem S8192x1 .f32) (harg4 : arg4.IsWhole) (arg5 : Memref sig .tc .vmem S1x8192 .f32) (harg5 : arg5.IsWhole) (arg6 : Memref sig .tc .vmem S8192x1 .f32) (harg6 : arg6.IsWhole) (arg7 : Memref sig .tc .vmem S1x8192 .f32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc3 : cond0_3 i)
    (x0 : Vec F S8192x1 .f32) (x1 : Vec F S1x8192 .f32) (x2 : Vec F S8192x1 .f32) (x3 : Vec F S1x8192 .f32) (xt0 : TbBuf0 (F := F) c tbM0_0) (xt1 : TbBuf0 (F := F) c tbM0_1) (xs0 : Vec F S1x1 .f32) (xs1 : Vec F S1x1 .f32) (hc1 : ¬cond0_1 i (tbM0_0.view.readAt (Elt F) (Rect.unit (s := S2x18) (k0_off1 i) S1x1.size (k0_off1_inb i)).toLoadRect xt0 (Shape.Idx.first (numel1_S1x1.symm ▸ Nat.one_pos))) (tbM0_1.view.readAt (Elt F) (Rect.unit (s := S2x18) (k0_off1 i) S1x1.size (k0_off1_inb i)).toLoadRect xt1 (Shape.Idx.first (numel1_S1x1.symm ▸ Nat.one_pos)))) (hc2 : cond0_2 i (tbM0_0.view.readAt (Elt F) (Rect.unit (s := S2x18) (k0_off1 i) S1x1.size (k0_off1_inb i)).toLoadRect xt0 (Shape.Idx.first (numel1_S1x1.symm ▸ Nat.one_pos))) (tbM0_1.view.readAt (Elt F) (Rect.unit (s := S2x18) (k0_off1 i) S1x1.size (k0_off1_inb i)).toLoadRect xt1 (Shape.Idx.first (numel1_S1x1.symm ▸ Nat.one_pos)))) (k0_hw1 : k0_chk1 (tbM0_0.view.readAt (Elt F) (Rect.unit (s := S2x18) (k0_off1 i) S1x1.size (k0_off1_inb i)).toLoadRect xt0 (Shape.Idx.first (numel1_S1x1.symm ▸ Nat.one_pos)))) (k0_hw2 : k0_chk2 (tbM0_1.view.readAt (Elt F) (Rect.unit (s := S2x18) (k0_off1 i) S1x1.size (k0_off1_inb i)).toLoadRect xt1 (Shape.Idx.first (numel1_S1x1.symm ▸ Nat.one_pos)))) :
    out0_K_4 c i arg4 harg4 arg5 harg5 arg6 harg6 arg7 harg7 arg8 harg8 arg9 harg9 arg10 harg10 arg11 harg11 hc0 hc3 x0 x1 x2 x3 xt0 xt1 xs0 xs1 hc1 hc2 k0_hw1 k0_hw2 = k0_pay6 (rankOff x0 x1 x2 x3 k0_hw1 k0_hw2 xs0) := by
  unfold out0_K_4
  rw [View.read_writes_eq_canon _ _ _ (cover0_K_4 c i arg4 harg4 arg5 harg5 arg6 harg6 arg7 harg7 arg8 harg8 arg9 harg9 arg10 harg10 arg11 harg11 hc0 hc3 x0 x1 x2 x3 xt0 xt1 xs0 xs1 hc1 hc2 k0_hw1 k0_hw2)]
  unfold kernelRun0_K
  dsimp only
  sl_unfold_words
  rw [View.canon_unit_zero (S := S1x8x128) hz3]
  simp only [View.readCov_unit_zero (S := S1x1) _ hz2, View.readAt_eq_ld, harg4.read_unread, harg5.read_unread, harg6.read_unread, harg7.read_unread, harg10.read_unread, harg11.read_unread, View.ld_unit_zero (S := S1x1) hz2]
  rfl

/-- Case K (last, off-diagonal: the second output tile). -/
theorem out0_K_5_eq (c : Dev nD) (i : grid0.Coords) (arg4 : Memref sig .tc .vmem S8192x1 .f32) (harg4 : arg4.IsWhole) (arg5 : Memref sig .tc .vmem S1x8192 .f32) (harg5 : arg5.IsWhole) (arg6 : Memref sig .tc .vmem S8192x1 .f32) (harg6 : arg6.IsWhole) (arg7 : Memref sig .tc .vmem S1x8192 .f32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc3 : cond0_3 i)
    (x0 : Vec F S8192x1 .f32) (x1 : Vec F S1x8192 .f32) (x2 : Vec F S8192x1 .f32) (x3 : Vec F S1x8192 .f32) (xt0 : TbBuf0 (F := F) c tbM0_0) (xt1 : TbBuf0 (F := F) c tbM0_1) (xs0 : Vec F S1x1 .f32) (xs1 : Vec F S1x1 .f32) (hc1 : ¬cond0_1 i (tbM0_0.view.readAt (Elt F) (Rect.unit (s := S2x18) (k0_off1 i) S1x1.size (k0_off1_inb i)).toLoadRect xt0 (Shape.Idx.first (numel1_S1x1.symm ▸ Nat.one_pos))) (tbM0_1.view.readAt (Elt F) (Rect.unit (s := S2x18) (k0_off1 i) S1x1.size (k0_off1_inb i)).toLoadRect xt1 (Shape.Idx.first (numel1_S1x1.symm ▸ Nat.one_pos)))) (hc2 : cond0_2 i (tbM0_0.view.readAt (Elt F) (Rect.unit (s := S2x18) (k0_off1 i) S1x1.size (k0_off1_inb i)).toLoadRect xt0 (Shape.Idx.first (numel1_S1x1.symm ▸ Nat.one_pos))) (tbM0_1.view.readAt (Elt F) (Rect.unit (s := S2x18) (k0_off1 i) S1x1.size (k0_off1_inb i)).toLoadRect xt1 (Shape.Idx.first (numel1_S1x1.symm ▸ Nat.one_pos)))) (k0_hw1 : k0_chk1 (tbM0_0.view.readAt (Elt F) (Rect.unit (s := S2x18) (k0_off1 i) S1x1.size (k0_off1_inb i)).toLoadRect xt0 (Shape.Idx.first (numel1_S1x1.symm ▸ Nat.one_pos)))) (k0_hw2 : k0_chk2 (tbM0_1.view.readAt (Elt F) (Rect.unit (s := S2x18) (k0_off1 i) S1x1.size (k0_off1_inb i)).toLoadRect xt1 (Shape.Idx.first (numel1_S1x1.symm ▸ Nat.one_pos)))) :
    out0_K_5 c i arg4 harg4 arg5 harg5 arg6 harg6 arg7 harg7 arg8 harg8 arg9 harg9 arg10 harg10 arg11 harg11 hc0 hc3 x0 x1 x2 x3 xt0 xt1 xs0 xs1 hc1 hc2 k0_hw1 k0_hw2 = k0_pay7 xs1 := by
  unfold out0_K_5
  rw [View.read_writes_eq_canon _ _ _ (cover0_K_5 c i arg4 harg4 arg5 harg5 arg6 harg6 arg7 harg7 arg8 harg8 arg9 harg9 arg10 harg10 arg11 harg11 hc0 hc3 x0 x1 x2 x3 xt0 xt1 xs0 xs1 hc1 hc2 k0_hw1 k0_hw2)]
  unfold kernelRun0_K
  dsimp only
  sl_unfold_words
  rw [View.canon_unit_zero (S := S1x8x128) hz3]
  simp only [View.readCov_unit_zero (S := S1x1) _ hz2, View.readAt_eq_ld, harg4.read_unread, harg5.read_unread, harg6.read_unread, harg7.read_unread, harg10.read_unread, harg11.read_unread, View.ld_unit_zero (S := S1x1) hz2]

end Cert.KernelIdeal.Pieces

end
-- ==== Proof.ReadsIdeal.lean ====
/-
  The four tiles the body loads, and the four input blocks they are loaded from, read at an index as entries of the two
  argument vectors. Each input window's block is its whole array at every grid point, and the arrays are the host's reshapes of
  the arguments to a column [8192, 1] and to a row [1, 8192], so entry `a` of the column and of the row is entry `a` of the
  argument; a tile read at `r` is its vector read at `offset + r`.
-/
import proofs.«178835_j59803124630166_2_alg».proof.Proof.Gen.KernelIdeal.Frame
import proofs.«178835_j59803124630166_2_alg».proof.Proof.PiecesIdeal
import Idealize.ShloMosaic.Lib.ValueIdx
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem

namespace Cert.KernelIdeal.Reads

open Cert.KernelIdeal Cert.KernelIdeal.Gen Cert.KernelIdeal.Pieces ValueIdx

variable {F : FTy → Type} [FloatOps F]

/-- A column tile at row `r` is the column at row `offset + r`. -/
theorem colTile_apply (x : Vec F S8192x1 .f32) {w : BitVec 32} (hw : k0_chk1 w) (I : ℕ) (hoff : k0_off2 w = ![1024 * I, 0])
    (r : Fin 1024) (h : 1024 * I + r.val < 8192) :
    colTile x hw (ix2 r (0 : Fin 1)) = x (ix2 (⟨1024 * I + r.val, h⟩ : Fin 8192) (0 : Fin 1)) := by
  show x _ = x _
  congr 1
  funext a
  apply Fin.ext
  match a with
  | ⟨0, _⟩ => show k0_off2 w 0 + 1 * r.val = 1024 * I + r.val; rw [hoff]; simp
  | ⟨1, _⟩ => show k0_off2 w 1 + 1 * 0 = 0; rw [hoff]; simp

/-- A row tile at lane `q` is the row at lane `offset + q`. -/
theorem rowTile_apply (x : Vec F S1x8192 .f32) {w : BitVec 32} (hw : k0_chk2 w) (J : ℕ) (hoff : k0_off3 w = ![0, 1024 * J])
    (q : Fin 1024) (h : 1024 * J + q.val < 8192) :
    rowTile x hw (ix2 (0 : Fin 1) q) = x (ix2 (0 : Fin 1) (⟨1024 * J + q.val, h⟩ : Fin 8192)) := by
  show x _ = x _
  congr 1
  funext a
  apply Fin.ext
  match a with
  | ⟨0, _⟩ => show k0_off3 w 0 + 1 * 0 = 0; rw [hoff]; simp
  | ⟨1, _⟩ => show k0_off3 w 1 + 1 * q.val = 1024 * J + q.val; rw [hoff]; simp

variable (m : (ℓ : Loc nD τ sig) → Buf (Elt F) ℓ)

/-- The four arrays the region stages are the host's reshapes of the two arguments. -/
theorem V_v0 (c : Dev nD) : (V m c main_v0 : S8192x1.Idx → Elt F .f32) = shapeCast S8192x1 (m ((c : Thread nD τ).loc main_arg0)) shapeCasts_S8192_S8192x1 := by
  show StableHlo.after hostOps0 (fun b => m (c, b)) (Proc.devRef .tc main_v0) = _
  after_results; rfl
theorem V_v1 (c : Dev nD) : (V m c main_v1 : S1x8192.Idx → Elt F .f32) = shapeCast S1x8192 (m ((c : Thread nD τ).loc main_arg0)) shapeCasts_S8192_S1x8192 := by
  show StableHlo.after hostOps0 (fun b => m (c, b)) (Proc.devRef .tc main_v1) = _
  after_results; rfl
theorem V_v2 (c : Dev nD) : (V m c main_v2 : S8192x1.Idx → Elt F .f32) = shapeCast S8192x1 (m ((c : Thread nD τ).loc main_arg1)) shapeCasts_S8192_S8192x1 := by
  show StableHlo.after hostOps0 (fun b => m (c, b)) (Proc.devRef .tc main_v2) = _
  after_results; rfl
theorem V_v3 (c : Dev nD) : (V m c main_v3 : S1x8192.Idx → Elt F .f32) = shapeCast S1x8192 (m ((c : Thread nD τ).loc main_arg1)) shapeCasts_S8192_S1x8192 := by
  show StableHlo.after hostOps0 (fun b => m (c, b)) (Proc.devRef .tc main_v3) = _
  after_results; rfl

/-- The prediction column, the prediction row, the target column and the target row, as each grid point finds them, at entry `a`. -/
theorem iblk0_apply (hO : Ok m) (c : Dev nD) (t : Fin (cfgM m hO).N) (a : Fin 8192) :
    (iblk m hO c 0 t : Vec F S8192x1 .f32) (ix2 a (0 : Fin 1)) = m ((c : Thread nD τ).loc main_arg0) (ix1 a) := by
  unfold iblk
  show (V m c main_v0 : S8192x1.Idx → Elt F .f32) _ = _
  rw [V_v0]
  refine shapeCast_apply _ _ _ (ix1 a) ?_
  refine (Shape.rowMajor_val_one _).trans (Eq.trans ?_ (Shape.rowMajor_val_two _).symm)
  show a.val = (0 * 8192 + 1 * a.val) * 1 + (0 * 1 + 1 * 0)
  omega
theorem iblk1_apply (hO : Ok m) (c : Dev nD) (t : Fin (cfgM m hO).N) (a : Fin 8192) :
    (iblk m hO c 1 t : Vec F S1x8192 .f32) (ix2 (0 : Fin 1) a) = m ((c : Thread nD τ).loc main_arg0) (ix1 a) := by
  unfold iblk
  show (V m c main_v1 : S1x8192.Idx → Elt F .f32) _ = _
  rw [V_v1]
  refine shapeCast_apply _ _ _ (ix1 a) ?_
  refine (Shape.rowMajor_val_one _).trans (Eq.trans ?_ (Shape.rowMajor_val_two _).symm)
  show a.val = (0 * 1 + 1 * 0) * 8192 + (0 * 8192 + 1 * a.val)
  omega
theorem iblk2_apply (hO : Ok m) (c : Dev nD) (t : Fin (cfgM m hO).N) (a : Fin 8192) :
    (iblk m hO c 2 t : Vec F S8192x1 .f32) (ix2 a (0 : Fin 1)) = m ((c : Thread nD τ).loc main_arg1) (ix1 a) := by
  unfold iblk
  show (V m c main_v2 : S8192x1.Idx → Elt F .f32) _ = _
  rw [V_v2]
  refine shapeCast_apply _ _ _ (ix1 a) ?_
  refine (Shape.rowMajor_val_one _).trans (Eq.trans ?_ (Shape.rowMajor_val_two _).symm)
  show a.val = (0 * 8192 + 1 * a.val) * 1 + (0 * 1 + 1 * 0)
  omega
theorem iblk3_apply (hO : Ok m) (c : Dev nD) (t : Fin (cfgM m hO).N) (a : Fin 8192) :
    (iblk m hO c 3 t : Vec F S1x8192 .f32) (ix2 (0 : Fin 1) a) = m ((c : Thread nD τ).loc main_arg1) (ix1 a) := by
  unfold iblk
  show (V m c main_v3 : S1x8192.Idx → Elt F .f32) _ = _
  rw [V_v3]
  refine shapeCast_apply _ _ _ (ix1 a) ?_
  refine (Shape.rowMajor_val_one _).trans (Eq.trans ?_ (Shape.rowMajor_val_two _).symm)
  show a.val = (0 * 1 + 1 * 0) * 8192 + (0 * 8192 + 1 * a.val)
  omega

end Cert.KernelIdeal.Reads

end
-- ==== Proof.PayIdeal.lean ====
/-
  The values the kernel's body computes, read at the extended reals, with no memory involved.

  A body step takes a tile of predictions and targets twice: as a column (1024 rows, one per index of the block row) and as a
  row (1024 columns, one per index of the block column). Broadcasting the column along the columns and the row along the rows and
  subtracting gives, at `(r, q)`, the difference of the two targets (or predictions); the arithmetic that follows is, element by
  element, the loss of the ordered pair `(r, q)` as the specification writes it, the sign being the three-way select read as
  `Ideal.sign`. The step then adds the whole tile (multiplied or not by the strict-upper-triangle mask `r < q`, a comparison of two
  coordinate counters converted to 0 or 1) to a one-element accumulator: a reduction into a shape with one element is the sum over
  every element of the tile, which is re-indexed by the two coordinates. The squared-error step is the same with a column of
  differences squared. At the end the accumulator is placed at row 0, lane 0 of an 8 x 128 block of zeros.
-/
import proofs.«178835_j59803124630166_2_alg».proof.Proof.Gen.KernelIdeal.Skeleton
import proofs.«178835_j59803124630166_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic ValueIdx
open Cert

/-! ### Reading a broadcast column, an absolute value, and indices of one-element shapes -/

/-- An `[a, 1]` column broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The absolute value at an index, at the extended reals. -/
theorem absf_apply {s : Shape} {φ : FTy} (x : FVec Ideal s φ) (i : s.Idx) : absf x i = max (x i) (-(x i)) := rfl

/-- A shape of one row and one column has one index. -/
theorem idx11_eq (i j : S1x1.Idx) : i = j := by
  rw [eq_ix2 i, eq_ix2 j]
  have h0 : i 0 = j 0 := Subsingleton.elim (α := Fin 1) _ _
  have h1 : i 1 = j 1 := Subsingleton.elim (α := Fin 1) _ _
  rw [h0, h1]

/-! ### The pair differences and the pair loss -/

section Loss
variable (v14 v17 : Vec Ideal S1024x1 .f32) (v20 v23 : Vec Ideal S1x1024 .f32) (r q : Fin 1024)

/-- The target differences: column entry minus row entry. -/
theorem pay12_apply :
    k0_pay12 (F := Ideal) v17 v23 (ix2 r q) = v17 (ix2 r 0) - v23 (ix2 0 q) := by
  unfold k0_pay12 k0_pay11
  rw [shapeCast_self, shapeCast_self]
  show broadcastTo S1024x1024 v17 _ (ix2 r q) - broadcastTo S1024x1024 v23 _ (ix2 r q) = _
  rw [broadcastTo_a1_ab_apply (a := 1024) (b := 1024) v17 _ r q, broadcastTo_1b_ab_apply (a := 1024) (b := 1024) v23 _ r q]

/-- The prediction differences: column entry minus row entry. -/
theorem pay14_apply :
    k0_pay14 (F := Ideal) v14 v20 (ix2 r q) = v14 (ix2 r 0) - v20 (ix2 0 q) := by
  unfold k0_pay14 k0_pay10
  rw [shapeCast_self, shapeCast_self]
  show broadcastTo S1024x1024 v14 _ (ix2 r q) - broadcastTo S1024x1024 v20 _ (ix2 r q) = _
  rw [broadcastTo_a1_ab_apply (a := 1024) (b := 1024) v14 _ r q, broadcastTo_1b_ab_apply (a := 1024) (b := 1024) v20 _ r q]

/-- The element the body computes at `(r, q)` is the loss of the pair (row `r` of the column tile, column `q` of the row tile). -/
theorem pay1_apply :
    k0_pay1 (F := Ideal) (k0_pay12 v17 v23) (k0_pay13 v17 v23) (k0_pay14 v14 v20) (k0_pay15 v17 v23) (ix2 r q)
      = Spec.pairLoss (v17 (ix2 r 0)) (v23 (ix2 0 q)) (v14 (ix2 r 0)) (v20 (ix2 0 q)) := by
  -- every operation reads pointwise; the two nested selects are the sign
  have hsign : Scalar.select (FloatOps.cmpf .ogt (FloatOps.absf (k0_pay12 (F := Ideal) v17 v23 (ix2 r q))) (Scalar.ofBits .f32 0x00000000#32))
        (k0_pay15 (F := Ideal) v17 v23 (ix2 r q)) (k0_pay12 (F := Ideal) v17 v23 (ix2 r q))
      = Ideal.sign (k0_pay12 (F := Ideal) v17 v23 (ix2 r q)) :=
    Ideal.jnp_sign_eq_sign_f32 (k0_pay12 (F := Ideal) v17 v23 (ix2 r q))
  have h1 : k0_pay1 (F := Ideal) (k0_pay12 v17 v23) (k0_pay13 v17 v23) (k0_pay14 v14 v20) (k0_pay15 v17 v23) (ix2 r q)
      = max (Ideal.ofBits .f32 0x00000000#32)
          (k0_pay13 (F := Ideal) v17 v23 (ix2 r q) - k0_pay14 (F := Ideal) v14 v20 (ix2 r q) *
            Scalar.select (FloatOps.cmpf .ogt (FloatOps.absf (k0_pay12 (F := Ideal) v17 v23 (ix2 r q))) (Scalar.ofBits .f32 0x00000000#32))
              (k0_pay15 (F := Ideal) v17 v23 (ix2 r q)) (k0_pay12 (F := Ideal) v17 v23 (ix2 r q))) := rfl
  have h13 : k0_pay13 (F := Ideal) v17 v23 (ix2 r q)
      = Ideal.div (Ideal.ofBits .f32 0x3E99999A#32)
          (Ideal.ofBits .f32 0x3F800000#32 + Ideal.ofBits .f32 0x3DCCCCCD#32 *
            max (k0_pay12 (F := Ideal) v17 v23 (ix2 r q)) (-(k0_pay12 (F := Ideal) v17 v23 (ix2 r q))))
          * max (k0_pay12 (F := Ideal) v17 v23 (ix2 r q)) (-(k0_pay12 (F := Ideal) v17 v23 (ix2 r q))) := rfl
  rw [h1, hsign, h13, pay12_apply, pay14_apply]
  rfl

end Loss

/-! ### A reduction into one element is the double sum over the tile -/

/-- A rank-3 index set is the product of its three coordinate ranges, so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  let e : (⟨3, ![n0, n1, n2]⟩ : Shape).Idx ≃ Fin n0 × Fin n1 × Fin n2 :=
    { toFun := fun i => (i 0, i 1, i 2)
      invFun := fun p => ix3 p.1 p.2.1 p.2.2
      left_inv := fun i => (eq_ix3 i).symm
      right_inv := fun _ => rfl }
  rw [← Equiv.sum_comp e.symm f, Fintype.sum_prod_type]
  refine Finset.sum_congr rfl fun a _ => ?_
  rw [Fintype.sum_prod_type]
  rfl

/-- The sum over an `[a, b]` array viewed as `[1, a, b]` is the double sum over its two coordinates. -/
theorem sum_cast_1ab {a b : ℕ} (X : (⟨2, ![a, b]⟩ : Shape).Idx → EReal)
    (h : (⟨2, ![a, b]⟩ : Shape).ShapeCasts ⟨3, ![1, a, b]⟩) :
    ∑ i : (⟨3, ![1, a, b]⟩ : Shape).Idx, shapeCast ⟨3, ![1, a, b]⟩ X h i = ∑ r : Fin a, ∑ q : Fin b, X (ix2 r q) := by
  rw [sum_idx3, Fin.sum_univ_one]
  refine Finset.sum_congr rfl fun r _ => Finset.sum_congr rfl fun q _ => ?_
  exact shapeCast_ab_1ab_apply X h 0 r q

/-- The accumulating tail shared by the three sums: the tile (viewed with a leading unit axis) is reduced over its two axes into
one element, which is extracted, broadcast to the accumulator's shape and added to it. The result, at its one index, is the
accumulator plus the double sum over the tile. -/
theorem acc_tail {a b : ℕ} (X : FVec Ideal ⟨2, ![a, b]⟩ .f32) (acc : FVec Ideal S1x1 .f32)
    (h1 : (⟨2, ![a, b]⟩ : Shape).ShapeCasts ⟨3, ![1, a, b]⟩) (h2 : (⟨3, ![1, a, b]⟩ : Shape).Reduces [1, 2] S1)
    (hφ : FKind.Formats .f32) (hacc : (0x00000000#32 : BitVec 32) = FKind.add.neutral .f32 hφ)
    (h5 : S1.ShapeCasts S1x1x1) (h6 : ∀ a, (![0, 0, 0] : Fin 3 → Nat) a < S1x1x1.size a) (h7 : S1x1.ShapeCasts S1x1) :
    shapeCast S1x1 (addf acc (broadcast S1x1 (extractAt ![0, 0, 0]
        (shapeCast S1x1x1 (multiReduction .add [1, 2] S1 (shapeCast ⟨3, ![1, a, b]⟩ X h1) 0x00000000#32 h2 hφ hacc) h5) h6))) h7
      = fun _ => acc (ix2 0 0) + ∑ r : Fin a, ∑ q : Fin b, X (ix2 r q) := by
  rw [shapeCast_self]
  funext i
  rw [idx11_eq i (ix2 0 0)]
  show acc (ix2 0 0) + extractAt ![0, 0, 0] (shapeCast S1x1x1 (multiReduction .add [1, 2] S1 (shapeCast ⟨3, ![1, a, b]⟩ X h1) 0x00000000#32 h2 hφ hacc) h5) h6 = _
  refine congrArg (acc (ix2 0 0) + ·) ?_
  unfold extractAt shapeCast
  refine (Ideal.multiReduction_add_total (shapeCast ⟨3, ![1, a, b]⟩ X h1) 0x00000000#32 h2
    (fun b => match b with | ⟨0, _⟩ => rfl) hφ hacc _).trans ?_
  exact sum_cast_1ab X h1

/-! ### The three accumulating steps -/

section Steps
variable (v14 v17 : Vec Ideal S1024x1 .f32) (v20 v23 : Vec Ideal S1x1024 .f32) (acc : Vec Ideal S1x1 .f32)

/-- A step on a tile strictly above the diagonal adds every pair loss of the tile to the accumulator. -/
theorem pay4_eq :
    k0_pay4 (F := Ideal) (k0_pay12 v17 v23) (k0_pay13 v17 v23) (k0_pay14 v14 v20) (k0_pay15 v17 v23) acc
      = fun _ => acc (ix2 0 0) + ∑ r : Fin 1024, ∑ q : Fin 1024,
          Spec.pairLoss (v17 (ix2 r 0)) (v23 (ix2 0 q)) (v14 (ix2 r 0)) (v20 (ix2 0 q)) := by
  unfold k0_pay4
  refine (acc_tail (a := 1024) (b := 1024) _ acc _ _ _ _ _ _ _).trans ?_
  funext _
  refine congrArg (acc (ix2 0 0) + ·) ?_
  exact Finset.sum_congr rfl fun r _ => Finset.sum_congr rfl fun q _ => pay1_apply v14 v17 v20 v23 r q

/-- The squared-error step adds the squares of the column's differences to the accumulator. -/
theorem pay3_eq :
    k0_pay3 (F := Ideal) (k0_pay10 v14) (k0_pay11 v17) acc
      = fun _ => acc (ix2 0 0) + ∑ r : Fin 1024, (v14 (ix2 r 0) - v17 (ix2 r 0)) * (v14 (ix2 r 0) - v17 (ix2 r 0)) := by
  unfold k0_pay3 k0_pay10 k0_pay11
  rw [shapeCast_self, shapeCast_self]
  refine (acc_tail (a := 1024) (b := 1) _ acc _ _ _ _ _ _ _).trans ?_
  funext _
  refine congrArg (acc (ix2 0 0) + ·) ?_
  refine Finset.sum_congr rfl fun r _ => ?_
  rw [Fin.sum_univ_one]
  rfl

end Steps

/-! ### The coordinate counters and the strict-upper-triangle mask -/

/-- The 32-bit word of a number below 1024, read signed, is that number. -/
theorem toInt_ofNat_small (n : Nat) (h : n < 1024) : (BitVec.ofNat 32 n).toInt = (n : Int) := by
  have h1 : (BitVec.ofNat 32 n).toNat = n := by
    rw [BitVec.toNat_ofNat]; exact Nat.mod_eq_of_lt (by omega)
  rw [BitVec.toInt_eq_toNat_of_lt (by rw [h1]; omega), h1]

/-- The signed comparison of two such words compares the numbers. -/
theorem cmpi_slt_small (m n : Nat) (hm : m < 1024) (hn : n < 1024) :
    IntOp.cmpi .slt (BitVec.ofNat 32 m) (BitVec.ofNat 32 n) = BitVec.ofBool (decide (m < n)) := by
  show BitVec.ofBool ((BitVec.ofNat 32 m).slt (BitVec.ofNat 32 n)) = _
  rw [BitVec.slt_eq_decide, toInt_ofNat_small m hm, toInt_ofNat_small n hn]
  refine congrArg BitVec.ofBool ?_
  simp

/-- A one-bit word widened to 32 bits and converted to a float is 1 or 0. -/
theorem sitofp_bit (c : Bool) :
    FloatOps.sitofp (F := Ideal) .f32 ((BitVec.ofBool c).setWidth 32) = if c then (1 : EReal) else 0 := by
  cases c
  · have h : ((BitVec.ofBool false).setWidth 32).toInt = 0 := by decide
    show ((((BitVec.ofBool false).setWidth 32).toInt : ℝ) : EReal) = _
    rw [h]; simp
  · have h : ((BitVec.ofBool true).setWidth 32).toInt = 1 := by decide
    show ((((BitVec.ofBool true).setWidth 32).toInt : ℝ) : EReal) = _
    rw [h]; simp

/-- The mask at `(r, q)`: 1 when `r < q`, else 0. -/
theorem mask_apply (h0 : S1024x1024.Iotas .tc 32 [0]) (h1 : S1024x1024.Iotas .tc 32 [1]) (h : 1 < 32) (r q : Fin 1024) :
    (sitofp .f32 (extui 32 (cmpi .slt (iota .tc S1024x1024 32 [0] h0) (iota .tc S1024x1024 32 [1] h1)) h) :
        FVec Ideal S1024x1024 .f32) (ix2 r q)
      = if r.val < q.val then (1 : EReal) else 0 := by
  show FloatOps.sitofp (F := Ideal) .f32
    ((IntOp.cmpi .slt (iota .tc S1024x1024 32 [0] h0 (ix2 r q)) (iota .tc S1024x1024 32 [1] h1 (ix2 r q))).setWidth 32) = _
  rw [iota_single_apply, iota_single_apply]
  show FloatOps.sitofp (F := Ideal) .f32 ((IntOp.cmpi .slt (BitVec.ofNat 32 r.val) (BitVec.ofNat 32 q.val)).setWidth 32) = _
  rw [cmpi_slt_small r.val q.val r.isLt q.isLt, sitofp_bit]
  by_cases hrq : r.val < q.val <;> simp [hrq]

section MaskedStep
variable (v14 v17 : Vec Ideal S1024x1 .f32) (v20 v23 : Vec Ideal S1x1024 .f32) (acc : Vec Ideal S1x1 .f32)

/-- A step on a diagonal tile adds the pair losses of the tile's strict upper triangle to the accumulator. -/
theorem pay2_eq :
    k0_pay2 (F := Ideal) (k0_pay12 v17 v23) (k0_pay13 v17 v23) (k0_pay14 v14 v20) (k0_pay15 v17 v23) acc
      = fun _ => acc (ix2 0 0) + ∑ r : Fin 1024, ∑ q : Fin 1024,
          Spec.pairLoss (v17 (ix2 r 0)) (v23 (ix2 0 q)) (v14 (ix2 r 0)) (v20 (ix2 0 q))
            * (if r.val < q.val then (1 : EReal) else 0) := by
  unfold k0_pay2
  refine (acc_tail (a := 1024) (b := 1024) _ acc _ _ _ _ _ _ _).trans ?_
  funext _
  refine congrArg (acc (ix2 0 0) + ·) ?_
  refine Finset.sum_congr rfl fun r _ => Finset.sum_congr rfl fun q _ => ?_
  refine (mulf_apply _ _ _).trans ?_
  rw [pay1_apply, mask_apply]

end MaskedStep

/-! ### The final placement: the accumulator at row 0, lane 0 of a block of zeros -/

/-- A 32-bit word of a number below 1024 is the zero word exactly when the number is zero. -/
theorem cmpi_eq_zero_small (n : Nat) (h : n < 1024) :
    IntOp.cmpi .eq (BitVec.ofNat 32 n) 0#32 = BitVec.ofBool (decide (n = 0)) := by
  show BitVec.ofBool (BitVec.ofNat 32 n == 0#32) = _
  refine congrArg BitVec.ofBool ?_
  by_cases hn : n = 0
  · subst hn; rfl
  · have hne : BitVec.ofNat 32 n ≠ 0#32 := by
      intro he
      have h' := congrArg BitVec.toNat he
      rw [BitVec.toNat_ofNat, Nat.mod_eq_of_lt (by omega)] at h'
      exact hn h'
    rw [decide_eq_false hn]
    exact beq_eq_false_iff_ne.2 hne

/-- The conjunction of two one-bit words. -/
theorem andi_ofBool (c d : Bool) : IntOp.andi (BitVec.ofBool c) (BitVec.ofBool d) = BitVec.ofBool (c && d) := by
  cases c <;> cases d <;> rfl

/-- A select on the conjunction of two decided conditions is the `if` on their conjunction. -/
theorem select_and {α : Type} (p q : Prop) [Decidable p] [Decidable q] (A B : α) :
    Scalar.select (BitVec.ofBool (decide p && decide q)) A B = if p ∧ q then A else B := by
  by_cases hp : p <;> by_cases hq : q <;> simp [Scalar.select, hp, hq]

/-- The placement mask at `(a, b)` of the 8 x 128 block: row 0 and lane 0. -/
theorem pay5_apply (a : Fin 8) (b : Fin 128) :
    k0_pay5 (ix2 a b) = BitVec.ofBool (decide (a.val = 0) && decide (b.val = 0)) := by
  have ha := a.isLt
  have hb := b.isLt
  unfold k0_pay5
  show IntOp.andi (IntOp.cmpi .eq (iota .tc S8x128 32 [0] _ (ix2 a b)) 0#32)
    (IntOp.cmpi .eq (iota .tc S8x128 32 [1] _ (ix2 a b)) 0#32) = _
  rw [iota_single_apply, iota_single_apply]
  show IntOp.andi (IntOp.cmpi .eq (BitVec.ofNat 32 a.val) 0#32) (IntOp.cmpi .eq (BitVec.ofNat 32 b.val) 0#32) = _
  rw [cmpi_eq_zero_small a.val (by omega), cmpi_eq_zero_small b.val (by omega), andi_ofBool]

/-- The block built from a one-element value: that value at row 0, lane 0, and zero elsewhere. -/
theorem place_eq (acc : Vec Ideal S1x1 .f32) (h0 : ∀ a, (![0, 0] : Fin 2 → Nat) a < S1x1.size a)
    (hc : S8x128.ShapeCasts S1x8x128) :
    shapeCast S1x8x128 (select k0_pay5 (broadcast S8x128 (extractAt ![0, 0] acc h0))
        (broadcast S8x128 (Scalar.ofBits (F := Ideal) .f32 0x00000000#32))) hc
      = fun idx => if (idx 1).val = 0 ∧ (idx 2).val = 0 then acc (ix2 0 0) else Spec.zeroF := by
  funext idx
  obtain ⟨u, a, b, rfl⟩ : ∃ (u : Fin 1) (a : Fin 8) (b : Fin 128), idx = ix3 u a b := ⟨idx 0, idx 1, idx 2, eq_ix3 idx⟩
  refine (shapeCast_ab_1ab_apply (a := 8) (b := 128) _ hc u a b).trans ?_
  show Scalar.select (k0_pay5 (ix2 a b)) (extractAt ![0, 0] acc h0) (Scalar.ofBits (F := Ideal) .f32 0x00000000#32)
    = if a.val = 0 ∧ b.val = 0 then acc (ix2 0 0) else Spec.zeroF
  rw [pay5_apply, select_and]
  have hx : extractAt ![0, 0] acc h0 = acc (ix2 0 0) := congrArg acc (idx11_eq _ _)
  rw [hx]
  rfl

/-- The first output block: the ranking accumulator at row 0, lane 0, zeros elsewhere. -/
theorem pay6_eq (acc : Vec Ideal S1x1 .f32) :
    k0_pay6 (F := Ideal) acc = fun idx => if (idx 1).val = 0 ∧ (idx 2).val = 0 then acc (ix2 0 0) else Spec.zeroF := by
  unfold k0_pay6
  exact place_eq acc _ _

/-- The second output block: the squared-error accumulator at row 0, lane 0, zeros elsewhere. -/
theorem pay7_eq (acc : Vec Ideal S1x1 .f32) :
    k0_pay7 (F := Ideal) acc = fun idx => if (idx 1).val = 0 ∧ (idx 2).val = 0 then acc (ix2 0 0) else Spec.zeroF := by
  unfold k0_pay7
  exact place_eq acc _ _

/-! ### The two accumulators start at zero -/

/-- The ranking accumulator's first value. -/
theorem pay8_eq : k0_pay8 (F := Ideal) = fun _ => Spec.zeroF := by
  unfold k0_pay8
  exact (shapeCast_self _ _).trans rfl

/-- The squared-error accumulator's first value. -/
theorem pay9_eq : k0_pay9 (F := Ideal) = fun _ => Spec.zeroF := by
  unfold k0_pay9
  exact (shapeCast_self _ _).trans rfl

end Cert.KernelIdeal.Pay

end
-- ==== Proof.Tiles.lean ====
/-
  The tile decomposition of the two sums of the specification.

  The index range 0 … 8191 is the disjoint union of 8 blocks of 1024 consecutive indices, through `row i r = 1024 * i + r`.
  Summing over the range is therefore summing over the blocks and, inside a block, over its rows. Applied to both indices of the
  pair matrix this writes the ranking sum as the sum of its 64 tiles. A tile strictly below the diagonal only holds pairs `(a, b)`
  with `b < a`, whose indicator is `0`, so it vanishes; the tables `il`, `jl` list every tile on or above the diagonal exactly once,
  so the sum over the table entries is the whole ranking sum. The squared-error sum is the sum of its 8 blocks, and the diagonal
  tiles `(i, i)` occur once each in the tables.

  Everything is stated over the extended reals with no finiteness hypothesis: only `x * 0 = 0` and the commutative-monoid laws of
  addition are used.
-/
import Mathlib.Algebra.BigOperators.Group.Finset.Basic
import Mathlib.Data.Fintype.BigOperators
import Mathlib.Data.EReal.Basic
import Idealize.ShloMosaic.PureOps.Ideal
import proofs.«178835_j59803124630166_2_alg».proof.Proof.Spec

noncomputable section

namespace Cert.Spec.Tiles

open Cert.Spec

/-! ### The blocks partition the index range -/

/-- `(i, r) ↦ 1024 * i + r` is a bijection from 8 blocks of 1024 rows onto the 8192 indices; its inverse is quotient and
remainder by 1024. -/
def rowEquiv : Fin 8 × Fin 1024 ≃ Fin 8192 where
  toFun x := row x.1 x.2
  invFun a := (⟨a.val / 1024, by omega⟩, ⟨a.val % 1024, Nat.mod_lt _ (by decide)⟩)
  left_inv := by
    rintro ⟨i, r⟩
    apply Prod.ext <;> apply Fin.ext <;> simp only [row] <;> omega
  right_inv := by
    intro a
    apply Fin.ext
    simp only [row]
    omega

theorem rowEquiv_apply (i : Fin 8) (r : Fin 1024) : rowEquiv (i, r) = row i r := rfl

/-- A sum over the 8192 indices is the sum over the blocks of the sums over each block's rows. -/
theorem sum_rows {M : Type*} [AddCommMonoid M] (f : Fin 8192 → M) :
    ∑ a : Fin 8192, f a = ∑ i : Fin 8, ∑ r : Fin 1024, f (row i r) := by
  rw [← Equiv.sum_comp rowEquiv f, Fintype.sum_prod_type]
  rfl

/-! ### The indicator on a tile -/

/-- On a diagonal tile the indicator compares the rows inside the block. -/
theorem upper_diag (i : Fin 8) (r q : Fin 1024) :
    upper (row i r).val (row i q).val = if r.val < q.val then 1 else 0 := by
  simp only [upper, row, Nat.add_lt_add_iff_left]

/-- On a tile strictly above the diagonal the indicator is `1` everywhere. -/
theorem upper_off (i j : Fin 8) (h : i.val < j.val) (r q : Fin 1024) :
    upper (row i r).val (row j q).val = 1 := by
  have hlt : 1024 * i.val + r.val < 1024 * j.val + q.val := by omega
  simp only [upper, row]
  exact if_pos hlt

/-- On a tile strictly below the diagonal the indicator is `0` everywhere. -/
theorem upper_below (i j : Fin 8) (h : j.val < i.val) (r q : Fin 1024) :
    upper (row i r).val (row j q).val = 0 := by
  have hge : ¬ 1024 * i.val + r.val < 1024 * j.val + q.val := by omega
  simp only [upper, row]
  exact if_neg hge

/-- A tile strictly below the diagonal contributes nothing: every term is a loss times `0`. -/
theorem tileRank_below (p t : Fin 8192 → EReal) (i j : Fin 8) (h : j.val < i.val) :
    tileRank p t i j = 0 := by
  unfold tileRank
  refine Finset.sum_eq_zero fun r _ => Finset.sum_eq_zero fun q _ => ?_
  rw [upper_below i j h r q, mul_zero]

/-! ### The two sums as sums of tiles -/

/-- The ranking sum is the sum of all 64 tiles. -/
theorem rankSum_eq_tiles (p t : Fin 8192 → EReal) :
    rankSum p t = ∑ i : Fin 8, ∑ j : Fin 8, tileRank p t i j := by
  unfold rankSum tileRank
  rw [sum_rows]
  refine Finset.sum_congr rfl fun i _ => ?_
  -- for a fixed block row, split every row's sum over the columns into block columns, then move the rows inward
  have hinner : ∀ r : Fin 1024,
      ∑ b : Fin 8192, pairLoss (t (row i r)) (t b) (p (row i r)) (p b) * upper (row i r).val b.val
        = ∑ j : Fin 8, ∑ q : Fin 1024,
            pairLoss (t (row i r)) (t (row j q)) (p (row i r)) (p (row j q)) * upper (row i r).val (row j q).val :=
    fun r => sum_rows _
  rw [Finset.sum_congr rfl fun r _ => hinner r, Finset.sum_comm]

/-- The squared-error sum is the sum of its 8 blocks. -/
theorem mseSum_eq_tiles (p t : Fin 8192 → EReal) :
    mseSum p t = ∑ i : Fin 8, tileMse p t i := by
  unfold mseSum tileMse
  exact sum_rows _

/-! ### The tables -/

/-- The tile listed for core `c` at step `s`. -/
def tab (x : Fin 2 × Fin 18) : Fin 8 × Fin 8 := (il x.1 x.2, jl x.1 x.2)

/-- Every listed tile is on or above the diagonal. -/
theorem table_le : ∀ (c : Fin 2) (s : Fin 18), il c s ≤ jl c s := by decide

/-- No tile is listed twice. -/
theorem tab_injective : Function.Injective tab := by decide

/-- Every tile that is not listed is strictly below the diagonal. -/
theorem not_listed_below : ∀ ij : Fin 8 × Fin 8, (¬ ∃ x, tab x = ij) → ij.2.val < ij.1.val := by decide

/-- A function of the tile that vanishes strictly below the diagonal has the same sum over the table entries as over all tiles. -/
theorem sum_table {M : Type*} [AddCommMonoid M] (g : Fin 8 × Fin 8 → M)
    (hg : ∀ ij : Fin 8 × Fin 8, ij.2.val < ij.1.val → g ij = 0) :
    ∑ c : Fin 2, ∑ s : Fin 18, g (il c s, jl c s) = ∑ i : Fin 8, ∑ j : Fin 8, g (i, j) := by
  rw [← Fintype.sum_prod_type (fun x : Fin 2 × Fin 18 => g (il x.1 x.2, jl x.1 x.2)),
    ← Fintype.sum_prod_type g]
  refine Finset.sum_of_injOn tab (tab_injective.injOn) (fun _ _ => Finset.mem_coe.2 (Finset.mem_univ _)) ?_ (fun _ _ => rfl)
  intro ij _ hij
  refine hg ij (not_listed_below ij ?_)
  rintro ⟨x, hx⟩
  exact hij ⟨x, Finset.mem_coe.2 (Finset.mem_univ x), hx⟩

/-- The tiles the two cores visit add up to the ranking sum. -/
theorem rank_tiles (p t : Fin 8192 → EReal) :
    ∑ c : Fin 2, ∑ s : Fin 18, tileRank p t (il c s) (jl c s) = rankSum p t := by
  rw [rankSum_eq_tiles]
  exact sum_table (fun ij => tileRank p t ij.1 ij.2) (fun ij h => tileRank_below p t ij.1 ij.2 h)

/-- The diagonal tiles the two cores visit add up to the squared-error sum. -/
theorem mse_tiles (p t : Fin 8192 → EReal) :
    ∑ c : Fin 2, ∑ s : Fin 18, (if il c s = jl c s then tileMse p t (il c s) else 0) = mseSum p t := by
  rw [mseSum_eq_tiles]
  have h := sum_table (fun ij : Fin 8 × Fin 8 => if ij.1 = ij.2 then tileMse p t ij.1 else 0)
    (fun ij h => if_neg (fun e => by rw [e] at h; exact lt_irrefl _ h))
  refine h.trans (Finset.sum_congr rfl fun i _ => ?_)
  simp only [Finset.sum_ite_eq, Finset.mem_univ, if_true]

end Cert.Spec.Tiles

end
-- ==== Proof.StepsIdeal.lean ====
/-
  The two accumulators, step by step. At a grid position `n` = 18 * core + step the body visits the tile of block row
  `blockRow n` and block column `blockCol n`. Reading the four loaded tiles as entries of the prediction and target vectors,
  the masked pair-loss sum of a diagonal tile and the plain pair-loss sum of a tile above the diagonal are both the
  specification's ranking sum restricted to that tile (on the diagonal the mask is the strict-upper indicator; above it the
  indicator is one everywhere), and the squared-error sum of a diagonal tile is the specification's squared-error sum of that
  block. So at a core's first step the first accumulator holds zero plus that tile's ranking sum and the second zero plus its
  squared-error sum (zero plus nothing off the diagonal), and every later step adds the visited tile's sums to what the step
  before left; at a core's last step the two output tiles hold the accumulators at row 0, lane 0, and zero elsewhere.
-/
import proofs.«178835_j59803124630166_2_alg».proof.Proof.Gen.KernelIdeal.Frame
import proofs.«178835_j59803124630166_2_alg».proof.Proof.PiecesIdeal
import proofs.«178835_j59803124630166_2_alg».proof.Proof.TablesIdeal
import proofs.«178835_j59803124630166_2_alg».proof.Proof.ReadsIdeal
import proofs.«178835_j59803124630166_2_alg».proof.Proof.PayIdeal
import proofs.«178835_j59803124630166_2_alg».proof.Proof.Tiles
import proofs.«178835_j59803124630166_2_alg».proof.Proof.Spec
import Idealize.ShloMosaic.Lib.ValueIdx
import Idealize.ShloMosaic.Lib.Pipeline.Value

set_option maxRecDepth 16384

noncomputable section

open Idealize.ShloMosaic Idealize.ShloMosaic.TcCoe Idealize.SL.Sem

namespace Cert.KernelIdeal.Steps

open Cert.KernelIdeal Cert.KernelIdeal.Gen Cert.KernelIdeal.Pieces Cert.KernelIdeal.Tables Cert.KernelIdeal.Reads Cert.KernelIdeal.Pay ValueIdx
open Cert

variable (m : (ℓ : Loc nD τ sig) → Buf (Elt Ideal) ℓ) (hO : Ok m) (hH : Hyps m hO) (c : Dev nD)

/-- The predictions and the targets, as vectors over 0 … 8191. -/
abbrev pred : Fin 8192 → EReal := fun a => m ((c : Thread nD τ).loc main_arg0) (ix1 a)
abbrev targ : Fin 8192 → EReal := fun a => m ((c : Thread nD τ).loc main_arg1) (ix1 a)

/-- What the tile visited at position `n` adds to the ranking accumulator and to the squared-error accumulator. -/
def rankAdd (n : ℕ) : EReal := Spec.tileRank (pred m c) (targ m c) (blockRow n) (blockCol n)
def mseAdd (n : ℕ) : EReal := if blockRow n = blockCol n then Spec.tileMse (pred m c) (targ m c) (blockRow n) else 0

theorem bound (i : Fin 8) (r : Fin 1024) : 1024 * i.val + r.val < 8192 := by
  have := i.isLt; have := r.isLt; omega

/-- The four loaded tiles at a grid point, entry by entry. -/
theorem predCol_at (t : Fin (cfgM m hO).N) (r : Fin 1024) :
    colTile (iblk m hO c 0 t) (Hyps.c0 hH c t) (ix2 r (0 : Fin 1)) = pred m c (Spec.row (blockRow t.val) r) :=
  (colTile_apply (iblk m hO c 0 t) (Hyps.c0 hH c t) (blockRow t.val).val (off2_at m t) r (bound _ r)).trans (iblk0_apply m hO c t _)
theorem targCol_at (t : Fin (cfgM m hO).N) (r : Fin 1024) :
    colTile (iblk m hO c 2 t) (Hyps.c0 hH c t) (ix2 r (0 : Fin 1)) = targ m c (Spec.row (blockRow t.val) r) :=
  (colTile_apply (iblk m hO c 2 t) (Hyps.c0 hH c t) (blockRow t.val).val (off2_at m t) r (bound _ r)).trans (iblk2_apply m hO c t _)
theorem predRow_at (t : Fin (cfgM m hO).N) (q : Fin 1024) :
    rowTile (iblk m hO c 1 t) (Hyps.c1 hH c t) (ix2 (0 : Fin 1) q) = pred m c (Spec.row (blockCol t.val) q) :=
  (rowTile_apply (iblk m hO c 1 t) (Hyps.c1 hH c t) (blockCol t.val).val (off3_at m t) q (bound _ q)).trans (iblk1_apply m hO c t _)
theorem targRow_at (t : Fin (cfgM m hO).N) (q : Fin 1024) :
    rowTile (iblk m hO c 3 t) (Hyps.c1 hH c t) (ix2 (0 : Fin 1) q) = targ m c (Spec.row (blockCol t.val) q) :=
  (rowTile_apply (iblk m hO c 3 t) (Hyps.c1 hH c t) (blockCol t.val).val (off3_at m t) q (bound _ q)).trans (iblk3_apply m hO c t _)

/-- On a diagonal tile the masked pair-loss sum is the tile's ranking sum. -/
theorem rankDiag_step (t : Fin (cfgM m hO).N) (hd : blockRow t.val = blockCol t.val) (acc : Vec Ideal S1x1 .f32) :
    rankDiag (iblk m hO c 0 t) (iblk m hO c 1 t) (iblk m hO c 2 t) (iblk m hO c 3 t) (Hyps.c0 hH c t) (Hyps.c1 hH c t) acc
      = fun _ => acc (ix2 0 0) + rankAdd m c t.val := by
  refine (pay2_eq _ _ _ _ acc).trans ?_
  funext _
  refine congrArg (acc (ix2 0 0) + ·) ?_
  unfold rankAdd Spec.tileRank
  refine Finset.sum_congr rfl fun r _ => Finset.sum_congr rfl fun q _ => ?_
  rw [predCol_at m hO hH c t r, targCol_at m hO hH c t r, predRow_at m hO hH c t q, targRow_at m hO hH c t q, ← hd,
    Spec.Tiles.upper_diag]

/-- On a tile above the diagonal the plain pair-loss sum is the tile's ranking sum. -/
theorem rankOff_step (t : Fin (cfgM m hO).N) (hd : ¬ blockRow t.val = blockCol t.val) (acc : Vec Ideal S1x1 .f32) :
    rankOff (iblk m hO c 0 t) (iblk m hO c 1 t) (iblk m hO c 2 t) (iblk m hO c 3 t) (Hyps.c0 hH c t) (Hyps.c1 hH c t) acc
      = fun _ => acc (ix2 0 0) + rankAdd m c t.val := by
  refine (pay4_eq _ _ _ _ acc).trans ?_
  funext _
  refine congrArg (acc (ix2 0 0) + ·) ?_
  unfold rankAdd Spec.tileRank
  refine Finset.sum_congr rfl fun r _ => Finset.sum_congr rfl fun q _ => ?_
  rw [predCol_at m hO hH c t r, targCol_at m hO hH c t r, predRow_at m hO hH c t q, targRow_at m hO hH c t q,
    Spec.Tiles.upper_off _ _ (row_lt_col_all t hd), mul_one]

/-- On a diagonal tile the squared-error sum is the block's. -/
theorem mseDiag_step (t : Fin (cfgM m hO).N) (hd : blockRow t.val = blockCol t.val) (acc : Vec Ideal S1x1 .f32) :
    mseDiag (iblk m hO c 0 t) (iblk m hO c 2 t) (Hyps.c0 hH c t) acc = fun _ => acc (ix2 0 0) + mseAdd m c t.val := by
  refine (pay3_eq _ _ acc).trans ?_
  funext _
  refine congrArg (acc (ix2 0 0) + ·) ?_
  unfold mseAdd Spec.tileMse
  rw [if_pos hd]
  refine Finset.sum_congr rfl fun r _ => ?_
  rw [predCol_at m hO hH c t r, targCol_at m hO hH c t r]

/-- A core's first step: both accumulators are zeroed, then the visited tile's sums are added. -/
theorem reset (n : ℕ) (h : n < (cfgM m hO).N) (h0 : n % 18 = 0) :
    (outsAt0 m hO hH c n h).2.2.1 = (fun _ => Spec.zeroF + rankAdd m c n)
    ∧ (outsAt0 m hO hH c n h).2.2.2 = (fun _ => Spec.zeroF + mseAdd m c n) := by
  have h3 : ¬ n % 18 = 17 := by omega
  by_cases hd : blockRow n = blockCol n
  · have h1 := (cond1_at m ⟨n, h⟩).mpr hd
    have h2 := fun hc => (cond2_at m ⟨n, h⟩).mp hc hd
    rw [outsAt0_B m hO hH c ⟨n, h⟩ h0 h1 h2 h3]
    dsimp only
    refine ⟨?_, ?_⟩
    · refine (sout0_B_0_eq c (grid0.coords ⟨n, h⟩) (ms0_0 m hO ⟨n, h⟩) (hs0_0 m hO ⟨n, h⟩) (ms0_1 m hO ⟨n, h⟩) (hs0_1 m hO ⟨n, h⟩) (ms0_2 m hO ⟨n, h⟩) (hs0_2 m hO ⟨n, h⟩) (ms0_3 m hO ⟨n, h⟩) (hs0_3 m hO ⟨n, h⟩) (ms0_4 m hO ⟨n, h⟩) (hs0_4 m hO ⟨n, h⟩) (ms0_5 m hO ⟨n, h⟩) (hs0_5 m hO ⟨n, h⟩) scM0_0 (Memref.isWhole_whole _) scM0_1 (Memref.isWhole_whole _) _ _ (iblk m hO c 0 ⟨n, h⟩) (iblk m hO c 1 ⟨n, h⟩) (iblk m hO c 2 ⟨n, h⟩) (iblk m hO c 3 ⟨n, h⟩) (tbl m 0) (tbl m 1) h1 h2 (Hyps.c0 hH c ⟨n, h⟩) (Hyps.c1 hH c ⟨n, h⟩)).trans ?_
      rw [rankDiag_step m hO hH c ⟨n, h⟩ hd, pay8_eq]
    · refine (sout0_B_1_eq c (grid0.coords ⟨n, h⟩) (ms0_0 m hO ⟨n, h⟩) (hs0_0 m hO ⟨n, h⟩) (ms0_1 m hO ⟨n, h⟩) (hs0_1 m hO ⟨n, h⟩) (ms0_2 m hO ⟨n, h⟩) (hs0_2 m hO ⟨n, h⟩) (ms0_3 m hO ⟨n, h⟩) (hs0_3 m hO ⟨n, h⟩) (ms0_4 m hO ⟨n, h⟩) (hs0_4 m hO ⟨n, h⟩) (ms0_5 m hO ⟨n, h⟩) (hs0_5 m hO ⟨n, h⟩) scM0_0 (Memref.isWhole_whole _) scM0_1 (Memref.isWhole_whole _) _ _ (iblk m hO c 0 ⟨n, h⟩) (iblk m hO c 1 ⟨n, h⟩) (iblk m hO c 2 ⟨n, h⟩) (iblk m hO c 3 ⟨n, h⟩) (tbl m 0) (tbl m 1) h1 h2 (Hyps.c0 hH c ⟨n, h⟩) (Hyps.c1 hH c ⟨n, h⟩)).trans ?_
      rw [mseDiag_step m hO hH c ⟨n, h⟩ hd, pay9_eq]
  · have h1 := fun hc => hd ((cond1_at m ⟨n, h⟩).mp hc)
    have h2 := (cond2_at m ⟨n, h⟩).mpr hd
    rw [outsAt0_C m hO hH c ⟨n, h⟩ h0 h1 h2 h3]
    dsimp only
    refine ⟨?_, ?_⟩
    · refine (sout0_C_0_eq c (grid0.coords ⟨n, h⟩) (ms0_0 m hO ⟨n, h⟩) (hs0_0 m hO ⟨n, h⟩) (ms0_1 m hO ⟨n, h⟩) (hs0_1 m hO ⟨n, h⟩) (ms0_2 m hO ⟨n, h⟩) (hs0_2 m hO ⟨n, h⟩) (ms0_3 m hO ⟨n, h⟩) (hs0_3 m hO ⟨n, h⟩) (ms0_4 m hO ⟨n, h⟩) (hs0_4 m hO ⟨n, h⟩) (ms0_5 m hO ⟨n, h⟩) (hs0_5 m hO ⟨n, h⟩) scM0_0 (Memref.isWhole_whole _) scM0_1 (Memref.isWhole_whole _) _ _ (iblk m hO c 0 ⟨n, h⟩) (iblk m hO c 1 ⟨n, h⟩) (iblk m hO c 2 ⟨n, h⟩) (iblk m hO c 3 ⟨n, h⟩) (tbl m 0) (tbl m 1) h1 h2 (Hyps.c0 hH c ⟨n, h⟩) (Hyps.c1 hH c ⟨n, h⟩)).trans ?_
      rw [rankOff_step m hO hH c ⟨n, h⟩ hd, pay8_eq]
    · refine (sout0_C_1_eq c (grid0.coords ⟨n, h⟩) (ms0_0 m hO ⟨n, h⟩) (hs0_0 m hO ⟨n, h⟩) (ms0_1 m hO ⟨n, h⟩) (hs0_1 m hO ⟨n, h⟩) (ms0_2 m hO ⟨n, h⟩) (hs0_2 m hO ⟨n, h⟩) (ms0_3 m hO ⟨n, h⟩) (hs0_3 m hO ⟨n, h⟩) (ms0_4 m hO ⟨n, h⟩) (hs0_4 m hO ⟨n, h⟩) (ms0_5 m hO ⟨n, h⟩) (hs0_5 m hO ⟨n, h⟩) scM0_0 (Memref.isWhole_whole _) scM0_1 (Memref.isWhole_whole _) _ _ (iblk m hO c 0 ⟨n, h⟩) (iblk m hO c 1 ⟨n, h⟩) (iblk m hO c 2 ⟨n, h⟩) (iblk m hO c 3 ⟨n, h⟩) (tbl m 0) (tbl m 1) h1 h2 (Hyps.c0 hH c ⟨n, h⟩) (Hyps.c1 hH c ⟨n, h⟩)).trans ?_
      rw [pay9_eq]
      unfold mseAdd
      rw [if_neg hd, add_zero]

/-- Every later step adds the visited tile's sums to what the step before left. -/
theorem step (n : ℕ) (h : n + 1 < (cfgM m hO).N) (h0 : ¬ (n + 1) % 18 = 0) :
    (outsAt0 m hO hH c (n + 1) h).2.2.1 = (fun i => (outsAt0 m hO hH c n (Nat.lt_of_succ_lt h)).2.2.1 i + rankAdd m c (n + 1))
    ∧ (outsAt0 m hO hH c (n + 1) h).2.2.2 = (fun i => (outsAt0 m hO hH c n (Nat.lt_of_succ_lt h)).2.2.2 i + mseAdd m c (n + 1)) := by
  have one : ∀ (acc : Vec Ideal S1x1 .f32) (x : EReal), (fun _ => acc (ix2 0 0) + x : Vec Ideal S1x1 .f32) = fun i => acc i + x :=
    fun acc x => funext fun i => by rw [idx11_eq i (ix2 0 0)]
  by_cases hd : blockRow (n + 1) = blockCol (n + 1)
  · have h1 := (cond1_at m ⟨n + 1, h⟩).mpr hd
    have h2 := fun hc => (cond2_at m ⟨n + 1, h⟩).mp hc hd
    by_cases h3 : (n + 1) % 18 = 17
    · rw [outsAt0_J m hO hH c ⟨n + 1, h⟩ h0 h1 h2 h3]
      dsimp only
      refine ⟨?_, ?_⟩
      · refine (sout0_J_0_eq c (grid0.coords ⟨n + 1, h⟩) (ms0_0 m hO ⟨n + 1, h⟩) (hs0_0 m hO ⟨n + 1, h⟩) (ms0_1 m hO ⟨n + 1, h⟩) (hs0_1 m hO ⟨n + 1, h⟩) (ms0_2 m hO ⟨n + 1, h⟩) (hs0_2 m hO ⟨n + 1, h⟩) (ms0_3 m hO ⟨n + 1, h⟩) (hs0_3 m hO ⟨n + 1, h⟩) (ms0_4 m hO ⟨n + 1, h⟩) (hs0_4 m hO ⟨n + 1, h⟩) (ms0_5 m hO ⟨n + 1, h⟩) (hs0_5 m hO ⟨n + 1, h⟩) scM0_0 (Memref.isWhole_whole _) scM0_1 (Memref.isWhole_whole _) _ _ (iblk m hO c 0 ⟨n + 1, h⟩) (iblk m hO c 1 ⟨n + 1, h⟩) (iblk m hO c 2 ⟨n + 1, h⟩) (iblk m hO c 3 ⟨n + 1, h⟩) (tbl m 0) (tbl m 1) (outsAt0 m hO hH c n (Nat.lt_of_succ_lt h)).2.2.1 (outsAt0 m hO hH c n (Nat.lt_of_succ_lt h)).2.2.2 h1 h2 (Hyps.c0 hH c ⟨n + 1, h⟩) (Hyps.c1 hH c ⟨n + 1, h⟩)).trans ?_
        rw [rankDiag_step m hO hH c ⟨n + 1, h⟩ hd, one]
      · refine (sout0_J_1_eq c (grid0.coords ⟨n + 1, h⟩) (ms0_0 m hO ⟨n + 1, h⟩) (hs0_0 m hO ⟨n + 1, h⟩) (ms0_1 m hO ⟨n + 1, h⟩) (hs0_1 m hO ⟨n + 1, h⟩) (ms0_2 m hO ⟨n + 1, h⟩) (hs0_2 m hO ⟨n + 1, h⟩) (ms0_3 m hO ⟨n + 1, h⟩) (hs0_3 m hO ⟨n + 1, h⟩) (ms0_4 m hO ⟨n + 1, h⟩) (hs0_4 m hO ⟨n + 1, h⟩) (ms0_5 m hO ⟨n + 1, h⟩) (hs0_5 m hO ⟨n + 1, h⟩) scM0_0 (Memref.isWhole_whole _) scM0_1 (Memref.isWhole_whole _) _ _ (iblk m hO c 0 ⟨n + 1, h⟩) (iblk m hO c 1 ⟨n + 1, h⟩) (iblk m hO c 2 ⟨n + 1, h⟩) (iblk m hO c 3 ⟨n + 1, h⟩) (tbl m 0) (tbl m 1) (outsAt0 m hO hH c n (Nat.lt_of_succ_lt h)).2.2.1 (outsAt0 m hO hH c n (Nat.lt_of_succ_lt h)).2.2.2 h1 h2 (Hyps.c0 hH c ⟨n + 1, h⟩) (Hyps.c1 hH c ⟨n + 1, h⟩)).trans ?_
        rw [mseDiag_step m hO hH c ⟨n + 1, h⟩ hd, one]
    · rw [outsAt0_F m hO hH c ⟨n + 1, h⟩ h0 h1 h2 h3]
      dsimp only
      refine ⟨?_, ?_⟩
      · refine (sout0_F_0_eq c (grid0.coords ⟨n + 1, h⟩) (ms0_0 m hO ⟨n + 1, h⟩) (hs0_0 m hO ⟨n + 1, h⟩) (ms0_1 m hO ⟨n + 1, h⟩) (hs0_1 m hO ⟨n + 1, h⟩) (ms0_2 m hO ⟨n + 1, h⟩) (hs0_2 m hO ⟨n + 1, h⟩) (ms0_3 m hO ⟨n + 1, h⟩) (hs0_3 m hO ⟨n + 1, h⟩) (ms0_4 m hO ⟨n + 1, h⟩) (hs0_4 m hO ⟨n + 1, h⟩) (ms0_5 m hO ⟨n + 1, h⟩) (hs0_5 m hO ⟨n + 1, h⟩) scM0_0 (Memref.isWhole_whole _) scM0_1 (Memref.isWhole_whole _) _ _ (iblk m hO c 0 ⟨n + 1, h⟩) (iblk m hO c 1 ⟨n + 1, h⟩) (iblk m hO c 2 ⟨n + 1, h⟩) (iblk m hO c 3 ⟨n + 1, h⟩) (tbl m 0) (tbl m 1) (outsAt0 m hO hH c n (Nat.lt_of_succ_lt h)).2.2.1 (outsAt0 m hO hH c n (Nat.lt_of_succ_lt h)).2.2.2 h1 h2 (Hyps.c0 hH c ⟨n + 1, h⟩) (Hyps.c1 hH c ⟨n + 1, h⟩)).trans ?_
        rw [rankDiag_step m hO hH c ⟨n + 1, h⟩ hd, one]
      · refine (sout0_F_1_eq c (grid0.coords ⟨n + 1, h⟩) (ms0_0 m hO ⟨n + 1, h⟩) (hs0_0 m hO ⟨n + 1, h⟩) (ms0_1 m hO ⟨n + 1, h⟩) (hs0_1 m hO ⟨n + 1, h⟩) (ms0_2 m hO ⟨n + 1, h⟩) (hs0_2 m hO ⟨n + 1, h⟩) (ms0_3 m hO ⟨n + 1, h⟩) (hs0_3 m hO ⟨n + 1, h⟩) (ms0_4 m hO ⟨n + 1, h⟩) (hs0_4 m hO ⟨n + 1, h⟩) (ms0_5 m hO ⟨n + 1, h⟩) (hs0_5 m hO ⟨n + 1, h⟩) scM0_0 (Memref.isWhole_whole _) scM0_1 (Memref.isWhole_whole _) _ _ (iblk m hO c 0 ⟨n + 1, h⟩) (iblk m hO c 1 ⟨n + 1, h⟩) (iblk m hO c 2 ⟨n + 1, h⟩) (iblk m hO c 3 ⟨n + 1, h⟩) (tbl m 0) (tbl m 1) (outsAt0 m hO hH c n (Nat.lt_of_succ_lt h)).2.2.1 (outsAt0 m hO hH c n (Nat.lt_of_succ_lt h)).2.2.2 h1 h2 (Hyps.c0 hH c ⟨n + 1, h⟩) (Hyps.c1 hH c ⟨n + 1, h⟩)).trans ?_
        rw [mseDiag_step m hO hH c ⟨n + 1, h⟩ hd, one]
  · have h1 := fun hc => hd ((cond1_at m ⟨n + 1, h⟩).mp hc)
    have h2 := (cond2_at m ⟨n + 1, h⟩).mpr hd
    have hq : mseAdd m c (n + 1) = 0 := by unfold mseAdd; rw [if_neg hd]
    by_cases h3 : (n + 1) % 18 = 17
    · rw [outsAt0_K m hO hH c ⟨n + 1, h⟩ h0 h1 h2 h3]
      dsimp only
      refine ⟨?_, ?_⟩
      · refine (sout0_K_0_eq c (grid0.coords ⟨n + 1, h⟩) (ms0_0 m hO ⟨n + 1, h⟩) (hs0_0 m hO ⟨n + 1, h⟩) (ms0_1 m hO ⟨n + 1, h⟩) (hs0_1 m hO ⟨n + 1, h⟩) (ms0_2 m hO ⟨n + 1, h⟩) (hs0_2 m hO ⟨n + 1, h⟩) (ms0_3 m hO ⟨n + 1, h⟩) (hs0_3 m hO ⟨n + 1, h⟩) (ms0_4 m hO ⟨n + 1, h⟩) (hs0_4 m hO ⟨n + 1, h⟩) (ms0_5 m hO ⟨n + 1, h⟩) (hs0_5 m hO ⟨n + 1, h⟩) scM0_0 (Memref.isWhole_whole _) scM0_1 (Memref.isWhole_whole _) _ _ (iblk m hO c 0 ⟨n + 1, h⟩) (iblk m hO c 1 ⟨n + 1, h⟩) (iblk m hO c 2 ⟨n + 1, h⟩) (iblk m hO c 3 ⟨n + 1, h⟩) (tbl m 0) (tbl m 1) (outsAt0 m hO hH c n (Nat.lt_of_succ_lt h)).2.2.1 (outsAt0 m hO hH c n (Nat.lt_of_succ_lt h)).2.2.2 h1 h2 (Hyps.c0 hH c ⟨n + 1, h⟩) (Hyps.c1 hH c ⟨n + 1, h⟩)).trans ?_
        rw [rankOff_step m hO hH c ⟨n + 1, h⟩ hd, one]
      · rw [hq]; funext i; rw [add_zero]; rfl
    · rw [outsAt0_G m hO hH c ⟨n + 1, h⟩ h0 h1 h2 h3]
      dsimp only
      refine ⟨?_, ?_⟩
      · refine (sout0_G_0_eq c (grid0.coords ⟨n + 1, h⟩) (ms0_0 m hO ⟨n + 1, h⟩) (hs0_0 m hO ⟨n + 1, h⟩) (ms0_1 m hO ⟨n + 1, h⟩) (hs0_1 m hO ⟨n + 1, h⟩) (ms0_2 m hO ⟨n + 1, h⟩) (hs0_2 m hO ⟨n + 1, h⟩) (ms0_3 m hO ⟨n + 1, h⟩) (hs0_3 m hO ⟨n + 1, h⟩) (ms0_4 m hO ⟨n + 1, h⟩) (hs0_4 m hO ⟨n + 1, h⟩) (ms0_5 m hO ⟨n + 1, h⟩) (hs0_5 m hO ⟨n + 1, h⟩) scM0_0 (Memref.isWhole_whole _) scM0_1 (Memref.isWhole_whole _) _ _ (iblk m hO c 0 ⟨n + 1, h⟩) (iblk m hO c 1 ⟨n + 1, h⟩) (iblk m hO c 2 ⟨n + 1, h⟩) (iblk m hO c 3 ⟨n + 1, h⟩) (tbl m 0) (tbl m 1) (outsAt0 m hO hH c n (Nat.lt_of_succ_lt h)).2.2.1 (outsAt0 m hO hH c n (Nat.lt_of_succ_lt h)).2.2.2 h1 h2 (Hyps.c0 hH c ⟨n + 1, h⟩) (Hyps.c1 hH c ⟨n + 1, h⟩)).trans ?_
        rw [rankOff_step m hO hH c ⟨n + 1, h⟩ hd, one]
      · rw [hq]; funext i; rw [add_zero]; rfl

end Cert.KernelIdeal.Steps

end
-- ==== Proof.AccumIdeal.lean ====
/-
  The accumulators in closed form. The first accumulator resets at the positions that are multiples of 18 (a core's first step)
  and adds the visited tile's ranking sum at every other position, so after position `t` it holds zero plus the ranking sums of
  the tiles visited at positions 18 * (t / 18) … t; the second likewise with the squared-error sums. At a core's last step
  (position 18 * k + 17) those are all 18 tiles of core `k`, and the two output tiles written there hold that total at row 0,
  lane 0, and zero elsewhere.
-/
import proofs.«178835_j59803124630166_2_alg».proof.Proof.StepsIdeal

set_option maxRecDepth 16384

noncomputable section

open Idealize.ShloMosaic Idealize.ShloMosaic.TcCoe Idealize.SL.Sem

namespace Cert.KernelIdeal.Accum

open Cert.KernelIdeal Cert.KernelIdeal.Gen Cert.KernelIdeal.Pieces Cert.KernelIdeal.Tables Cert.KernelIdeal.Reads Cert.KernelIdeal.Pay Cert.KernelIdeal.Steps ValueIdx
open Cert

variable (m : (ℓ : Loc nD τ sig) → Buf (Elt Ideal) ℓ) (hO : Ok m) (hH : Hyps m hO) (c : Dev nD)

/-- The ranking accumulator after position `t`: zero plus the ranking sums of the tiles visited since the core's first step. -/
theorem rank_acc (t : ℕ) (ht : t < (cfgM m hO).N) (i : S1x1.Idx) :
    (outsAt0 m hO hH c t ht).2.2.1 i = Spec.zeroF + ∑ s ∈ Finset.range (t % 18 + 1), rankAdd m c (18 * (t / 18) + s) := by
  have h' : 18 * (t / 18) + t % 18 < (cfgM m hO).N := by rw [Nat.div_add_mod]; exact ht
  refine (congrFun (Pipeline.eq_accAt_of_mod (N := (cfgM m hO).N) (fun n h => (outsAt0 m hO hH c n h).2.2.1) 18
    (fun n _ => fun _ => Spec.zeroF + rankAdd m c n) (fun n _ acc => fun i => acc i + rankAdd m c n)
    (fun n h h0 => (reset m hO hH c n h h0).1) (fun n h h0 => (step m hO hH c n h h0).1) (by decide) t ht h') i).trans ?_
  exact Pipeline.accAt_add_apply (N := (cfgM m hO).N) _ _ (fun _ => Spec.zeroF) (fun n _ => rankAdd m c n) (18 * (t / 18)) 17
    (fun _ _ => rfl) (fun _ _ _ _ _ _ => rfl) (t % 18) (by omega) h' i

/-- The squared-error accumulator after position `t`. -/
theorem mse_acc (t : ℕ) (ht : t < (cfgM m hO).N) (i : S1x1.Idx) :
    (outsAt0 m hO hH c t ht).2.2.2 i = Spec.zeroF + ∑ s ∈ Finset.range (t % 18 + 1), mseAdd m c (18 * (t / 18) + s) := by
  have h' : 18 * (t / 18) + t % 18 < (cfgM m hO).N := by rw [Nat.div_add_mod]; exact ht
  refine (congrFun (Pipeline.eq_accAt_of_mod (N := (cfgM m hO).N) (fun n h => (outsAt0 m hO hH c n h).2.2.2) 18
    (fun n _ => fun _ => Spec.zeroF + mseAdd m c n) (fun n _ acc => fun i => acc i + mseAdd m c n)
    (fun n h h0 => (reset m hO hH c n h h0).2) (fun n h h0 => (step m hO hH c n h h0).2) (by decide) t ht h') i).trans ?_
  exact Pipeline.accAt_add_apply (N := (cfgM m hO).N) _ _ (fun _ => Spec.zeroF) (fun n _ => mseAdd m c n) (18 * (t / 18)) 17
    (fun _ _ => rfl) (fun _ _ _ _ _ _ => rfl) (t % 18) (by omega) h' i

/-- Core `k`'s totals: zero plus the sums over its 18 tiles. -/
def rankCore (k : ℕ) : EReal := Spec.zeroF + ∑ s ∈ Finset.range 18, rankAdd m c (18 * k + s)
def mseCore (k : ℕ) : EReal := Spec.zeroF + ∑ s ∈ Finset.range 18, mseAdd m c (18 * k + s)

/-- At a core's last step the two output tiles are the two accumulators placed at row 0, lane 0. -/
theorem outs_last (n : ℕ) (h : n + 1 < (cfgM m hO).N) (h3 : (n + 1) % 18 = 17) :
    (outsAt0 m hO hH c (n + 1) h).1 = k0_pay6 (outsAt0 m hO hH c (n + 1) h).2.2.1
    ∧ (outsAt0 m hO hH c (n + 1) h).2.1 = k0_pay7 (outsAt0 m hO hH c (n + 1) h).2.2.2 := by
  have h0 : ¬ (n + 1) % 18 = 0 := by omega
  have one : ∀ (acc : Vec Ideal S1x1 .f32) (x : EReal), (fun _ => acc (ix2 0 0) + x : Vec Ideal S1x1 .f32) = fun i => acc i + x :=
    fun acc x => funext fun i => by rw [idx11_eq i (ix2 0 0)]
  obtain ⟨e0, e1⟩ := step m hO hH c n h h0
  rw [e0, e1]
  by_cases hd : blockRow (n + 1) = blockCol (n + 1)
  · have h1 := (cond1_at m ⟨n + 1, h⟩).mpr hd
    have h2 := fun hc => (cond2_at m ⟨n + 1, h⟩).mp hc hd
    rw [outsAt0_J m hO hH c ⟨n + 1, h⟩ h0 h1 h2 h3]
    dsimp only
    refine ⟨?_, ?_⟩
    · refine (out0_J_4_eq c (grid0.coords ⟨n + 1, h⟩) (ms0_0 m hO ⟨n + 1, h⟩) (hs0_0 m hO ⟨n + 1, h⟩) (ms0_1 m hO ⟨n + 1, h⟩) (hs0_1 m hO ⟨n + 1, h⟩) (ms0_2 m hO ⟨n + 1, h⟩) (hs0_2 m hO ⟨n + 1, h⟩) (ms0_3 m hO ⟨n + 1, h⟩) (hs0_3 m hO ⟨n + 1, h⟩) (ms0_4 m hO ⟨n + 1, h⟩) (hs0_4 m hO ⟨n + 1, h⟩) (ms0_5 m hO ⟨n + 1, h⟩) (hs0_5 m hO ⟨n + 1, h⟩) scM0_0 (Memref.isWhole_whole _) scM0_1 (Memref.isWhole_whole _) _ _ (iblk m hO c 0 ⟨n + 1, h⟩) (iblk m hO c 1 ⟨n + 1, h⟩) (iblk m hO c 2 ⟨n + 1, h⟩) (iblk m hO c 3 ⟨n + 1, h⟩) (tbl m 0) (tbl m 1) (outsAt0 m hO hH c n (Nat.lt_of_succ_lt h)).2.2.1 (outsAt0 m hO hH c n (Nat.lt_of_succ_lt h)).2.2.2 h1 h2 (Hyps.c0 hH c ⟨n + 1, h⟩) (Hyps.c1 hH c ⟨n + 1, h⟩)).trans ?_
      rw [rankDiag_step m hO hH c ⟨n + 1, h⟩ hd, one]
    · refine (out0_J_5_eq c (grid0.coords ⟨n + 1, h⟩) (ms0_0 m hO ⟨n + 1, h⟩) (hs0_0 m hO ⟨n + 1, h⟩) (ms0_1 m hO ⟨n + 1, h⟩) (hs0_1 m hO ⟨n + 1, h⟩) (ms0_2 m hO ⟨n + 1, h⟩) (hs0_2 m hO ⟨n + 1, h⟩) (ms0_3 m hO ⟨n + 1, h⟩) (hs0_3 m hO ⟨n + 1, h⟩) (ms0_4 m hO ⟨n + 1, h⟩) (hs0_4 m hO ⟨n + 1, h⟩) (ms0_5 m hO ⟨n + 1, h⟩) (hs0_5 m hO ⟨n + 1, h⟩) scM0_0 (Memref.isWhole_whole _) scM0_1 (Memref.isWhole_whole _) _ _ (iblk m hO c 0 ⟨n + 1, h⟩) (iblk m hO c 1 ⟨n + 1, h⟩) (iblk m hO c 2 ⟨n + 1, h⟩) (iblk m hO c 3 ⟨n + 1, h⟩) (tbl m 0) (tbl m 1) (outsAt0 m hO hH c n (Nat.lt_of_succ_lt h)).2.2.1 (outsAt0 m hO hH c n (Nat.lt_of_succ_lt h)).2.2.2 h1 h2 (Hyps.c0 hH c ⟨n + 1, h⟩) (Hyps.c1 hH c ⟨n + 1, h⟩)).trans ?_
      rw [mseDiag_step m hO hH c ⟨n + 1, h⟩ hd, one]
  · have h1 := fun hc => hd ((cond1_at m ⟨n + 1, h⟩).mp hc)
    have h2 := (cond2_at m ⟨n + 1, h⟩).mpr hd
    have hq : mseAdd m c (n + 1) = 0 := by unfold mseAdd; rw [if_neg hd]
    rw [outsAt0_K m hO hH c ⟨n + 1, h⟩ h0 h1 h2 h3]
    dsimp only
    refine ⟨?_, ?_⟩
    · refine (out0_K_4_eq c (grid0.coords ⟨n + 1, h⟩) (ms0_0 m hO ⟨n + 1, h⟩) (hs0_0 m hO ⟨n + 1, h⟩) (ms0_1 m hO ⟨n + 1, h⟩) (hs0_1 m hO ⟨n + 1, h⟩) (ms0_2 m hO ⟨n + 1, h⟩) (hs0_2 m hO ⟨n + 1, h⟩) (ms0_3 m hO ⟨n + 1, h⟩) (hs0_3 m hO ⟨n + 1, h⟩) (ms0_4 m hO ⟨n + 1, h⟩) (hs0_4 m hO ⟨n + 1, h⟩) (ms0_5 m hO ⟨n + 1, h⟩) (hs0_5 m hO ⟨n + 1, h⟩) scM0_0 (Memref.isWhole_whole _) scM0_1 (Memref.isWhole_whole _) _ _ (iblk m hO c 0 ⟨n + 1, h⟩) (iblk m hO c 1 ⟨n + 1, h⟩) (iblk m hO c 2 ⟨n + 1, h⟩) (iblk m hO c 3 ⟨n + 1, h⟩) (tbl m 0) (tbl m 1) (outsAt0 m hO hH c n (Nat.lt_of_succ_lt h)).2.2.1 (outsAt0 m hO hH c n (Nat.lt_of_succ_lt h)).2.2.2 h1 h2 (Hyps.c0 hH c ⟨n + 1, h⟩) (Hyps.c1 hH c ⟨n + 1, h⟩)).trans ?_
      rw [rankOff_step m hO hH c ⟨n + 1, h⟩ hd, one]
    · refine (out0_K_5_eq c (grid0.coords ⟨n + 1, h⟩) (ms0_0 m hO ⟨n + 1, h⟩) (hs0_0 m hO ⟨n + 1, h⟩) (ms0_1 m hO ⟨n + 1, h⟩) (hs0_1 m hO ⟨n + 1, h⟩) (ms0_2 m hO ⟨n + 1, h⟩) (hs0_2 m hO ⟨n + 1, h⟩) (ms0_3 m hO ⟨n + 1, h⟩) (hs0_3 m hO ⟨n + 1, h⟩) (ms0_4 m hO ⟨n + 1, h⟩) (hs0_4 m hO ⟨n + 1, h⟩) (ms0_5 m hO ⟨n + 1, h⟩) (hs0_5 m hO ⟨n + 1, h⟩) scM0_0 (Memref.isWhole_whole _) scM0_1 (Memref.isWhole_whole _) _ _ (iblk m hO c 0 ⟨n + 1, h⟩) (iblk m hO c 1 ⟨n + 1, h⟩) (iblk m hO c 2 ⟨n + 1, h⟩) (iblk m hO c 3 ⟨n + 1, h⟩) (tbl m 0) (tbl m 1) (outsAt0 m hO hH c n (Nat.lt_of_succ_lt h)).2.2.1 (outsAt0 m hO hH c n (Nat.lt_of_succ_lt h)).2.2.2 h1 h2 (Hyps.c0 hH c ⟨n + 1, h⟩) (Hyps.c1 hH c ⟨n + 1, h⟩)).trans ?_
      rw [hq]
      refine congrArg k0_pay7 (funext fun i => ?_)
      rw [add_zero]

/-- So at position 18 * k + 17 the first output tile holds core `k`'s ranking total, the second its squared-error total. -/
theorem out4_last (t : Fin (cfgM m hO).N) (ht : t.val % 18 = 17) :
    (outsAt0 m hO hH c t.val t.isLt).1 = fun y => if (y 1).val = 0 ∧ (y 2).val = 0 then rankCore m c (t.val / 18) else Spec.zeroF := by
  obtain ⟨n', h⟩ := t
  obtain ⟨n, rfl⟩ : ∃ n, n' = n + 1 := ⟨n' - 1, by dsimp only at ht; omega⟩
  dsimp only at ht ⊢
  rw [(outs_last m hO hH c n h ht).1, pay6_eq]
  funext y
  rw [rank_acc m hO hH c (n + 1) h (ix2 0 0), ht]
  rfl

theorem out5_last (t : Fin (cfgM m hO).N) (ht : t.val % 18 = 17) :
    (outsAt0 m hO hH c t.val t.isLt).2.1 = fun y => if (y 1).val = 0 ∧ (y 2).val = 0 then mseCore m c (t.val / 18) else Spec.zeroF := by
  obtain ⟨n', h⟩ := t
  obtain ⟨n, rfl⟩ : ∃ n, n' = n + 1 := ⟨n' - 1, by dsimp only at ht; omega⟩
  dsimp only at ht ⊢
  rw [(outs_last m hO hH c n h ht).2, pay7_eq]
  funext y
  rw [mse_acc m hO hH c (n + 1) h (ix2 0 0), ht]
  rfl

end Cert.KernelIdeal.Accum

end
-- ==== Proof.OutArrays.lean ====
/-
  The two output arrays after the region.

  Each output array has shape 2 x 8 x 128 and is written through blocks of shape 1 x 8 x 128; the block of grid point
  `t = 18 * core + step` is row `core` of the first axis, and it is written back at the last step of each core only, so
  the two write-backs (points 17 and 35) cover the array, row by row. The block read of an array at the block's index
  `y` is the array at `(core + y 0, y 1, y 2)`: the block index times the block size plus the coordinate inside the
  block, on each axis. Hence, when the staging buffer at the last step of core `k` holds one number `A k` at its corner
  and the zero pattern elsewhere, the array ends holding `A a` at `(a, 0, 0)` and the zero pattern elsewhere.
-/
import proofs.«178835_j59803124630166_2_alg».proof.Proof.Gen.KernelIdeal.Frame
import proofs.«178835_j59803124630166_2_alg».proof.Proof.Spec
import Idealize.ShloMosaic.Lib.Pipeline.Value
import Idealize.ShloMosaic.Lib.ValueIdx
import Idealize.ShloMosaic.Lib.Tactic

noncomputable section

namespace Cert.KernelIdeal.OutArrays

open Cert.KernelIdeal Cert.KernelIdeal.Gen Idealize.ShloMosaic Idealize.ShloMosaic.ValueIdx
  Idealize.ShloMosaic.TcCoe Idealize.SL.Sem
open Idealize.ShloMosaic.Pipeline (Dat)

variable (m : (ℓ : Loc nD τ sig) → Buf (Elt Ideal) ℓ)

/-- The array that holds `A a` at `(a, 0, 0)` and the zero pattern elsewhere. -/
abbrev corner (A : Fin 2 → EReal) : S2x8x128.Idx → EReal :=
  fun idx => if (idx 1).val = 0 ∧ (idx 2).val = 0 then A (idx 0) else Spec.zeroF

/-- The two output windows' block index at grid point `t`: the core's number, then zero, zero. -/
theorem idx_facts : ∀ t : Fin grid0.N, cc0_transform_4 (grid0.coords t) = ![t.val / 18, 0, 0]
    ∧ cc0_transform_5 (grid0.coords t) = ![t.val / 18, 0, 0] :=
  (by decide +kernel : ∀ t : Fin grid0.N, _)

/-- An index of the first output array is in grid point `t`'s block iff each coordinate is in the block's range. -/
theorem mem_blk4 (hO : Ok m) (t : Fin (cfgM m hO).N) (i : S2x8x128.Idx) :
    i ∈ (((cfgM m hO).win 4).blk t).view.set ↔ ∀ a : Fin 3,
      cc0_transform_4 (grid0.coords t) a * S1x8x128.size a ≤ (i a).val
        ∧ (i a).val < cc0_transform_4 (grid0.coords t) a * S1x8x128.size a + S1x8x128.size a :=
  (Finset.ext_iff.mp (View.set_slice_whole main_v4_0 (((cfgM m hO).win 4).rect t)) i).trans Rect.mem_set_unit

section Four
variable (hO : Ok m) (hH : Hyps m hO) (c : Dev nD) (A : Fin 2 → EReal)
  (h : ∀ (t : Fin (cfgM m hO).N) (k : Fin 2), t.val = 18 * k.val + 17 →
    (outsAt0 m hO hH c t.val t.isLt).1
      = fun y : S1x8x128.Idx => if (y 1).val = 0 ∧ (y 2).val = 0 then A k else Spec.zeroF)
include h

/-- What a write-back of the first output window writes is the block of `corner A` it covers: row `t / 18` of the
    first axis. -/
theorem flushed4_eq (t : Fin (cfgM m hO).N) (hf : ((cfgM m hO).win 4).flush t = true) :
    (dats m hO hH 0 c).flushed 4 t = (((cfgM m hO).win 4).blk t).view.read (Elt Ideal) (corner A) := by
  have hN : (cfgM m hO).N = 36 := N_0
  have ht : t.val % 18 = 17 := (flush0_4 (adm m hO) t).mp hf
  have hk : t.val / 18 < 2 := by have := t.isLt; omega
  show ((cfgM m hO).win 4).cut (grid0.coords t) ((dats m hO hH 0 c).after 4 t) = _
  rw [after0_4, h t ⟨t.val / 18, hk⟩ (by show t.val = 18 * (t.val / 18) + 17; omega)]
  refine funext fun (y : S1x8x128.Idx) => ?_
  have hy0 : (y 0).val < 1 := (y 0).isLt
  have hy1 : (y 1).val < 8 := (y 1).isLt
  have hy2 : (y 2).val < 128 := (y 2).isLt
  obtain ⟨e4, -⟩ := idx_facts t
  have q0 : cc0_transform_4 (grid0.coords t) 0 = t.val / 18 := congrFun e4 0
  have q1 : cc0_transform_4 (grid0.coords t) 1 = 0 := congrFun e4 1
  have q2 : cc0_transform_4 (grid0.coords t) 2 = 0 := congrFun e4 2
  have E : (((cfgM m hO).win 4).blk t).view.emb y
      = ix3 (⟨t.val / 18, hk⟩ : Fin 2) (⟨(y 1).val, hy1⟩ : Fin 8) (⟨(y 2).val, hy2⟩ : Fin 128) := by
    funext a; apply Fin.ext
    match a with
    | ⟨0, _⟩ => show cc0_transform_4 (grid0.coords t) 0 * 1 + 1 * (y 0).val = t.val / 18; omega
    | ⟨1, _⟩ => show cc0_transform_4 (grid0.coords t) 1 * 8 + 1 * (y 1).val = (y 1).val; omega
    | ⟨2, _⟩ => show cc0_transform_4 (grid0.coords t) 2 * 128 + 1 * (y 2).val = (y 2).val; omega
  show _ = corner A ((((cfgM m hO).win 4).blk t).view.emb y)
  rw [E]

/-- The two write-backs cover the array, so it ends holding `corner A`. -/
theorem final4_of : (dats m hO hH 0 c).arrAt 4 (cfgM m hO).N = corner A :=
  (dats m hO hH 0 c).arrAt_eq_of_cover 4 (corner A) (flushed4_eq m hO hH c A h) fun (i : S2x8x128.Idx) => by
    have hN : (cfgM m hO).N = 36 := N_0
    have hi0 : (i 0).val < 2 := (i 0).isLt
    have hi1 : (i 1).val < 8 := (i 1).isLt
    have hi2 : (i 2).val < 128 := (i 2).isLt
    have hlt : 18 * (i 0).val + 17 < (cfgM m hO).N := by omega
    refine ⟨⟨18 * (i 0).val + 17, hlt⟩, (flush0_4 (adm m hO) _).mpr (by show (18 * (i 0).val + 17) % 18 = 17; omega), ?_⟩
    refine (mem_blk4 m hO _ i).mpr ?_
    obtain ⟨e4, -⟩ := idx_facts ⟨18 * (i 0).val + 17, hlt⟩
    have q0 : cc0_transform_4 (grid0.coords ⟨18 * (i 0).val + 17, hlt⟩) 0 = (18 * (i 0).val + 17) / 18 := congrFun e4 0
    have q1 : cc0_transform_4 (grid0.coords ⟨18 * (i 0).val + 17, hlt⟩) 1 = 0 := congrFun e4 1
    have q2 : cc0_transform_4 (grid0.coords ⟨18 * (i 0).val + 17, hlt⟩) 2 = 0 := congrFun e4 2
    intro a
    match a with
    | ⟨0, _⟩ =>
      show cc0_transform_4 (grid0.coords ⟨18 * (i 0).val + 17, hlt⟩) 0 * 1 ≤ (i 0).val
        ∧ (i 0).val < cc0_transform_4 (grid0.coords ⟨18 * (i 0).val + 17, hlt⟩) 0 * 1 + 1
      omega
    | ⟨1, _⟩ =>
      show cc0_transform_4 (grid0.coords ⟨18 * (i 0).val + 17, hlt⟩) 1 * 8 ≤ (i 1).val
        ∧ (i 1).val < cc0_transform_4 (grid0.coords ⟨18 * (i 0).val + 17, hlt⟩) 1 * 8 + 8
      omega
    | ⟨2, _⟩ =>
      show cc0_transform_4 (grid0.coords ⟨18 * (i 0).val + 17, hlt⟩) 2 * 128 ≤ (i 2).val
        ∧ (i 2).val < cc0_transform_4 (grid0.coords ⟨18 * (i 0).val + 17, hlt⟩) 2 * 128 + 128
      omega

end Four

/-- An index of the second output array is in grid point `t`'s block iff each coordinate is in the block's range. -/
theorem mem_blk5 (hO : Ok m) (t : Fin (cfgM m hO).N) (i : S2x8x128.Idx) :
    i ∈ (((cfgM m hO).win 5).blk t).view.set ↔ ∀ a : Fin 3,
      cc0_transform_5 (grid0.coords t) a * S1x8x128.size a ≤ (i a).val
        ∧ (i a).val < cc0_transform_5 (grid0.coords t) a * S1x8x128.size a + S1x8x128.size a :=
  (Finset.ext_iff.mp (View.set_slice_whole main_v4_1 (((cfgM m hO).win 5).rect t)) i).trans Rect.mem_set_unit

section Five
variable (hO : Ok m) (hH : Hyps m hO) (c : Dev nD) (A : Fin 2 → EReal)
  (h : ∀ (t : Fin (cfgM m hO).N) (k : Fin 2), t.val = 18 * k.val + 17 →
    (outsAt0 m hO hH c t.val t.isLt).2.1
      = fun y : S1x8x128.Idx => if (y 1).val = 0 ∧ (y 2).val = 0 then A k else Spec.zeroF)
include h

/-- What a write-back of the second output window writes is the block of `corner A` it covers: row `t / 18` of the
    first axis. -/
theorem flushed5_eq (t : Fin (cfgM m hO).N) (hf : ((cfgM m hO).win 5).flush t = true) :
    (dats m hO hH 0 c).flushed 5 t = (((cfgM m hO).win 5).blk t).view.read (Elt Ideal) (corner A) := by
  have hN : (cfgM m hO).N = 36 := N_0
  have ht : t.val % 18 = 17 := (flush0_5 (adm m hO) t).mp hf
  have hk : t.val / 18 < 2 := by have := t.isLt; omega
  show ((cfgM m hO).win 5).cut (grid0.coords t) ((dats m hO hH 0 c).after 5 t) = _
  rw [after0_5, h t ⟨t.val / 18, hk⟩ (by show t.val = 18 * (t.val / 18) + 17; omega)]
  refine funext fun (y : S1x8x128.Idx) => ?_
  have hy0 : (y 0).val < 1 := (y 0).isLt
  have hy1 : (y 1).val < 8 := (y 1).isLt
  have hy2 : (y 2).val < 128 := (y 2).isLt
  obtain ⟨-, e4⟩ := idx_facts t
  have q0 : cc0_transform_5 (grid0.coords t) 0 = t.val / 18 := congrFun e4 0
  have q1 : cc0_transform_5 (grid0.coords t) 1 = 0 := congrFun e4 1
  have q2 : cc0_transform_5 (grid0.coords t) 2 = 0 := congrFun e4 2
  have E : (((cfgM m hO).win 5).blk t).view.emb y
      = ix3 (⟨t.val / 18, hk⟩ : Fin 2) (⟨(y 1).val, hy1⟩ : Fin 8) (⟨(y 2).val, hy2⟩ : Fin 128) := by
    funext a; apply Fin.ext
    match a with
    | ⟨0, _⟩ => show cc0_transform_5 (grid0.coords t) 0 * 1 + 1 * (y 0).val = t.val / 18; omega
    | ⟨1, _⟩ => show cc0_transform_5 (grid0.coords t) 1 * 8 + 1 * (y 1).val = (y 1).val; omega
    | ⟨2, _⟩ => show cc0_transform_5 (grid0.coords t) 2 * 128 + 1 * (y 2).val = (y 2).val; omega
  show _ = corner A ((((cfgM m hO).win 5).blk t).view.emb y)
  rw [E]

/-- The two write-backs cover the array, so it ends holding `corner A`. -/
theorem final5_of : (dats m hO hH 0 c).arrAt 5 (cfgM m hO).N = corner A :=
  (dats m hO hH 0 c).arrAt_eq_of_cover 5 (corner A) (flushed5_eq m hO hH c A h) fun (i : S2x8x128.Idx) => by
    have hN : (cfgM m hO).N = 36 := N_0
    have hi0 : (i 0).val < 2 := (i 0).isLt
    have hi1 : (i 1).val < 8 := (i 1).isLt
    have hi2 : (i 2).val < 128 := (i 2).isLt
    have hlt : 18 * (i 0).val + 17 < (cfgM m hO).N := by omega
    refine ⟨⟨18 * (i 0).val + 17, hlt⟩, (flush0_5 (adm m hO) _).mpr (by show (18 * (i 0).val + 17) % 18 = 17; omega), ?_⟩
    refine (mem_blk5 m hO _ i).mpr ?_
    obtain ⟨-, e4⟩ := idx_facts ⟨18 * (i 0).val + 17, hlt⟩
    have q0 : cc0_transform_5 (grid0.coords ⟨18 * (i 0).val + 17, hlt⟩) 0 = (18 * (i 0).val + 17) / 18 := congrFun e4 0
    have q1 : cc0_transform_5 (grid0.coords ⟨18 * (i 0).val + 17, hlt⟩) 1 = 0 := congrFun e4 1
    have q2 : cc0_transform_5 (grid0.coords ⟨18 * (i 0).val + 17, hlt⟩) 2 = 0 := congrFun e4 2
    intro a
    match a with
    | ⟨0, _⟩ =>
      show cc0_transform_5 (grid0.coords ⟨18 * (i 0).val + 17, hlt⟩) 0 * 1 ≤ (i 0).val
        ∧ (i 0).val < cc0_transform_5 (grid0.coords ⟨18 * (i 0).val + 17, hlt⟩) 0 * 1 + 1
      omega
    | ⟨1, _⟩ =>
      show cc0_transform_5 (grid0.coords ⟨18 * (i 0).val + 17, hlt⟩) 1 * 8 ≤ (i 1).val
        ∧ (i 1).val < cc0_transform_5 (grid0.coords ⟨18 * (i 0).val + 17, hlt⟩) 1 * 8 + 8
      omega
    | ⟨2, _⟩ =>
      show cc0_transform_5 (grid0.coords ⟨18 * (i 0).val + 17, hlt⟩) 2 * 128 ≤ (i 2).val
        ∧ (i 2).val < cc0_transform_5 (grid0.coords ⟨18 * (i 0).val + 17, hlt⟩) 2 * 128 + 128
      omega

end Five

/-- The first output array after the region, from what its staging buffer holds at the two write-back points: when at
    the point `t` (the last step of core `t / 18`) it holds `A (t / 18)` at `(0, 0, 0)` and the zero pattern
    elsewhere, the array ends holding `A a` at `(a, 0, 0)` and the zero pattern elsewhere. -/
theorem final4 (hO : Ok m) (hH : Hyps m hO) (c : Dev nD) (A : Fin 2 → EReal)
    (h : ∀ (t : Fin (cfgM m hO).N) (ht : t.val % 18 = 17), (outsAt0 m hO hH c t.val t.isLt).1
      = fun y : S1x8x128.Idx => if (y 1).val = 0 ∧ (y 2).val = 0
          then A ⟨t.val / 18, by have := t.isLt; have : (cfgM m hO).N = 36 := N_0; omega⟩ else Spec.zeroF) :
    (dats m hO hH 0 c).arrAt 4 (cfgM m hO).N
      = fun idx : S2x8x128.Idx => if (idx 1).val = 0 ∧ (idx 2).val = 0 then A (idx 0) else Spec.zeroF :=
  final4_of m hO hH c A fun t k hk => by
    have e : (⟨t.val / 18, by have := t.isLt; have : (cfgM m hO).N = 36 := N_0; omega⟩ : Fin 2) = k :=
      Fin.ext (by show t.val / 18 = k.val; omega)
    rw [h t (by omega), e]

/-- The second output array after the region, likewise. -/
theorem final5 (hO : Ok m) (hH : Hyps m hO) (c : Dev nD) (A : Fin 2 → EReal)
    (h : ∀ (t : Fin (cfgM m hO).N) (ht : t.val % 18 = 17), (outsAt0 m hO hH c t.val t.isLt).2.1
      = fun y : S1x8x128.Idx => if (y 1).val = 0 ∧ (y 2).val = 0
          then A ⟨t.val / 18, by have := t.isLt; have : (cfgM m hO).N = 36 := N_0; omega⟩ else Spec.zeroF) :
    (dats m hO hH 0 c).arrAt 5 (cfgM m hO).N
      = fun idx : S2x8x128.Idx => if (idx 1).val = 0 ∧ (idx 2).val = 0 then A (idx 0) else Spec.zeroF :=
  final5_of m hO hH c A fun t k hk => by
    have e : (⟨t.val / 18, by have := t.isLt; have : (cfgM m hO).N = 36 := N_0; omega⟩ : Fin 2) = k :=
      Fin.ext (by show t.val / 18 = k.val; omega)
    rw [h t (by omega), e]

end Cert.KernelIdeal.OutArrays

end
-- ==== Proof.KernelTail.lean ====
/-
  The kernel program's three results, read off the lines that follow its one region.

  The region leaves two arrays of shape 2 x 8 x 128. The lines after it add each array up over all three axes, starting
  from the zero pattern, divide the second total by 8192 and the first by the number of pairs, and add one times each.
  When each array holds one number per core at `(core, 0, 0)` and zero elsewhere, a total is the zero pattern plus the
  two cores' numbers: the sum over the index set of the shape is re-indexed to the three coordinates, and on the
  8 x 128 grid only the corner contributes. The float literals stay bit patterns; only the zero that fills the arrays
  is read as the number zero.
-/
import proofs.«178835_j59803124630166_2_alg».proof.Proof.Gen.KernelIdeal.Frame
import proofs.«178835_j59803124630166_2_alg».proof.Proof.Spec
import Idealize.ShloMosaic.Lib.Pipeline.Value
import Idealize.ShloMosaic.Lib.StableHlo.Run
import Idealize.ShloMosaic.Lib.Tactic
import Idealize.ShloMosaic.PureOps.Ideal.Laws
import Idealize.ShloMosaic.Lib.ValueIdx

noncomputable section

namespace Cert.KernelIdeal.Tail

open Cert.KernelIdeal Cert.KernelIdeal.Gen Idealize.ShloMosaic Idealize.ShloMosaic.ValueIdx
  Idealize.ShloMosaic.TcCoe Idealize.SL.Sem Idealize.ShloMosaic.StableHlo
open scoped BigOperators

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A function on an 8 x 128 grid that is `x` at the corner and zero elsewhere sums to `x`. -/
theorem sum_corner2 (x : EReal) :
    ∑ b : Fin 8, ∑ c : Fin 128, (if b.val = 0 ∧ c.val = 0 then x else (0 : EReal)) = x := by
  rw [Finset.sum_eq_single (0 : Fin 8)]
  · rw [Finset.sum_eq_single (0 : Fin 128)]
    · exact if_pos ⟨rfl, rfl⟩
    · intro c _ hc
      exact if_neg fun h => hc (Fin.ext h.2)
    · intro h; exact absurd (Finset.mem_univ _) h
  · intro b _ hb
    refine Finset.sum_eq_zero fun c _ => ?_
    exact if_neg fun h => hb (Fin.ext h.1)
  · intro h; exact absurd (Finset.mem_univ _) h

/-- An array of shape 2 x 8 x 128 that holds `A a` at `(a, 0, 0)` and zero elsewhere sums to `A 0 + A 1`. -/
theorem sum_corner (A : Fin 2 → EReal) :
    ∑ idx : S2x8x128.Idx, (if (idx 1).val = 0 ∧ (idx 2).val = 0 then A (idx 0) else Spec.zeroF) = A 0 + A 1 := by
  rw [sum_idx3 (fun idx : S2x8x128.Idx => if (idx 1).val = 0 ∧ (idx 2).val = 0 then A (idx 0) else Spec.zeroF)]
  have hz : Spec.zeroF = 0 := Ideal.ofBits_zero_f32
  rw [hz, Fin.sum_univ_two]
  exact congrArg₂ (· + ·) (sum_corner2 (A 0)) (sum_corner2 (A 1))

/-- The host's sum over all three axes, from the zero pattern, of an array that holds `A a` at `(a, 0, 0)` and zero
    elsewhere: the zero pattern plus `A 0 + A 1`. -/
theorem reduce_corner (A : Fin 2 → EReal) (i : S_.Idx) :
    Host.reduceAdd (F := Ideal)
        (fun idx : S2x8x128.Idx => if (idx 1).val = 0 ∧ (idx 2).val = 0 then A (idx 0) else Spec.zeroF)
        (constant (F := Ideal) S_ .f32 0x00000000#32) reducesTo_S2x8x128_S_d0_1_2 h_S_ i
      = Spec.zeroF + (A 0 + A 1) := by
  rw [← sum_corner A]
  simp only [Host.reduceAdd, Ideal.hostReduceAdd_def]
  exact Ideal.hostReduceAdd_total reducesTo_S2x8x128_S_d0_1_2 (fun b => b.elim0) _ _ i

variable (m : (ℓ : Loc nD τ sig) → Buf (Elt Ideal) ℓ) (ρ : Dev nD → PrngReg)

section Tail
variable (hO : Ok m) (hH : Hyps m hO) (R M : Dev nD → Fin 2 → EReal)
  (h4 : ∀ c, (dats m hO hH 0 c).arrAt 4 (cfgM m hO).N
    = fun idx : S2x8x128.Idx => if (idx 1).val = 0 ∧ (idx 2).val = 0 then R c (idx 0) else Spec.zeroF)
  (h5 : ∀ c, (dats m hO hH 0 c).arrAt 5 (cfgM m hO).N
    = fun idx : S2x8x128.Idx => if (idx 1).val = 0 ∧ (idx 2).val = 0 then M c (idx 0) else Spec.zeroF)
include h4 h5

/-- After the lines that follow the region, the second result is the second output array's total over 8192. -/
theorem tail_v7 (c : Dev nD) :
    Pipeline.afterTail pcfgs (fun _ => adm m hO) (dats m hO hH) 0 (V0 m) [hostOps1] c main_v7
      = (fun _ => Ideal.div (Spec.zeroF + (M c 0 + M c 1)) Spec.countF) := by
  unfold Pipeline.afterTail
  show StableHlo.after hostOps1 _ (Proc.devRef .tc main_v7) = _
  after_results
  rw [Pipeline.withArrays_arr spec0 (launch0 (F := Ideal)).win.arr_inj c _ _ 5, h5 c]
  funext i
  show FloatOps.hostDivf (Host.reduceAdd (F := Ideal) _ _ reducesTo_S2x8x128_S_d0_1_2 h_S_ i) _ = _
  rw [reduce_corner]
  rfl

/-- After the lines that follow the region, the third result is the first output array's total over the number of
    pairs. -/
theorem tail_v8 (c : Dev nD) :
    Pipeline.afterTail pcfgs (fun _ => adm m hO) (dats m hO hH) 0 (V0 m) [hostOps1] c main_v8
      = (fun _ => Ideal.div (Spec.zeroF + (R c 0 + R c 1)) Spec.pairsF) := by
  unfold Pipeline.afterTail
  show StableHlo.after hostOps1 _ (Proc.devRef .tc main_v8) = _
  after_results
  rw [Pipeline.withArrays_arr spec0 (launch0 (F := Ideal)).win.arr_inj c _ _ 4, h4 c]
  funext i
  show FloatOps.hostDivf (Host.reduceAdd (F := Ideal) _ _ reducesTo_S2x8x128_S_d0_1_2 h_S_ i) _ = _
  rw [reduce_corner]
  rfl

/-- After the lines that follow the region, the first result is one times the second plus one times the third. -/
theorem tail_v11 (c : Dev nD) :
    Pipeline.afterTail pcfgs (fun _ => adm m hO) (dats m hO hH) 0 (V0 m) [hostOps1] c main_v11
      = (fun _ => Spec.oneF * Ideal.div (Spec.zeroF + (M c 0 + M c 1)) Spec.countF
          + Spec.oneF * Ideal.div (Spec.zeroF + (R c 0 + R c 1)) Spec.pairsF) := by
  unfold Pipeline.afterTail
  show StableHlo.after hostOps1 _ (Proc.devRef .tc main_v11) = _
  after_results
  rw [Pipeline.withArrays_arr spec0 (launch0 (F := Ideal)).win.arr_inj c _ _ 4, h4 c,
    Pipeline.withArrays_arr spec0 (launch0 (F := Ideal)).win.arr_inj c _ _ 5, h5 c]
  funext i
  show FloatOps.addf
      (FloatOps.mulf _ (FloatOps.hostDivf (Host.reduceAdd (F := Ideal) _ _ reducesTo_S2x8x128_S_d0_1_2 h_S_ i) _))
      (FloatOps.mulf _ (FloatOps.hostDivf (Host.reduceAdd (F := Ideal) _ _ reducesTo_S2x8x128_S_d0_1_2 h_S_ i) _)) = _
  rw [reduce_corner, reduce_corner]
  rfl

/-- Every weakly fair execution of the kernel program terminates with its three results the constant arrays at:
    one times the second plus one times the third; the second output array's total, after the zero it starts from,
    over 8192; the first output array's total, after the zero it starts from, over the number of pairs — given that
    each output array holds one number per core at `(core, 0, 0)` and zero elsewhere — and the arguments unchanged. -/
theorem results :
    θ_run (defs (F := Ideal)) (onTc (τ := τ) (main (F := Ideal))) ⟨m, fun _ => 0, ρ⟩ (fun r => ∀ c : Dev nD,
      r.2.mem ((c.tc : Thread nD τ).loc main_v11)
          = (fun _ => Spec.oneF * Ideal.div (Spec.zeroF + (M c 0 + M c 1)) Spec.countF
              + Spec.oneF * Ideal.div (Spec.zeroF + (R c 0 + R c 1)) Spec.pairsF)
      ∧ r.2.mem ((c.tc : Thread nD τ).loc main_v7) = (fun _ => Ideal.div (Spec.zeroF + (M c 0 + M c 1)) Spec.countF)
      ∧ r.2.mem ((c.tc : Thread nD τ).loc main_v8) = (fun _ => Ideal.div (Spec.zeroF + (R c 0 + R c 1)) Spec.pairsF)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v11 (by decide : main_v11 ∈ Pipeline.restRefs sig spec0)).trans (tail_v11 m hO hH R M h4 h5 c),
        ((h c).2 main_v7 (by decide : main_v7 ∈ Pipeline.restRefs sig spec0)).trans (tail_v7 m hO hH R M h4 h5 c),
        ((h c).2 main_v8 (by decide : main_v8 ∈ Pipeline.restRefs sig spec0)).trans (tail_v8 m hO hH R M h4 h5 c),
        ((h c).2 main_arg0 (by decide : main_arg0 ∈ Pipeline.restRefs sig spec0)).trans (W_main_arg0 m hO (dats m hO hH) c),
        ((h c).2 main_arg1 (by decide : main_arg1 ∈ Pipeline.restRefs sig spec0)).trans (W_main_arg1 m hO (dats m hO hH) c)⟩)
    (run_main m ρ hO hH)

end Tail

end Cert.KernelIdeal.Tail

end
-- ==== Proof.Totals.lean ====
/-
  The two totals. Each of the two cores accumulates, from zero, the 18 tiles the tables give it (the tile at position
  `18 * core + step`); the final result adds the two cores' accumulators to zero. Position `18 * k + s` with `k < 2` and
  `s < 18` is entry `(k, s)` of the tables, so the two accumulators together are the sum over all 36 table entries, which is
  the ranking sum (for the tiles) or the squared-error sum (for the diagonal tiles' blocks).
-/
import proofs.«178835_j59803124630166_2_alg».proof.Proof.TablesIdeal
import proofs.«178835_j59803124630166_2_alg».proof.Proof.Tiles
import proofs.«178835_j59803124630166_2_alg».proof.Proof.Spec

noncomputable section

namespace Cert.KernelIdeal.Totals

open Cert.KernelIdeal.Tables Cert Spec
open Idealize.ShloMosaic

/-- The tile at position `18 * k + s` is the tables' entry `(k, s)`. -/
theorem blockRow_eq : ∀ (k : Fin 2) (s : Fin 18), blockRow (18 * k.val + s.val) = Spec.il k s := by decide
theorem blockCol_eq : ∀ (k : Fin 2) (s : Fin 18), blockCol (18 * k.val + s.val) = Spec.jl k s := by decide

variable (p t : Fin 8192 → EReal)

/-- The two cores' ranking accumulators add up to the ranking sum. -/
theorem rank_total (A : Fin 2 → EReal)
    (hA : ∀ k : Fin 2, A k = Spec.zeroF + ∑ s ∈ Finset.range 18,
      Spec.tileRank p t (blockRow (18 * k.val + s)) (blockCol (18 * k.val + s))) :
    Spec.zeroF + (A 0 + A 1) = Spec.zeroF + Spec.rankSum p t := by
  have hz : Spec.zeroF = 0 := Ideal.ofBits_zero_f32
  have hk : ∀ k : Fin 2, A k = ∑ s : Fin 18, Spec.tileRank p t (Spec.il k s) (Spec.jl k s) := by
    intro k
    rw [hA k, hz, zero_add, Finset.sum_range]
    exact Finset.sum_congr rfl fun s _ => by rw [blockRow_eq, blockCol_eq]
  rw [← Cert.Spec.Tiles.rank_tiles p t, Fin.sum_univ_two, hk 0, hk 1]

/-- The two cores' squared-error accumulators add up to the squared-error sum. -/
theorem mse_total (A : Fin 2 → EReal)
    (hA : ∀ k : Fin 2, A k = Spec.zeroF + ∑ s ∈ Finset.range 18,
      (if blockRow (18 * k.val + s) = blockCol (18 * k.val + s) then Spec.tileMse p t (blockRow (18 * k.val + s)) else 0)) :
    Spec.zeroF + (A 0 + A 1) = Spec.zeroF + Spec.mseSum p t := by
  have hz : Spec.zeroF = 0 := Ideal.ofBits_zero_f32
  have hk : ∀ k : Fin 2, A k = ∑ s : Fin 18, (if Spec.il k s = Spec.jl k s then Spec.tileMse p t (Spec.il k s) else 0) := by
    intro k
    rw [hA k, hz, zero_add, Finset.sum_range]
    exact Finset.sum_congr rfl fun s _ => by rw [blockRow_eq, blockCol_eq]
  rw [← Cert.Spec.Tiles.mse_tiles p t, Fin.sum_univ_two, hk 0, hk 1]

end Cert.KernelIdeal.Totals

end
-- ==== Proof.ResultIdeal.lean ====
/-
  The idealized kernel's three results, as the specification's. After the region the first result array holds each core's
  ranking total at (core, 0, 0) and zero elsewhere, the second each core's squared-error total; the host sums each array from
  zero, so it gets zero plus the two cores' totals, and the 36 tiles the two cores visit are exactly the tiles on or above the
  diagonal, each once, so those are zero plus the ranking sum and zero plus the squared-error sum of the specification; the
  divisions by the two counts, the products with one and the final sum are the specification's own.
-/
import proofs.«178835_j59803124630166_2_alg».proof.Proof.AccumIdeal
import proofs.«178835_j59803124630166_2_alg».proof.Proof.OutArrays
import proofs.«178835_j59803124630166_2_alg».proof.Proof.KernelTail
import proofs.«178835_j59803124630166_2_alg».proof.Proof.Totals

set_option maxRecDepth 16384

noncomputable section

open Idealize.ShloMosaic Idealize.ShloMosaic.TcCoe Idealize.SL.Sem

namespace Cert.KernelIdeal.Result

open Cert.KernelIdeal Cert.KernelIdeal.Gen Cert.KernelIdeal.Tables Cert.KernelIdeal.Steps Cert.KernelIdeal.Accum ValueIdx
open Cert

variable (m : (ℓ : Loc nD τ sig) → Buf (Elt Ideal) ℓ) (ρ : Dev nD → PrngReg)

/-- Every weakly fair execution of the idealized kernel terminates with its three results at the specification's combined
    loss, mean squared error and ranking loss of the two arguments, and the arguments unchanged. -/
theorem run_spec : θ_run (defs (F := Ideal)) (onTc (τ := τ) (main (F := Ideal))) ⟨m, fun _ => 0, ρ⟩ (fun r => ∀ c : Dev nD,
      r.2.mem ((c.tc : Thread nD τ).loc main_v11) = (fun _ => Spec.outCombined (pred m c) (targ m c))
      ∧ r.2.mem ((c.tc : Thread nD τ).loc main_v7) = (fun _ => Spec.outMse (pred m c) (targ m c))
      ∧ r.2.mem ((c.tc : Thread nD τ).loc main_v8) = (fun _ => Spec.outRank (pred m c) (targ m c))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  have hO : Ok m := ok m
  have hH : Hyps m hO := hyps m hO
  have h4 : ∀ c, (dats m hO hH 0 c).arrAt 4 (cfgM m hO).N
      = fun idx : S2x8x128.Idx => if (idx 1).val = 0 ∧ (idx 2).val = 0 then (fun (c : Dev nD) (k : Fin 2) => rankCore m c k.val) c (idx 0) else Spec.zeroF :=
    fun c => OutArrays.final4_of m hO hH c (fun k => rankCore m c k.val) (fun t k hk => by
      rw [out4_last m hO hH c t (by omega), show t.val / 18 = k.val by omega])
  have h5 : ∀ c, (dats m hO hH 0 c).arrAt 5 (cfgM m hO).N
      = fun idx : S2x8x128.Idx => if (idx 1).val = 0 ∧ (idx 2).val = 0 then (fun (c : Dev nD) (k : Fin 2) => mseCore m c k.val) c (idx 0) else Spec.zeroF :=
    fun c => OutArrays.final5_of m hO hH c (fun k => mseCore m c k.val) (fun t k hk => by
      rw [out5_last m hO hH c t (by omega), show t.val / 18 = k.val by omega])
  refine (θ_run _ _ _).mono (fun r h c => ?_)
    (Tail.results m ρ hO hH (fun c k => rankCore m c k.val) (fun c k => mseCore m c k.val) h4 h5)
  obtain ⟨e11, e7, e8, ea0, ea1⟩ := h c
  have hr : Spec.zeroF + (rankCore m c (0 : Fin 2).val + rankCore m c (1 : Fin 2).val) = Spec.zeroF + Spec.rankSum (pred m c) (targ m c) :=
    Totals.rank_total (pred m c) (targ m c) (fun k => rankCore m c k.val) (fun k => rfl)
  have hm : Spec.zeroF + (mseCore m c (0 : Fin 2).val + mseCore m c (1 : Fin 2).val) = Spec.zeroF + Spec.mseSum (pred m c) (targ m c) :=
    Totals.mse_total (pred m c) (targ m c) (fun k => mseCore m c k.val) (fun k => rfl)
  refine ⟨e11.trans ?_, e7.trans ?_, e8.trans ?_, ea0, ea1⟩
  · funext _
    exact congrArg₂ (fun x y => Spec.oneF * Ideal.div x Spec.countF + Spec.oneF * Ideal.div y Spec.pairsF) hm hr
  · funext _
    exact congrArg (fun x => Ideal.div x Spec.countF) hm
  · funext _
    exact congrArg (fun x => Ideal.div x Spec.pairsF) hr

end Cert.KernelIdeal.Result

end
-- ==== Proof.RefValue.lean ====
/-
  The reference program's three results are the specification's.

  Each of the reference's operations reads, at an index, its operands at an index; composing these readings, the masked
  pair term at the pair `(a, b)` is the pair's loss of the two targets and the two predictions times the indicator of
  `a < b` (the integer comparison of the row's and the column's numbers, both below 8192, is the comparison of the
  naturals), and the squared-error term at `a` is the squared difference. The two total sums are re-indexed from the
  index sets of the shapes 8192 and 8192 x 8192 to the coordinates, which gives the specification's sums. The float
  literals stay bit patterns throughout; only the mask's zero and one are read as numbers.
-/
import proofs.«178835_j59803124630166_2_alg».proof.Proof.Gen.ReferenceIdeal.Read
import proofs.«178835_j59803124630166_2_alg».proof.Proof.Spec

noncomputable section

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo
open scoped BigOperators

/-- A vector of length 8192 as a function of its one coordinate. -/
abbrev coords (x : FVec Ideal S8192 .f32) : Fin 8192 → EReal := fun a => x (ix1 a)

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Two naturals below 8192 compare as 32-bit signed words the way they compare as naturals, so the integer mask
    (zero where the row's number plus zero is at least the column's, the pattern of one elsewhere) is the indicator
    of the strict upper triangle. -/
theorem mask_eq (a b : Nat) (ha : a < 8192) (hb : b < 8192) :
    Scalar.select (IntOp.cmpi .sge (IntOp.addi (BitVec.ofNat 32 a) 0#32) (BitVec.ofNat 32 b))
      (Ideal.ofBits .f32 0x00000000#32) (Ideal.ofBits .f32 0x3F800000#32) = Spec.upper a b := by
  have hA : (BitVec.ofNat 32 a).toInt = (a : Int) := by
    rw [BitVec.toInt_eq_toNat_of_lt (by rw [BitVec.toNat_ofNat]; omega), BitVec.toNat_ofNat]; omega
  have hB : (BitVec.ofNat 32 b).toInt = (b : Int) := by
    rw [BitVec.toInt_eq_toNat_of_lt (by rw [BitVec.toNat_ofNat]; omega), BitVec.toNat_ofNat]; omega
  unfold Spec.upper IntOp.cmpi IntOp.addi Scalar.select
  simp only [BitVec.add_zero, BitVec.sle, hA, hB]
  by_cases h : a < b
  · rw [if_pos h, decide_eq_false (by omega)]
    exact (if_neg (by decide)).trans (IdealRules.sign_bit.ideal_onePat .f32)
  · rw [if_neg h, decide_eq_true (by omega)]
    exact (if_pos rfl).trans Ideal.ofBits_zero_f32

/-- The reference's masked pair term at the pair `(a, b)`: the pair's loss, read from the two targets and the two
    predictions, times the indicator of `a < b`. -/
theorem pair_apply (x0 x1 : FVec Ideal S8192 .f32) (a b : Fin 8192) :
    val_main_v29 (F := Ideal) x0 x1 (ix2 a b)
      = Spec.pairLoss (coords x1 a) (coords x1 b) (coords x0 a) (coords x0 b) * Spec.upper a.val b.val := by
  have e4 : idx_main_v4 (idx_main_v6 (ix2 a b)) = ix1 a :=
    funext fun d => Fin.ext (by match d with | ⟨0, _⟩ => rfl)
  have e5 : idx_main_v5 (idx_main_v7 (ix2 a b)) = ix1 b :=
    funext fun d => Fin.ext (by match d with | ⟨0, _⟩ => rfl)
  have e17 : idx_main_v17 (idx_main_v19 (ix2 a b)) = ix1 a :=
    funext fun d => Fin.ext (by match d with | ⟨0, _⟩ => rfl)
  have e18 : idx_main_v18 (idx_main_v20 (ix2 a b)) = ix1 b :=
    funext fun d => Fin.ext (by match d with | ⟨0, _⟩ => rfl)
  rw [val_main_v29_apply, val_main_v26_apply, val_main_v25_apply, val_main_cst_4_apply, val_main_v24_apply,
    val_main_v16_apply, val_main_v15_apply, val_main_v14_apply, val_main_cst_3_apply, val_main_v13_apply,
    val_main_v12_apply, val_main_cst_2_apply, val_main_v11_apply, val_main_v10_apply, val_main_cst_1_apply,
    val_main_v23_apply, val_main_v21_apply, val_main_v19_apply, val_main_v17_apply, val_main_v20_apply,
    val_main_v18_apply, val_main_v22_apply, val_main_v9_apply, val_main_v8_apply, val_main_v6_apply,
    val_main_v4_apply, val_main_v7_apply, val_main_v5_apply, val_main_v28_apply, val_main_call0_v4_apply,
    val_main_call0_v2_apply, val_main_call0_v0_apply, val_main_call0_v1_apply, val_main_call0_c_apply,
    val_main_call0_v3_apply, val_main_call0_v5_apply, val_main_call0_cst_apply, val_main_v27_apply,
    val_main_cst_5_apply, e4, e5, e17, e18]
  simp only [Ideal.ofBits_def, Ideal.mulf_def, Ideal.maximumf_def, Ideal.subf_def, Ideal.hostDivf_def, Ideal.addf_def,
    Ideal.hostAbsf_def, Ideal.absf_def, Ideal.hostUnary_sign_def]
  rw [mask_eq (ix2 a b 0).val (ix2 a b 1).val a.isLt b.isLt]
  rfl

/-- The mean squared error of the reference: the squared-error sum, after the zero it starts from, over 8192. -/
theorem mse_eq (x0 x1 : FVec Ideal S8192 .f32) :
    val_main_v3 (F := Ideal) x0 x1 = fun _ => Spec.outMse (coords x0) (coords x1) := by
  funext i
  rw [val_main_v3_apply, val_main_v2_apply, val_main_cst_apply, val_main_cst_0_apply,
    sum_idx1 (fun j => val_main_v1 (F := Ideal) x0 x1 j)]
  simp only [val_main_v1_apply, val_main_v0_apply, Ideal.ofBits_def, Ideal.hostDivf_def, Ideal.mulf_def, Ideal.subf_def]
  unfold Spec.outMse Spec.mseSum
  with_reducible rfl

/-- The ranking loss of the reference: the sum over all pairs of the masked pair terms, after the zero it starts
    from, over the number of pairs. -/
theorem rank_eq (x0 x1 : FVec Ideal S8192 .f32) :
    val_main_v31 (F := Ideal) x0 x1 = fun _ => Spec.outRank (coords x0) (coords x1) := by
  funext i
  rw [val_main_v31_apply, val_main_v30_apply, val_main_cst_6_apply, val_main_cst_7_apply,
    sum_idx2 (fun j => val_main_v29 (F := Ideal) x0 x1 j)]
  simp only [pair_apply, Ideal.ofBits_def, Ideal.hostDivf_def]
  unfold Spec.outRank Spec.rankSum
  with_reducible rfl

/-- The combined loss of the reference: one times each of the two. -/
theorem combined_eq (x0 x1 : FVec Ideal S8192 .f32) :
    val_main_v34 (F := Ideal) x0 x1 = fun _ => Spec.outCombined (coords x0) (coords x1) := by
  funext i
  rw [val_main_v34_apply, val_main_v32_apply, val_main_v33_apply, val_main_cst_8_apply, val_main_cst_9_apply,
    mse_eq, rank_eq]
  simp only [Ideal.ofBits_def, Ideal.addf_def, Ideal.mulf_def]
  unfold Spec.outCombined
  with_reducible rfl

/-- Every weakly fair execution of the reference terminates with its three results the constant arrays at the
    specification's combined loss, mean squared error and ranking loss of the two argument vectors, and the
    arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v34)
          = (fun _ => Spec.outCombined (coords (m ((c.tc : Thread nD τ).loc main_arg0)))
              (coords (m ((c.tc : Thread nD τ).loc main_arg1))))
      ∧ r.2.mem ((c.tc : Thread nD τ).loc main_v3)
          = (fun _ => Spec.outMse (coords (m ((c.tc : Thread nD τ).loc main_arg0)))
              (coords (m ((c.tc : Thread nD τ).loc main_arg1))))
      ∧ r.2.mem ((c.tc : Thread nD τ).loc main_v31)
          = (fun _ => Spec.outRank (coords (m ((c.tc : Thread nD τ).loc main_arg0)))
              (coords (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c).1.trans ((val_main_v34_eq (F := Ideal) _ _).trans (combined_eq _ _)),
        (h c).2.1.trans ((val_main_v3_eq (F := Ideal) _ _).trans (mse_eq _ _)),
        (h c).2.2.1.trans ((val_main_v31_eq (F := Ideal) _ _).trans (rank_eq _ _)),
        (h c).2.2.2⟩)
    (Value.run (F := Ideal) m ρ)

end Cert.ReferenceIdeal.RefValue

end
-- ==== Proof.lean ====
/-
  The kernel computes a combined loss of 8192 predictions against 8192 targets: the mean squared error, plus the mean over the
  8192 * 8191 / 2 pairs a < b of max 0 (0.3 / (1 + 0.1 * |t a - t b|) * |t a - t b| - (p a - p b) * sign (t a - t b)). The reference
  forms the whole 8192 x 8192 matrix of pair losses, multiplies it by the strict-upper-triangle indicator and sums. The kernel cuts
  the matrix into 64 tiles of 1024 x 1024 and visits only the 36 tiles on or above the diagonal, 18 on each of two cores, in
  an order two constant tables give; a diagonal tile is masked with its own strict upper triangle and also contributes its block's
  squared errors, a tile above the diagonal is summed whole; each core adds its tiles' sums into two one-element accumulators
  and writes them, at its last step, into one position of an otherwise zero output tile; the host sums the output tiles and
  divides. Over the extended reals both are the same sums in another grouping: a tile below the diagonal contributes zero
  because every term is multiplied by the indicator's zero, and the two tables list every other tile exactly once. The sign of a
  difference is computed in the kernel from its sign bit and on the host by the sign function: the same function of an
  extended real. Nothing in the comparison needs the inputs to be finite.

  The three frames: the two kernel programs' generated frames hold under side conditions on the words read from the two
  tables (an offset 1024 * word stays inside 8192), which hold of the constants the program itself writes; the reference's frame
  is its run with the results dropped. The idealization rewrote one thing, the sign-bit read, whose rule's statement is its own.
-/
import proofs.«178835_j59803124630166_2_alg».proof.Defs
import proofs.«178835_j59803124630166_2_alg».proof.Proof.Gen.Kernel
import proofs.«178835_j59803124630166_2_alg».proof.Proof.Gen.Kernel.Skeleton
import proofs.«178835_j59803124630166_2_alg».proof.Proof.Gen.Kernel.Launch
import proofs.«178835_j59803124630166_2_alg».proof.Proof.Gen.Kernel.Points
import proofs.«178835_j59803124630166_2_alg».proof.Proof.Gen.Kernel.Frame
import proofs.«178835_j59803124630166_2_alg».proof.Proof.Gen.KernelIdeal
import proofs.«178835_j59803124630166_2_alg».proof.Proof.Gen.KernelIdeal.Skeleton
import proofs.«178835_j59803124630166_2_alg».proof.Proof.Gen.KernelIdeal.Launch
import proofs.«178835_j59803124630166_2_alg».proof.Proof.Gen.KernelIdeal.Points
import proofs.«178835_j59803124630166_2_alg».proof.Proof.Gen.KernelIdeal.Frame
import proofs.«178835_j59803124630166_2_alg».proof.Proof.Gen.ReferenceIdeal
import proofs.«178835_j59803124630166_2_alg».proof.Proof.Gen.Pre_finite_inputs
import proofs.«178835_j59803124630166_2_alg».proof.Proof.Gen.ReferenceIdeal.Run
import proofs.«178835_j59803124630166_2_alg».proof.Proof.Gen.ReferenceIdeal.Read
import proofs.«178835_j59803124630166_2_alg».proof.Proof.TablesBits
import proofs.«178835_j59803124630166_2_alg».proof.Proof.TablesIdeal
import proofs.«178835_j59803124630166_2_alg».proof.Proof.ResultIdeal
import proofs.«178835_j59803124630166_2_alg».proof.Proof.RefValue
import Idealize.ShloMosaic.Adequacy
import Idealize.ShloMosaic.Init

noncomputable section

namespace Cert.Proof

open Idealize.ShloMosaic Idealize.SL.Sem

/-- The word-level kernel runs and leaves its arguments: the generated frame, its two hypotheses from the constant tables. -/
theorem frame_kernel : Cert.frame_Kernel := fun m ρ _ =>
  Cert.Kernel.Gen.frame m ρ (Cert.Kernel.Tables.ok m) (Cert.Kernel.Tables.hyps m _)

/-- The idealized kernel likewise. -/
theorem frame_kernelIdeal : Cert.frame_KernelIdeal := fun m ρ _ =>
  Cert.KernelIdeal.Gen.frame m ρ (Cert.KernelIdeal.Tables.ok m) (Cert.KernelIdeal.Tables.hyps m _)

/-- The reference runs and leaves its arguments: its run, the results dropped. -/
theorem frame_referenceIdeal : Cert.frame_ReferenceIdeal := fun m ρ _ =>
  (θ_run Cert.ReferenceIdeal.defs _ _).mono (fun _ h c => (h c).2.2.2) (Cert.ReferenceIdeal.RefValue.run_spec m ρ)

/-- The one rewrite of the idealization: one with a value's sign bit is minus one below zero and one otherwise. -/
theorem preserves : Cert.preserves_Kernel_KernelIdeal :=
  IdealRules.sign_bit.statement Cert.KernelIdeal.S1024x1024 .f32

/-- Both idealized programs end with the specification's three results of arguments that agree. -/
theorem algebraic : Cert.algebraic_KernelIdeal_ReferenceIdeal := by
  intro m ρ m' ρ' _ hagree
  refine ⟨fun c => fun _ => Spec.outCombined (Cert.KernelIdeal.Steps.pred m c) (Cert.KernelIdeal.Steps.targ m c),
    fun c => fun _ => Spec.outMse (Cert.KernelIdeal.Steps.pred m c) (Cert.KernelIdeal.Steps.targ m c),
    fun c => fun _ => Spec.outRank (Cert.KernelIdeal.Steps.pred m c) (Cert.KernelIdeal.Steps.targ m c),
    Cert.KernelIdeal.Result.run_spec m ρ, ?_⟩
  refine (θ_run Cert.ReferenceIdeal.defs _ _).mono (fun r h c => ?_) (Cert.ReferenceIdeal.RefValue.run_spec m' ρ')
  obtain ⟨e1, e2, e3, e4, e5⟩ := h c
  rw [(hagree c).1, (hagree c).2] at e1 e2 e3
  exact ⟨e1, e2, e3, e4, e5⟩

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
